-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x28 : Shape := ⟨2, ![262144, 28]⟩
abbrev S3x64 : Shape := ⟨2, ![3, 64]⟩
abbrev S64 : Shape := ⟨1, ![64]⟩
abbrev S64x128 : Shape := ⟨2, ![64, 128]⟩
abbrev S128 : Shape := ⟨1, ![128]⟩
abbrev S2x64 : Shape := ⟨2, ![2, 64]⟩
abbrev S4x64 : Shape := ⟨2, ![4, 64]⟩
abbrev S7x64 : Shape := ⟨2, ![7, 64]⟩
abbrev S128x128 : Shape := ⟨2, ![128, 128]⟩
abbrev S128x64 : Shape := ⟨2, ![128, 64]⟩
abbrev S64x1 : Shape := ⟨2, ![64, 1]⟩
abbrev S1 : Shape := ⟨1, ![1]⟩
abbrev S2x14 : Shape := ⟨2, ![2, 14]⟩
abbrev S_ : Shape := ⟨0, ![]⟩

class Facts : Prop where
  bcast_S_S262144x28 : S_.BroadcastsInDim S262144x28 (![] : Fin 0 → Fin S262144x28.rank)
  reducesTo_S262144x28_S_d0_1 : S262144x28.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x64 : S_.BroadcastsInDim S2x64 (![] : Fin 0 → Fin S2x64.rank)
  reducesTo_S2x64_S_d0_1 : S2x64.ReducesTo [0, 1] S_
  bcast_S_S4x64 : S_.BroadcastsInDim S4x64 (![] : Fin 0 → Fin S4x64.rank)
  reducesTo_S4x64_S_d0_1 : S4x64.ReducesTo [0, 1] S_
  bcast_S_S7x64 : S_.BroadcastsInDim S7x64 (![] : Fin 0 → Fin S7x64.rank)
  reducesTo_S7x64_S_d0_1 : S7x64.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x14 : S_.BroadcastsInDim S2x14 (![] : Fin 0 → Fin S2x14.rank)
  reducesTo_S2x14_S_d0_1 : S2x14.ReducesTo [0, 1] S_

variable [Facts]

def fn_part8 {F : FTy → Type} [FloatOps F] (main_arg27 : IVec S2x14 32) (main_v133 : IVec S_ 1) (main_v135 : IVec S2x14 1) (main_c_53 : IVec S_ 1) : IVec S_ 1 :=
  let main_v136 : IVec S_ 1 := (fun x v => Host.reduce IntOp.andi x v reducesTo_S2x14_S_d0_1 h_S_) main_v135 main_c_53
  let main_v137 : IVec S_ 1 := andi main_v133 main_v136
  let main_c_54 : IVec S_ 32 := constantI S_ 32 7#32
  let main_v138 : IVec S2x14 32 := broadcastInDim S2x14 ![] bcast_S_S2x14 main_c_54
  let main_v139 : IVec S2x14 1 := cmpi .slt main_arg27 main_v138
  let main_c_55 : IVec S_ 1 := constantI S_ 1 1#1
  let main_v140 : IVec S_ 1 := (fun x v => Host.reduce IntOp.andi x v reducesTo_S2x14_S_d0_1 h_S_) main_v139 main_c_55
  let main_v141 : IVec S_ 1 := andi main_v137 main_v140
  main_v141

def fn_part7 {F : FTy → Type} [FloatOps F] (main_arg25 : FVec F S64x1 .f32) (main_arg26 : FVec F S1 .f32) (main_arg27 : IVec S2x14 32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x1 .f32 := Host.absf main_arg25
  let main_cst_48 : FVec F S_ .f32 := constant S_ .f32 0x7F800000#32
  let main_v125 : FVec F S64x1 .f32 := broadcastInDim S64x1 ![] bcast_S_S64x1 main_cst_48
  let main_v126 : IVec S64x1 1 := cmpf .olt main_v124 main_v125
  let main_c_49 : IVec S_ 1 := constantI S_ 1 1#1
  let main_v127 : IVec S_ 1 := (fun x v => Host.reduce IntOp.andi x v reducesTo_S64x1_S_d0_1 h_S_) main_v126 main_c_49
  let main_v128 : IVec S_ 1 := andi main_v123 main_v127
  let main_v129 : FVec F S1 .f32 := Host.absf main_arg26
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  let main_c_52 : IVec S_ 32 := constantI S_ 32 0#32
  let main_v134 : IVec S2x14 32 := broadcastInDim S2x14 ![] bcast_S_S2x14 main_c_52
  let main_v135 : IVec S2x14 1 := cmpi .sge main_arg27 main_v134
  let main_c_53 : IVec S_ 1 := constantI S_ 1 1#1
  fn_part8 (F := F) main_arg27 main_v133 main_v135 main_c_53

def fn_part6 {F : FTy → Type} [FloatOps F] (main_arg21 : FVec F S128x128 .f32) (main_arg22 : FVec F S128 .f32) (main_arg23 : FVec F S128x64 .f32) (main_arg24 : FVec F S64 .f32) (main_arg25 : FVec F S64x1 .f32) (main_arg26 : FVec F S1 .f32) (main_arg27 : IVec S2x14 32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128x128 .f32 := Host.absf main_arg21
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x64 .f32 := Host.absf main_arg23
  let main_cst_44 : FVec F S_ .f32 := constant S_ .f32 0x7F800000#32
  let main_v115 : FVec F S128x64 .f32 := broadcastInDim S128x64 ![] bcast_S_S128x64 main_cst_44
  let main_v116 : IVec S128x64 1 := cmpf .olt main_v114 main_v115
  let main_c_45 : IVec S_ 1 := constantI S_ 1 1#1
  let main_v117 : IVec S_ 1 := (fun x v => Host.reduce IntOp.andi x v reducesTo_S128x64_S_d0_1 h_S_) main_v116 main_c_45
  let main_v118 : IVec S_ 1 := andi main_v113 main_v117
  let main_v119 : FVec F S64 .f32 := Host.absf main_arg24
  fn_part7 (F := F) main_arg25 main_arg26 main_arg27 main_v118 main_v119

def fn_part5 {F : FTy → Type} [FloatOps F] (main_arg18 : FVec F S128x128 .f32) (main_arg19 : FVec F S128 .f32) (main_arg20 : FVec F S128x128 .f32) (main_arg21 : FVec F S128x128 .f32) (main_arg22 : FVec F S128 .f32) (main_arg23 : FVec F S128x64 .f32) (main_arg24 : FVec F S64 .f32) (main_arg25 : FVec F S64x1 .f32) (main_arg26 : FVec F S1 .f32) (main_arg27 : IVec S2x14 32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg20
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S64 .f32) (main_arg15 : FVec F S64x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x64 .f32) (main_arg24 : FVec F S64 .f32) (main_arg25 : FVec F S64x1 .f32) (main_arg26 : FVec F S1 .f32) (main_arg27 : IVec S2x14 32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x128 .f32 := Host.absf main_arg15
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S64x128 .f32) (main_arg12 : FVec F S128 .f32) (main_arg13 : FVec F S7x64 .f32) (main_arg14 : FVec F S64 .f32) (main_arg15 : FVec F S64x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x64 .f32) (main_arg24 : FVec F S64 .f32) (main_arg25 : FVec F S64x1 .f32) (main_arg26 : FVec F S1 .f32) (main_arg27 : IVec S2x14 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg11
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S7x64 .f32 := Host.absf main_arg13
  let main_cst_24 : FVec F S_ .f32 := constant S_ .f32 0x7F800000#32
  let main_v65 : FVec F S7x64 .f32 := broadcastInDim S7x64 ![] bcast_S_S7x64 main_cst_24
  let main_v66 : IVec S7x64 1 := cmpf .olt main_v64 main_v65
  let main_c_25 : IVec S_ 1 := constantI S_ 1 1#1
  let main_v67 : IVec S_ 1 := (fun x v => Host.reduce IntOp.andi x v reducesTo_S7x64_S_d0_1 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S64x128 .f32) (main_arg8 : FVec F S128 .f32) (main_arg9 : FVec F S4x64 .f32) (main_arg10 : FVec F S64 .f32) (main_arg11 : FVec F S64x128 .f32) (main_arg12 : FVec F S128 .f32) (main_arg13 : FVec F S7x64 .f32) (main_arg14 : FVec F S64 .f32) (main_arg15 : FVec F S64x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x64 .f32) (main_arg24 : FVec F S64 .f32) (main_arg25 : FVec F S64x1 .f32) (main_arg26 : FVec F S1 .f32) (main_arg27 : IVec S2x14 32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S4x64 .f32 := Host.absf main_arg9
  let main_cst_16 : FVec F S_ .f32 := constant S_ .f32 0x7F800000#32
  let main_v45 : FVec F S4x64 .f32 := broadcastInDim S4x64 ![] bcast_S_S4x64 main_cst_16
  let main_v46 : IVec S4x64 1 := cmpf .olt main_v44 main_v45
  let main_c_17 : IVec S_ 1 := constantI S_ 1 1#1
  let main_v47 : IVec S_ 1 := (fun x v => Host.reduce IntOp.andi x v reducesTo_S4x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S128 .f32) (main_arg5 : FVec F S2x64 .f32) (main_arg6 : FVec F S64 .f32) (main_arg7 : FVec F S64x128 .f32) (main_arg8 : FVec F S128 .f32) (main_arg9 : FVec F S4x64 .f32) (main_arg10 : FVec F S64 .f32) (main_arg11 : FVec F S64x128 .f32) (main_arg12 : FVec F S128 .f32) (main_arg13 : FVec F S7x64 .f32) (main_arg14 : FVec F S64 .f32) (main_arg15 : FVec F S64x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x64 .f32) (main_arg24 : FVec F S64 .f32) (main_arg25 : FVec F S64x1 .f32) (main_arg26 : FVec F S1 .f32) (main_arg27 : IVec S2x14 32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S262144x28 .f32) (main_arg1 : FVec F S3x64 .f32) (main_arg2 : FVec F S64 .f32) (main_arg3 : FVec F S64x128 .f32) (main_arg4 : FVec F S128 .f32) (main_arg5 : FVec F S2x64 .f32) (main_arg6 : FVec F S64 .f32) (main_arg7 : FVec F S64x128 .f32) (main_arg8 : FVec F S128 .f32) (main_arg9 : FVec F S4x64 .f32) (main_arg10 : FVec F S64 .f32) (main_arg11 : FVec F S64x128 .f32) (main_arg12 : FVec F S128 .f32) (main_arg13 : FVec F S7x64 .f32) (main_arg14 : FVec F S64 .f32) (main_arg15 : FVec F S64x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x64 .f32) (main_arg24 : FVec F S64 .f32) (main_arg25 : FVec F S64x1 .f32) (main_arg26 : FVec F S1 .f32) (main_arg27 : IVec S2x14 32) : IVec S_ 1 :=
  let main_v0 : FVec F S262144x28 .f32 := Host.absf main_arg0
  let main_cst : FVec F S_ .f32 := constant S_ .f32 0x7F800000#32
  let main_v1 : FVec F S262144x28 .f32 := broadcastInDim S262144x28 ![] bcast_S_S262144x28 main_cst
  let main_v2 : IVec S262144x28 1 := cmpf .olt main_v0 main_v1
  let main_c : IVec S_ 1 := constantI S_ 1 1#1
  let main_v3 : IVec S_ 1 := (fun x v => Host.reduce IntOp.andi x v reducesTo_S262144x28_S_d0_1 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S262144x28 : Shape := ⟨2, ![262144, 28]⟩
abbrev S3x64 : Shape := ⟨2, ![3, 64]⟩
abbrev S64 : Shape := ⟨1, ![64]⟩
abbrev S64x128 : Shape := ⟨2, ![64, 128]⟩
abbrev S128 : Shape := ⟨1, ![128]⟩
abbrev S2x64 : Shape := ⟨2, ![2, 64]⟩
abbrev S4x64 : Shape := ⟨2, ![4, 64]⟩
abbrev S7x64 : Shape := ⟨2, ![7, 64]⟩
abbrev S128x128 : Shape := ⟨2, ![128, 128]⟩
abbrev S128x64 : Shape := ⟨2, ![128, 64]⟩
abbrev S64x1 : Shape := ⟨2, ![64, 1]⟩
abbrev S1 : Shape := ⟨1, ![1]⟩
abbrev S2x14 : Shape := ⟨2, ![2, 14]⟩
abbrev S1x28 : Shape := ⟨2, ![1, 28]⟩
abbrev S1x14 : Shape := ⟨2, ![1, 14]⟩
abbrev S14 : Shape := ⟨1, ![14]⟩
abbrev S_ : Shape := ⟨0, ![]⟩
abbrev S7 : Shape := ⟨1, ![7]⟩
abbrev S14x1 : Shape := ⟨2, ![14, 1]⟩
abbrev S7x7 : Shape := ⟨2, ![7, 7]⟩
abbrev S14x2 : Shape := ⟨2, ![14, 2]⟩
abbrev S1x1 : Shape := ⟨2, ![1, 1]⟩
abbrev S7x128 : Shape := ⟨2, ![7, 128]⟩
abbrev S1x3 : Shape := ⟨2, ![1, 3]⟩
abbrev S1x64 : Shape := ⟨2, ![1, 64]⟩
abbrev S1x128 : Shape := ⟨2, ![1, 128]⟩
abbrev S1x2 : Shape := ⟨2, ![1, 2]⟩
abbrev S1x4 : Shape := ⟨2, ![1, 4]⟩
abbrev S1x7 : Shape := ⟨2, ![1, 7]⟩

abbrev nBuf : Space → Nat
  | .hbm => 89
  | .vmem => 30
  | .smem => 0
  | _ => 0

abbrev bufTy : (tb : Table) → Fin (tcTables nBuf tb) → BufTy
  | .hbm, ⟨0, _⟩ => ⟨S262144x28, .f32⟩
  | .hbm, ⟨1, _⟩ => ⟨S3x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S2x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S4x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S7x64, .f32⟩
  | .hbm, ⟨14, _⟩ => ⟨S64, .f32⟩
  | .hbm, ⟨15, _⟩ => ⟨S64x128, .f32⟩
  | .hbm, ⟨16, _⟩ => ⟨S128, .f32⟩
  | .hbm, ⟨17, _⟩ => ⟨S128x128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128x128, .f32⟩
  | .hbm, ⟨22, _⟩ => ⟨S128, .f32⟩
  | .hbm, ⟨23, _⟩ => ⟨S128x64, .f32⟩
  | .hbm, ⟨24, _⟩ => ⟨S64, .f32⟩
  | .hbm, ⟨25, _⟩ => ⟨S64x1, .f32⟩
  | .hbm, ⟨26, _⟩ => ⟨S1, .f32⟩
  | .hbm, ⟨27, _⟩ => ⟨S2x14, .i32⟩
  | .hbm, ⟨28, _⟩ => ⟨S1x28, .f32⟩
  | .hbm, ⟨29, _⟩ => ⟨S1x14, .i32⟩
  | .hbm, ⟨30, _⟩ => ⟨S14, .i32⟩
  | .hbm, ⟨31, _⟩ => ⟨S1x14, .i32⟩
  | .hbm, ⟨32, _⟩ => ⟨S14, .i32⟩
  | .hbm, ⟨33, _⟩ => ⟨S_, .f32⟩
  | .hbm, ⟨34, _⟩ => ⟨S14, .f32⟩
  | .hbm, ⟨35, _⟩ => ⟨S_, .f32⟩
  | .hbm, ⟨36, _⟩ => ⟨S7, .f32⟩
  | .hbm, ⟨37, _⟩ => ⟨S14x1, .i32⟩
  | .hbm, ⟨38, _⟩ => ⟨S7, .f32⟩
  | .hbm, ⟨39, _⟩ => ⟨S_, .f32⟩
  | .hbm, ⟨40, _⟩ => ⟨S7, .f32⟩
  | .hbm, ⟨41, _⟩ => ⟨S7, .i1⟩
  | .hbm, ⟨42, _⟩ => ⟨S_, .f32⟩
  | .hbm, ⟨43, _⟩ => ⟨S7, .f32⟩
  | .hbm, ⟨44, _⟩ => ⟨S7, .f32⟩
  | .hbm, ⟨45, _⟩ => ⟨S_, .f32⟩
  | .hbm, ⟨46, _⟩ => ⟨S_, .f32⟩
  | .hbm, ⟨47, _⟩ => ⟨S7, .f32⟩
  | .hbm, ⟨48, _⟩ => ⟨S7, .f32⟩
  | .hbm, ⟨49, _⟩ => ⟨S_, .i32⟩
  | .hbm, ⟨50, _⟩ => ⟨S14, .i32⟩
  | .hbm, ⟨51, _⟩ => ⟨S14, .i1⟩
  | .hbm, ⟨52, _⟩ => ⟨S_, .i32⟩
  | .hbm, ⟨53, _⟩ => ⟨S14, .i32⟩
  | .hbm, ⟨54, _⟩ => ⟨S14, .i32⟩
  | .hbm, ⟨55, _⟩ => ⟨S14, .i32⟩
  | .hbm, ⟨56, _⟩ => ⟨S14x1, .i32⟩
  | .hbm, ⟨57, _⟩ => ⟨S14, .f32⟩
  | .hbm, ⟨58, _⟩ => ⟨S_, .i32⟩
  | .hbm, ⟨59, _⟩ => ⟨S14, .i32⟩
  | .hbm, ⟨60, _⟩ => ⟨S14, .i1⟩
  | .hbm, ⟨61, _⟩ => ⟨S_, .i32⟩
  | .hbm, ⟨62, _⟩ => ⟨S14, .i32⟩
  | .hbm, ⟨63, _⟩ => ⟨S14, .i32⟩
  | .hbm, ⟨64, _⟩ => ⟨S14, .i32⟩
  | .hbm, ⟨65, _⟩ => ⟨S14x1, .i32⟩
  | .hbm, ⟨66, _⟩ => ⟨S14, .f32⟩
  | .hbm, ⟨67, _⟩ => ⟨S14, .f32⟩
  | .hbm, ⟨68, _⟩ => ⟨S_, .f32⟩
  | .hbm, ⟨69, _⟩ => ⟨S7x7, .f32⟩
  | .hbm, ⟨70, _⟩ => ⟨S_, .i32⟩
  | .hbm, ⟨71, _⟩ => ⟨S14, .i32⟩
  | .hbm, ⟨72, _⟩ => ⟨S14, .i1⟩
  | .hbm, ⟨73, _⟩ => ⟨S_, .i32⟩
  | .hbm, ⟨74, _⟩ => ⟨S14, .i32⟩
  | .hbm, ⟨75, _⟩ => ⟨S14, .i32⟩
  | .hbm, ⟨76, _⟩ => ⟨S14, .i32⟩
  | .hbm, ⟨77, _⟩ => ⟨S_, .i32⟩
  | .hbm, ⟨78, _⟩ => ⟨S14, .i32⟩
  | .hbm, ⟨79, _⟩ => ⟨S14, .i1⟩
  | .hbm, ⟨80, _⟩ => ⟨S_, .i32⟩
  | .hbm, ⟨81, _⟩ => ⟨S14, .i32⟩
  | .hbm, ⟨82, _⟩ => ⟨S14, .i32⟩
  | .hbm, ⟨83, _⟩ => ⟨S14, .i32⟩
  | .hbm, ⟨84, _⟩ => ⟨S14x1, .i32⟩
  | .hbm, ⟨85, _⟩ => ⟨S14x1, .i32⟩
  | .hbm, ⟨86, _⟩ => ⟨S14x2, .i32⟩
  | .hbm, ⟨87, _⟩ => ⟨S7x7, .f32⟩
  | .hbm, ⟨88, _⟩ => ⟨S1x1, .f32⟩
  | .local _ .vmem, ⟨0, _⟩ => ⟨S1x28, .f32⟩
  | .local _ .vmem, ⟨1, _⟩ => ⟨S3x64, .f32⟩
  | .local _ .vmem, ⟨2, _⟩ => ⟨S64, .f32⟩
  | .local _ .vmem, ⟨3, _⟩ => ⟨S64x128, .f32⟩
  | .local _ .vmem, ⟨4, _⟩ => ⟨S128, .f32⟩
  | .local _ .vmem, ⟨5, _⟩ => ⟨S2x64, .f32⟩
  | .local _ .vmem, ⟨6, _⟩ => ⟨S64, .f32⟩
  | .local _ .vmem, ⟨7, _⟩ => ⟨S64x128, .f32⟩
  | .local _ .vmem, ⟨8, _⟩ => ⟨S128, .f32⟩
  | .local _ .vmem, ⟨9, _⟩ => ⟨S4x64, .f32⟩
  | .local _ .vmem, ⟨10, _⟩ => ⟨S64, .f32⟩
  | .local _ .vmem, ⟨11, _⟩ => ⟨S64x128, .f32⟩
  | .local _ .vmem, ⟨12, _⟩ => ⟨S128, .f32⟩
  | .local _ .vmem, ⟨13, _⟩ => ⟨S7x64, .f32⟩
  | .local _ .vmem, ⟨14, _⟩ => ⟨S64, .f32⟩
  | .local _ .vmem, ⟨15, _⟩ => ⟨S64x128, .f32⟩
  | .local _ .vmem, ⟨16, _⟩ => ⟨S128, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128x128, .f32⟩
  | .local _ .vmem, ⟨22, _⟩ => ⟨S128, .f32⟩
  | .local _ .vmem, ⟨23, _⟩ => ⟨S128x64, .f32⟩
  | .local _ .vmem, ⟨24, _⟩ => ⟨S64, .f32⟩
  | .local _ .vmem, ⟨25, _⟩ => ⟨S64x1, .f32⟩
  | .local _ .vmem, ⟨26, _⟩ => ⟨S1, .f32⟩
  | .local _ .vmem, ⟨27, _⟩ => ⟨S7x7, .f32⟩
  | .local _ .vmem, ⟨28, _⟩ => ⟨S1x1, .f32⟩
  | .local _ .vmem, ⟨29, _⟩ => ⟨S7x128, .f32⟩
  | _, _ => ⟨S262144x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_cst_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v13 : Ref sig .tc := ⟨.hbm, 48, rfl⟩
abbrev main_c : Ref sig .tc := ⟨.hbm, 49, rfl⟩
abbrev main_v14 : Ref sig .tc := ⟨.hbm, 50, rfl⟩
abbrev main_v15 : Ref sig .tc := ⟨.hbm, 51, rfl⟩
abbrev main_c_4 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_c_5 : Ref sig .tc := ⟨.hbm, 58, rfl⟩
abbrev main_v21 : Ref sig .tc := ⟨.hbm, 59, rfl⟩
abbrev main_v22 : Ref sig .tc := ⟨.hbm, 60, rfl⟩
abbrev main_c_6 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_7 : Ref sig .tc := ⟨.hbm, 68, rfl⟩
abbrev main_v29 : Ref sig .tc := ⟨.hbm, 69, rfl⟩
abbrev main_c_8 : Ref sig .tc := ⟨.hbm, 70, rfl⟩
abbrev main_v30 : Ref sig .tc := ⟨.hbm, 71, rfl⟩
abbrev main_v31 : Ref sig .tc := ⟨.hbm, 72, rfl⟩
abbrev main_c_9 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_c_10 : Ref sig .tc := ⟨.hbm, 77, rfl⟩
abbrev main_v35 : Ref sig .tc := ⟨.hbm, 78, rfl⟩
abbrev main_v36 : Ref sig .tc := ⟨.hbm, 79, rfl⟩
abbrev main_c_11 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_scratch0 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S7x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S7x7 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

class Facts₀ : Prop where
  slices_S262144x28_S1x28_0_0 : S262144x28.Slices ![0, 0] S1x28
  slices_S2x14_S1x14_0_0 : S2x14.Slices ![0, 0] S1x14
  shapeCasts_S1x14_S14 : S1x14.ShapeCasts S14
  slices_S2x14_S1x14_1_0 : S2x14.Slices ![1, 0] S1x14
  bcast_S_S14 : S_.BroadcastsInDim S14 (![] : Fin 0 → Fin S14.rank)
  bcast_S_S7 : S_.BroadcastsInDim S7 (![] : Fin 0 → Fin S7.rank)
  bcast_S14_S14x1_0 : S14.BroadcastsInDim S14x1 (![0] : Fin 1 → Fin S14x1.rank)
  bcast_S_S7x7 : S_.BroadcastsInDim S7x7 (![] : Fin 0 → Fin S7x7.rank)
  concatenates_S14x1_S14x1_S14x2_d1 : Shape.Concatenates [S14x1, S14x1] S14x2 1
  inb_S1x28_S1x28_0_0 : ∀ a, (![0, 0] : Fin 2 → Nat) a + S1x28.size a ≤ S1x28.size a
  h_S1x28 : 0 < S1x28.numel
  shapeCasts_S1x28_S1x28 : S1x28.ShapeCasts S1x28
  slices_S1x28_o0_0_S1x3 : S1x28.Slices ![0, 0] S1x3
  inb_S3x64_S3x64_0_0 : ∀ a, (![0, 0] : Fin 2 → Nat) a + S3x64.size a ≤ S3x64.size a
  h_S3x64 : 0 < S3x64.numel
  inb_S64_S64_0 : ∀ a, (![0] : Fin 1 → Nat) a + S64.size a ≤ S64.size a
  h_S64 : 0 < S64.numel
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S64_S1x64 : S64.ShapeCasts S1x64
  shapeCasts_S128_S1x128 : S128.ShapeCasts S1x128
  slices_S1x28_o0_3_S1x2 : S1x28.Slices ![0, 3] S1x2
  inb_S2x64_S2x64_0_0 : ∀ a, (![0, 0] : Fin 2 → Nat) a + S2x64.size a ≤ S2x64.size a
  h_S2x64 : 0 < S2x64.numel
  inb_S4x64_S4x64_0_0 : ∀ a, (![0, 0] : Fin 2 → Nat) a + S4x64.size a ≤ S4x64.size a
  h_S4x64 : 0 < S4x64.numel
  slices_S1x28_o0_5_S1x4 : S1x28.Slices ![0, 5] S1x4
  slices_S1x28_o0_9_S1x4 : S1x28.Slices ![0, 9] S1x4
  slices_S1x28_o0_13_S1x4 : S1x28.Slices ![0, 13] S1x4
  slices_S1x28_o0_17_S1x4 : S1x28.Slices ![0, 17] S1x4
  slices_S1x28_o0_21_S1x7 : S1x28.Slices ![0, 21] S1x7
  inb_S7x64_S7x64_0_0 : ∀ a, (![0, 0] : Fin 2 → Nat) a + S7x64.size a ≤ S7x64.size a
  h_S7x64 : 0 < S7x64.numel
  shapeCasts_S1x128_S128 : S1x128.ShapeCasts S128
  inb_S7x128_S1x128_0_0 : ∀ a, (![0, 0] : Fin 2 → Nat) a + S1x128.size a ≤ S7x128.size a
  h_S1x128 : 0 < S1x128.numel
  inb_S7x128_S1x128_1_0 : ∀ a, (![1, 0] : Fin 2 → Nat) a + S1x128.size a ≤ S7x128.size a
  inb_S7x128_S1x128_2_0 : ∀ a, (![2, 0] : Fin 2 → Nat) a + S1x128.size a ≤ S7x128.size a
  inb_S7x128_S1x128_3_0 : ∀ a, (![3, 0] : Fin 2 → Nat) a + S1x128.size a ≤ S7x128.size a
  inb_S7x128_S1x128_4_0 : ∀ a, (![4, 0] : Fin 2 → Nat) a + S1x128.size a ≤ S7x128.size a
  inb_S7x128_S1x128_5_0 : ∀ a, (![5, 0] : Fin 2 → Nat) a + S1x128.size a ≤ S7x128.size a
  inb_S7x128_S1x128_6_0 : ∀ a, (![6, 0] : Fin 2 → Nat) a + S1x128.size a ≤ S7x128.size a
  inb_S7x128_S7x128_0_0 : ∀ a, (![0, 0] : Fin 2 → Nat) a + S7x128.size a ≤ S7x128.size a
  h_S7x128 : 0 < S7x128.numel
  inb_S7x7_S7x7_0_0 : ∀ a, (![0, 0] : Fin 2 → Nat) a + S7x7.size a ≤ S7x7.size a
  h_S7x7 : 0 < S7x7.numel
  shapeCasts_S7x7_S7x7 : S7x7.ShapeCasts S7x7
  inb_S128x128_S128x128_0_0 : ∀ a, (![0, 0] : Fin 2 → Nat) a + S128x128.size a ≤ S128x128.size a
  h_S128x128 : 0 < S128x128.numel
  broadcasts_S1x128_S7x128 : S1x128.Broadcasts S7x128
  reduces_S7x128_S128 : S7x128.Reduces [0] S128
  inb_S128x64_S128x64_0_0 : ∀ a, (![0, 0] : Fin 2 → Nat) a + S128x64.size a ≤ S128x64.size a
  h_S128x64 : 0 < S128x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  inb_S1x1_S1x1_0_0 : ∀ a, (![0, 0] : Fin 2 → Nat) a + S1x1.size a ≤ S1x1.size a
  h_S1x1 : 0 < S1x1.numel
  scatter_S7_S14x1_S14_n_0_0_1_wf : ScatterDims.WF S7 S14x1 S14 [] [0] [0] 1
  gather_S7_S14x1_S14_n_0_n_n_0_1_1_wf : GatherDims.WF S7 S14x1 S14 [] [0] [] [0] [] 1 ![1]
  scatter_S7x7_S14x2_S14_n_01_01_1_wf : ScatterDims.WF S7x7 S14x2 S14 [] [0, 1] [0, 1] 1
  dot_S1x3_S3x64_S1x64_1_0_0_1_n_n_wf : DotDims.WF S1x3 S3x64 S1x64 [1] [0] [0] [1] [] []
  dot_S1x64_S64x128_S1x128_1_0_0_1_n_n_wf : DotDims.WF S1x64 S64x128 S1x128 [1] [0] [0] [1] [] []
  dot_S1x2_S2x64_S1x64_1_0_0_1_n_n_wf : DotDims.WF S1x2 S2x64 S1x64 [1] [0] [0] [1] [] []
  dot_S1x4_S4x64_S1x64_1_0_0_1_n_n_wf : DotDims.WF S1x4 S4x64 S1x64 [1] [0] [0] [1] [] []
  dot_S1x7_S7x64_S1x64_1_0_0_1_n_n_wf : DotDims.WF S1x7 S7x64 S1x64 [1] [0] [0] [1] [] []
  dot_S7x128_S128x128_S7x128_1_0_0_1_n_n_wf : DotDims.WF S7x128 S128x128 S7x128 [1] [0] [0] [1] [] []
  dot_S7x7_S7x128_S7x128_1_0_0_1_n_n_wf : DotDims.WF S7x7 S7x128 S7x128 [1] [0] [0] [1] [] []
  dot_S1x128_S128x64_S1x64_1_0_0_1_n_n_wf : DotDims.WF S1x128 S128x64 S1x64 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x28.size a ≤ S1x28.size a
  hwx0_0 : ∀ i : grid0.Coords, EltTy.bits .f32 = 32 ∨ (Rect.block (s := S1x28) S1x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x64.size a ≤ S4x64.size a
  hwx0_9 : ∀ i : grid0.Coords, EltTy.bits .f32 = 32 ∨ (Rect.block (s := S4x64) S4x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .f32 = 32 ∨ (Rect.block (s := S64x128) S64x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S7x64.size a ≤ S7x64.size a
  hwx0_13 : ∀ i : grid0.Coords, EltTy.bits .f32 = 32 ∨ (Rect.block (s := S7x64) S7x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x128.size a ≤ S64x128.size a
  hwx0_15 : ∀ i : grid0.Coords, EltTy.bits .f32 = 32 ∨ (Rect.block (s := S64x128) S64x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x128.size a ≤ S128x128.size a
  hwx0_18 : ∀ i : grid0.Coords, EltTy.bits .f32 = 32 ∨ (Rect.block (s := S128x128) S128x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .f32 = 32 ∨ (Rect.block (s := S128x128) S128x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .f32 = 32 ∨ (Rect.block (s := S128x128) S128x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128.size a ≤ S128.size a
  hwx0_22 : ∀ i : grid0.Coords, EltTy.bits .f32 = 32 ∨ (Rect.block (s := S128) S128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x64.size a ≤ S128x64.size a
  hwx0_23 : ∀ i : grid0.Coords, EltTy.bits .f32 = 32 ∨ (Rect.block (s := S128x64) S128x64.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S64.size a ≤ S64.size a
  hwx0_24 : ∀ i : grid0.Coords, EltTy.bits .f32 = 32 ∨ (Rect.block (s := S64) S64.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S64x1.size a ≤ S64x1.size a
  hwx0_25 : ∀ i : grid0.Coords, EltTy.bits .f32 = 32 ∨ (Rect.block (s := S64x1) S64x1.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1.size a ≤ S1.size a
  hwx0_26 : ∀ i : grid0.Coords, EltTy.bits .f32 = 32 ∨ (Rect.block (s := S1) S1.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S7x7.size a ≤ S7x7.size a
  hwx0_27 : ∀ i : grid0.Coords, EltTy.bits .f32 = 32 ∨ (Rect.block (s := S7x7) S7x7.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x1.size a ≤ S1x1.size a
  hwx0_28 : ∀ i : grid0.Coords, EltTy.bits .f32 = 32 ∨ (Rect.block (s := S1x1) S1x1.size (cc0_transform_28 i) (hinb0_28 i)).WholeWords (EltTy.packing .f32)

variable [Facts₀]

def scatter_S7_S14x1_S14_n_0_0_1 : ScatterDims S7 S14x1 S14 where
  updateWindowDims := []
  insertedWindowDims := [0]
  scatterDimsToOperandDims := [0]
  indexVectorDim := 1
  wf := scatter_S7_S14x1_S14_n_0_0_1_wf
def gather_S7_S14x1_S14_n_0_n_n_0_1_1 : GatherDims S7 S14x1 S14 where
  offsetDims := []
  collapsedSliceDims := [0]
  operandBatchingDims := []
  startIndicesBatchingDims := []
  startIndexMap := [0]
  indexVectorDim := 1
  sliceSizes := ![1]
  wf := gather_S7_S14x1_S14_n_0_n_n_0_1_1_wf
def scatter_S7x7_S14x2_S14_n_01_01_1 : ScatterDims S7x7 S14x2 S14 where
  updateWindowDims := []
  insertedWindowDims := [0, 1]
  scatterDimsToOperandDims := [0, 1]
  indexVectorDim := 1
  wf := scatter_S7x7_S14x2_S14_n_01_01_1_wf
def dot_S1x3_S3x64_S1x64_1_0_0_1_n_n : DotDims S1x3 S3x64 S1x64 where
  lhsContracting := [1]
  rhsContracting := [0]
  lhsNonContracting := [0]
  rhsNonContracting := [1]
  lhsBatch := []
  rhsBatch := []
  wf := dot_S1x3_S3x64_S1x64_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S1x2_S2x64_S1x64_1_0_0_1_n_n : DotDims S1x2 S2x64 S1x64 where
  lhsContracting := [1]
  rhsContracting := [0]
  lhsNonContracting := [0]
  rhsNonContracting := [1]
  lhsBatch := []
  rhsBatch := []
  wf := dot_S1x2_S2x64_S1x64_1_0_0_1_n_n_wf
def dot_S1x4_S4x64_S1x64_1_0_0_1_n_n : DotDims S1x4 S4x64 S1x64 where
  lhsContracting := [1]
  rhsContracting := [0]
  lhsNonContracting := [0]
  rhsNonContracting := [1]
  lhsBatch := []
  rhsBatch := []
  wf := dot_S1x4_S4x64_S1x64_1_0_0_1_n_n_wf
def dot_S1x7_S7x64_S1x64_1_0_0_1_n_n : DotDims S1x7 S7x64 S1x64 where
  lhsContracting := [1]
  rhsContracting := [0]
  lhsNonContracting := [0]
  rhsNonContracting := [1]
  lhsBatch := []
  rhsBatch := []
  wf := dot_S1x7_S7x64_S1x64_1_0_0_1_n_n_wf
def dot_S7x128_S128x128_S7x128_1_0_0_1_n_n : DotDims S7x128 S128x128 S7x128 where
  lhsContracting := [1]
  rhsContracting := [0]
  lhsNonContracting := [0]
  rhsNonContracting := [1]
  lhsBatch := []
  rhsBatch := []
  wf := dot_S7x128_S128x128_S7x128_1_0_0_1_n_n_wf
def dot_S7x7_S7x128_S7x128_1_0_0_1_n_n : DotDims S7x7 S7x128 S7x128 where
  lhsContracting := [1]
  rhsContracting := [0]
  lhsNonContracting := [0]
  rhsNonContracting := [1]
  lhsBatch := []
  rhsBatch := []
  wf := dot_S7x7_S7x128_S7x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_v0) S1x28.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S7x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S64x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S128x64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S64x1.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S1.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v43) S7x7.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v44) S1x1.size cc0_transform_28 reads0_28 true true 1 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S262144x28 : Shape := ⟨2, ![262144, 28]⟩
abbrev S3x64 : Shape := ⟨2, ![3, 64]⟩
abbrev S64 : Shape := ⟨1, ![64]⟩
abbrev S64x128 : Shape := ⟨2, ![64, 128]⟩
abbrev S128 : Shape := ⟨1, ![128]⟩
abbrev S2x64 : Shape := ⟨2, ![2, 64]⟩
abbrev S4x64 : Shape := ⟨2, ![4, 64]⟩
abbrev S7x64 : Shape := ⟨2, ![7, 64]⟩
abbrev S128x128 : Shape := ⟨2, ![128, 128]⟩
abbrev S128x64 : Shape := ⟨2, ![128, 64]⟩
abbrev S64x1 : Shape := ⟨2, ![64, 1]⟩
abbrev S1 : Shape := ⟨1, ![1]⟩
abbrev S2x14 : Shape := ⟨2, ![2, 14]⟩
abbrev S262144x3 : Shape := ⟨2, ![262144, 3]⟩
abbrev S262144x64 : Shape := ⟨2, ![262144, 64]⟩
abbrev S1x64 : Shape := ⟨2, ![1, 64]⟩
abbrev S_ : Shape := ⟨0, ![]⟩
abbrev S262144x128 : Shape := ⟨2, ![262144, 128]⟩
abbrev S1x128 : Shape := ⟨2, ![1, 128]⟩
abbrev S262144x2 : Shape := ⟨2, ![262144, 2]⟩
abbrev S262144x4 : Shape := ⟨2, ![262144, 4]⟩
abbrev S262144x7 : Shape := ⟨2, ![262144, 7]⟩
abbrev S262144x1x128 : Shape := ⟨3, ![262144, 1, 128]⟩
abbrev S262144x7x128 : Shape := ⟨3, ![262144, 7, 128]⟩
abbrev S1x7x128 : Shape := ⟨3, ![1, 7, 128]⟩
abbrev S7x128 : Shape := ⟨2, ![7, 128]⟩
abbrev S1x14 : Shape := ⟨2, ![1, 14]⟩
abbrev S14 : Shape := ⟨1, ![14]⟩
abbrev S7 : Shape := ⟨1, ![7]⟩
abbrev S14x1 : Shape := ⟨2, ![14, 1]⟩
abbrev S14x128 : Shape := ⟨2, ![14, 128]⟩
abbrev S1x1 : Shape := ⟨2, ![1, 1]⟩

abbrev nBuf : Space → Nat
  | .hbm => 223
  | .vmem => 0
  | .smem => 0
  | _ => 0

abbrev hbmTy0_0 (i : Nat) : BufTy := match i % 128 with
  | 0 => ⟨S262144x28, .f32⟩
  | 1 => ⟨S3x64, .f32⟩
  | 2 => ⟨S64, .f32⟩
  | 3 => ⟨S64x128, .f32⟩
  | 4 => ⟨S128, .f32⟩
  | 5 => ⟨S2x64, .f32⟩
  | 6 => ⟨S64, .f32⟩
  | 7 => ⟨S64x128, .f32⟩
  | 8 => ⟨S128, .f32⟩
  | 9 => ⟨S4x64, .f32⟩
  | 10 => ⟨S64, .f32⟩
  | 11 => ⟨S64x128, .f32⟩
  | 12 => ⟨S128, .f32⟩
  | 13 => ⟨S7x64, .f32⟩
  | 14 => ⟨S64, .f32⟩
  | 15 => ⟨S64x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S128x128, .f32⟩
  | 22 => ⟨S128, .f32⟩
  | 23 => ⟨S128x64, .f32⟩
  | 24 => ⟨S64, .f32⟩
  | 25 => ⟨S64x1, .f32⟩
  | 26 => ⟨S1, .f32⟩
  | 27 => ⟨S2x14, .i32⟩
  | 28 => ⟨S262144x3, .f32⟩
  | 29 => ⟨S262144x64, .f32⟩
  | 30 => ⟨S1x64, .f32⟩
  | 31 => ⟨S262144x64, .f32⟩
  | 32 => ⟨S262144x64, .f32⟩
  | 33 => ⟨S_, .f32⟩
  | 34 => ⟨S262144x64, .f32⟩
  | 35 => ⟨S262144x64, .f32⟩
  | 36 => ⟨S262144x128, .f32⟩
  | 37 => ⟨S1x128, .f32⟩
  | 38 => ⟨S262144x128, .f32⟩
  | 39 => ⟨S262144x128, .f32⟩
  | 40 => ⟨S262144x2, .f32⟩
  | 41 => ⟨S262144x64, .f32⟩
  | 42 => ⟨S1x64, .f32⟩
  | 43 => ⟨S262144x64, .f32⟩
  | 44 => ⟨S262144x64, .f32⟩
  | 45 => ⟨S_, .f32⟩
  | 46 => ⟨S262144x64, .f32⟩
  | 47 => ⟨S262144x64, .f32⟩
  | 48 => ⟨S262144x128, .f32⟩
  | 49 => ⟨S1x128, .f32⟩
  | 50 => ⟨S262144x128, .f32⟩
  | 51 => ⟨S262144x128, .f32⟩
  | 52 => ⟨S262144x4, .f32⟩
  | 53 => ⟨S262144x64, .f32⟩
  | 54 => ⟨S1x64, .f32⟩
  | 55 => ⟨S262144x64, .f32⟩
  | 56 => ⟨S262144x64, .f32⟩
  | 57 => ⟨S_, .f32⟩
  | 58 => ⟨S262144x64, .f32⟩
  | 59 => ⟨S262144x64, .f32⟩
  | 60 => ⟨S262144x128, .f32⟩
  | 61 => ⟨S1x128, .f32⟩
  | 62 => ⟨S262144x128, .f32⟩
  | 63 => ⟨S262144x128, .f32⟩
  | 64 => ⟨S262144x4, .f32⟩
  | 65 => ⟨S262144x64, .f32⟩
  | 66 => ⟨S1x64, .f32⟩
  | 67 => ⟨S262144x64, .f32⟩
  | 68 => ⟨S262144x64, .f32⟩
  | 69 => ⟨S_, .f32⟩
  | 70 => ⟨S262144x64, .f32⟩
  | 71 => ⟨S262144x64, .f32⟩
  | 72 => ⟨S262144x128, .f32⟩
  | 73 => ⟨S1x128, .f32⟩
  | 74 => ⟨S262144x128, .f32⟩
  | 75 => ⟨S262144x128, .f32⟩
  | 76 => ⟨S262144x4, .f32⟩
  | 77 => ⟨S262144x64, .f32⟩
  | 78 => ⟨S1x64, .f32⟩
  | 79 => ⟨S262144x64, .f32⟩
  | 80 => ⟨S262144x64, .f32⟩
  | 81 => ⟨S_, .f32⟩
  | 82 => ⟨S262144x64, .f32⟩
  | 83 => ⟨S262144x64, .f32⟩
  | 84 => ⟨S262144x128, .f32⟩
  | 85 => ⟨S1x128, .f32⟩
  | 86 => ⟨S262144x128, .f32⟩
  | 87 => ⟨S262144x128, .f32⟩
  | 88 => ⟨S262144x4, .f32⟩
  | 89 => ⟨S262144x64, .f32⟩
  | 90 => ⟨S1x64, .f32⟩
  | 91 => ⟨S262144x64, .f32⟩
  | 92 => ⟨S262144x64, .f32⟩
  | 93 => ⟨S_, .f32⟩
  | 94 => ⟨S262144x64, .f32⟩
  | 95 => ⟨S262144x64, .f32⟩
  | 96 => ⟨S262144x128, .f32⟩
  | 97 => ⟨S1x128, .f32⟩
  | 98 => ⟨S262144x128, .f32⟩
  | 99 => ⟨S262144x128, .f32⟩
  | 100 => ⟨S262144x7, .f32⟩
  | 101 => ⟨S262144x64, .f32⟩
  | 102 => ⟨S1x64, .f32⟩
  | 103 => ⟨S262144x64, .f32⟩
  | 104 => ⟨S262144x64, .f32⟩
  | 105 => ⟨S_, .f32⟩
  | 106 => ⟨S262144x64, .f32⟩
  | 107 => ⟨S262144x64, .f32⟩
  | 108 => ⟨S262144x128, .f32⟩
  | 109 => ⟨S1x128, .f32⟩
  | 110 => ⟨S262144x128, .f32⟩
  | 111 => ⟨S262144x128, .f32⟩
  | 112 => ⟨S262144x1x128, .f32⟩
  | 113 => ⟨S262144x1x128, .f32⟩
  | 114 => ⟨S262144x1x128, .f32⟩
  | 115 => ⟨S262144x1x128, .f32⟩
  | 116 => ⟨S262144x1x128, .f32⟩
  | 117 => ⟨S262144x1x128, .f32⟩
  | 118 => ⟨S262144x1x128, .f32⟩
  | 119 => ⟨S262144x7x128, .f32⟩
  | 120 => ⟨S1x7x128, .f32⟩
  | 121 => ⟨S7x128, .f32⟩
  | 122 => ⟨S1x14, .i32⟩
  | 123 => ⟨S14, .i32⟩
  | 124 => ⟨S1x14, .i32⟩
  | 125 => ⟨S14, .i32⟩
  | 126 => ⟨S_, .f32⟩
  | 127 => ⟨S14, .f32⟩
  | _ => ⟨S262144x28, .f32⟩

abbrev hbmTy0_1 (i : Nat) : BufTy := match i % 128 with
  | 0 => ⟨S_, .f32⟩
  | 1 => ⟨S7, .f32⟩
  | 2 => ⟨S14x1, .i32⟩
  | 3 => ⟨S7, .f32⟩
  | 4 => ⟨S_, .f32⟩
  | 5 => ⟨S7, .f32⟩
  | 6 => ⟨S7, .i1⟩
  | 7 => ⟨S_, .f32⟩
  | 8 => ⟨S7, .f32⟩
  | 9 => ⟨S7, .f32⟩
  | 10 => ⟨S_, .f32⟩
  | 11 => ⟨S_, .f32⟩
  | 12 => ⟨S7, .f32⟩
  | 13 => ⟨S7, .f32⟩
  | 14 => ⟨S_, .i32⟩
  | 15 => ⟨S14, .i32⟩
  | 16 => ⟨S14, .i1⟩
  | 17 => ⟨S_, .i32⟩
  | 18 => ⟨S14, .i32⟩
  | 19 => ⟨S14, .i32⟩
  | 20 => ⟨S14, .i32⟩
  | 21 => ⟨S14x1, .i32⟩
  | 22 => ⟨S14, .f32⟩
  | 23 => ⟨S_, .i32⟩
  | 24 => ⟨S14, .i32⟩
  | 25 => ⟨S14, .i1⟩
  | 26 => ⟨S_, .i32⟩
  | 27 => ⟨S14, .i32⟩
  | 28 => ⟨S14, .i32⟩
  | 29 => ⟨S14, .i32⟩
  | 30 => ⟨S14x1, .i32⟩
  | 31 => ⟨S14, .f32⟩
  | 32 => ⟨S14, .f32⟩
  | 33 => ⟨S7x128, .f32⟩
  | 34 => ⟨S_, .i32⟩
  | 35 => ⟨S14, .i32⟩
  | 36 => ⟨S14, .i1⟩
  | 37 => ⟨S_, .i32⟩
  | 38 => ⟨S14, .i32⟩
  | 39 => ⟨S14, .i32⟩
  | 40 => ⟨S14, .i32⟩
  | 41 => ⟨S14x1, .i32⟩
  | 42 => ⟨S14x128, .f32⟩
  | 43 => ⟨S14x1, .f32⟩
  | 44 => ⟨S14x128, .f32⟩
  | 45 => ⟨S14x128, .f32⟩
  | 46 => ⟨S_, .f32⟩
  | 47 => ⟨S7x128, .f32⟩
  | 48 => ⟨S14x1, .i32⟩
  | 49 => ⟨S7x128, .f32⟩
  | 50 => ⟨S7x128, .f32⟩
  | 51 => ⟨S7x128, .f32⟩
  | 52 => ⟨S1x128, .f32⟩
  | 53 => ⟨S7x128, .f32⟩
  | 54 => ⟨S7x128, .f32⟩
  | 55 => ⟨S_, .f32⟩
  | 56 => ⟨S7x128, .f32⟩
  | 57 => ⟨S7x128, .f32⟩
  | 58 => ⟨S7x128, .f32⟩
  | 59 => ⟨S_, .i32⟩
  | 60 => ⟨S14, .i32⟩
  | 61 => ⟨S14, .i1⟩
  | 62 => ⟨S_, .i32⟩
  | 63 => ⟨S14, .i32⟩
  | 64 => ⟨S14, .i32⟩
  | 65 => ⟨S14, .i32⟩
  | 66 => ⟨S14x1, .i32⟩
  | 67 => ⟨S14x128, .f32⟩
  | 68 => ⟨S14x1, .f32⟩
  | 69 => ⟨S14x128, .f32⟩
  | 70 => ⟨S14x128, .f32⟩
  | 71 => ⟨S_, .f32⟩
  | 72 => ⟨S7x128, .f32⟩
  | 73 => ⟨S14x1, .i32⟩
  | 74 => ⟨S7x128, .f32⟩
  | 75 => ⟨S7x128, .f32⟩
  | 76 => ⟨S7x128, .f32⟩
  | 77 => ⟨S1x128, .f32⟩
  | 78 => ⟨S7x128, .f32⟩
  | 79 => ⟨S7x128, .f32⟩
  | 80 => ⟨S_, .f32⟩
  | 81 => ⟨S7x128, .f32⟩
  | 82 => ⟨S7x128, .f32⟩
  | 83 => ⟨S_, .f32⟩
  | 84 => ⟨S128, .f32⟩
  | 85 => ⟨S1x128, .f32⟩
  | 86 => ⟨S1x64, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S1x1, .f32⟩
  | 93 => ⟨S1x1, .f32⟩
  | 94 => ⟨S1x1, .f32⟩
  | _ => ⟨S262144x28, .f32⟩

abbrev hbmTy (i : Nat) : BufTy := match i / 128 with
  | 0 => hbmTy0_0 i
  | 1 => hbmTy0_1 i
  | _ => ⟨S262144x28, .f32⟩

abbrev bufTy : (tb : Table) → Fin (tcTables nBuf tb) → BufTy
  | .hbm, ⟨i, _⟩ => hbmTy i
  | _, _ => ⟨S262144x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call0_cst : Ref sig .tc := ⟨.hbm, 33, rfl⟩
abbrev main_call0_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_call1_cst : Ref sig .tc := ⟨.hbm, 45, rfl⟩
abbrev main_call1_v0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call2_cst : Ref sig .tc := ⟨.hbm, 57, rfl⟩
abbrev main_call2_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_call3_cst : Ref sig .tc := ⟨.hbm, 69, rfl⟩
abbrev main_call3_v0 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call4_cst : Ref sig .tc := ⟨.hbm, 81, rfl⟩
abbrev main_call4_v0 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_call5_cst : Ref sig .tc := ⟨.hbm, 93, rfl⟩
abbrev main_call5_v0 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call6_cst : Ref sig .tc := ⟨.hbm, 105, rfl⟩
abbrev main_call6_v0 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst : Ref sig .tc := ⟨.hbm, 126, rfl⟩
abbrev main_v84 : Ref sig .tc := ⟨.hbm, 127, rfl⟩
abbrev main_cst_0 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_1 : Ref sig .tc := ⟨.hbm, 132, rfl⟩
abbrev main_v88 : Ref sig .tc := ⟨.hbm, 133, rfl⟩
abbrev main_v89 : Ref sig .tc := ⟨.hbm, 134, rfl⟩
abbrev main_cst_2 : Ref sig .tc := ⟨.hbm, 135, rfl⟩
abbrev main_v90 : Ref sig .tc := ⟨.hbm, 136, rfl⟩
abbrev main_v91 : Ref sig .tc := ⟨.hbm, 137, rfl⟩
abbrev main_cst_3 : Ref sig .tc := ⟨.hbm, 138, rfl⟩
abbrev main_call7_v0 : Ref sig .tc := ⟨.hbm, 139, rfl⟩
abbrev main_call7_v1 : Ref sig .tc := ⟨.hbm, 140, rfl⟩
abbrev main_v92 : Ref sig .tc := ⟨.hbm, 141, rfl⟩
abbrev main_c : Ref sig .tc := ⟨.hbm, 142, rfl⟩
abbrev main_v93 : Ref sig .tc := ⟨.hbm, 143, rfl⟩
abbrev main_v94 : Ref sig .tc := ⟨.hbm, 144, rfl⟩
abbrev main_c_4 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_5 : Ref sig .tc := ⟨.hbm, 151, rfl⟩
abbrev main_v100 : Ref sig .tc := ⟨.hbm, 152, rfl⟩
abbrev main_v101 : Ref sig .tc := ⟨.hbm, 153, rfl⟩
abbrev main_c_6 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_c_7 : Ref sig .tc := ⟨.hbm, 162, rfl⟩
abbrev main_v109 : Ref sig .tc := ⟨.hbm, 163, rfl⟩
abbrev main_v110 : Ref sig .tc := ⟨.hbm, 164, rfl⟩
abbrev main_c_8 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_9 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_call8_cst : Ref sig .tc := ⟨.hbm, 183, rfl⟩
abbrev main_call8_v0 : Ref sig .tc := ⟨.hbm, 184, rfl⟩
abbrev main_v127 : Ref sig .tc := ⟨.hbm, 185, rfl⟩
abbrev main_v128 : Ref sig .tc := ⟨.hbm, 186, rfl⟩
abbrev main_c_10 : Ref sig .tc := ⟨.hbm, 187, rfl⟩
abbrev main_v129 : Ref sig .tc := ⟨.hbm, 188, rfl⟩
abbrev main_v130 : Ref sig .tc := ⟨.hbm, 189, rfl⟩
abbrev main_c_11 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_cst_12 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_call9_cst : Ref sig .tc := ⟨.hbm, 208, rfl⟩
abbrev main_call9_v0 : Ref sig .tc := ⟨.hbm, 209, rfl⟩
abbrev main_v147 : Ref sig .tc := ⟨.hbm, 210, rfl⟩
abbrev main_cst_13 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_call10_cst : Ref sig .tc := ⟨.hbm, 217, rfl⟩
abbrev main_call10_v0 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩

abbrev nD : Nat := 1
abbrev τ : Topo := Topo.v7x

variable {F : FTy → Type} [FloatOps F]

class Facts₀ : Prop where
  slices_S262144x28_S262144x3_0_0 : S262144x28.Slices ![0, 0] S262144x3
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  slices_S262144x28_S262144x2_0_3 : S262144x28.Slices ![0, 3] S262144x2
  slices_S262144x28_S262144x4_0_5 : S262144x28.Slices ![0, 5] S262144x4
  slices_S262144x28_S262144x4_0_9 : S262144x28.Slices ![0, 9] S262144x4
  slices_S262144x28_S262144x4_0_13 : S262144x28.Slices ![0, 13] S262144x4
  slices_S262144x28_S262144x4_0_17 : S262144x28.Slices ![0, 17] S262144x4
  slices_S262144x28_S262144x7_0_21 : S262144x28.Slices ![0, 21] S262144x7
  bcast_S262144x128_S262144x1x128_0_2 : S262144x128.BroadcastsInDim S262144x1x128 (![0, 2] : Fin 2 → Fin S262144x1x128.rank)
  concatenates_S262144x1x128_S262144x1x128_S262144x1x128_S262144x1x128_S262144x1x128_S262144x1x128_S262144x1x128_S262144x7x128_d1 : Shape.Concatenates [S262144x1x128, S262144x1x128, S262144x1x128, S262144x1x128, S262144x1x128, S262144x1x128, S262144x1x128] S262144x7x128 1
  slices_S262144x7x128_S1x7x128_0_0_0 : S262144x7x128.Slices ![0, 0, 0] S1x7x128
  shapeCasts_S1x7x128_S7x128 : S1x7x128.ShapeCasts S7x128
  slices_S2x14_S1x14_0_0 : S2x14.Slices ![0, 0] S1x14
  shapeCasts_S1x14_S14 : S1x14.ShapeCasts S14
  slices_S2x14_S1x14_1_0 : S2x14.Slices ![1, 0] S1x14
  bcast_S_S14 : S_.BroadcastsInDim S14 (![] : Fin 0 → Fin S14.rank)
  bcast_S_S7 : S_.BroadcastsInDim S7 (![] : Fin 0 → Fin S7.rank)
  bcast_S14_S14x1_0 : S14.BroadcastsInDim S14x1 (![0] : Fin 1 → Fin S14x1.rank)
  bcast_S14x1_S14x128_0_1 : S14x1.BroadcastsInDim S14x128 (![0, 1] : Fin 2 → Fin S14x128.rank)
  bcast_S_S7x128 : S_.BroadcastsInDim S7x128 (![] : Fin 0 → Fin S7x128.rank)
  bcast_S1x128_S7x128_0_1 : S1x128.BroadcastsInDim S7x128 (![0, 1] : Fin 2 → Fin S7x128.rank)
  reducesTo_S7x128_S128_d0 : S7x128.ReducesTo [0] S128
  h_S_ : 0 < S_.numel
  bcast_S_S1x64 : S_.BroadcastsInDim S1x64 (![] : Fin 0 → Fin S1x64.rank)
  bcast_S1_S1x1_1 : S1.BroadcastsInDim S1x1 (![1] : Fin 1 → Fin S1x1.rank)
  dot_S262144x3_S3x64_S262144x64_1_0_0_1_n_n_wf : DotDims.WF S262144x3 S3x64 S262144x64 [1] [0] [0] [1] [] []
  dot_S262144x64_S64x128_S262144x128_1_0_0_1_n_n_wf : DotDims.WF S262144x64 S64x128 S262144x128 [1] [0] [0] [1] [] []
  dot_S262144x2_S2x64_S262144x64_1_0_0_1_n_n_wf : DotDims.WF S262144x2 S2x64 S262144x64 [1] [0] [0] [1] [] []
  dot_S262144x4_S4x64_S262144x64_1_0_0_1_n_n_wf : DotDims.WF S262144x4 S4x64 S262144x64 [1] [0] [0] [1] [] []
  dot_S262144x7_S7x64_S262144x64_1_0_0_1_n_n_wf : DotDims.WF S262144x7 S7x64 S262144x64 [1] [0] [0] [1] [] []
  scatter_S7_S14x1_S14_n_0_0_1_wf : ScatterDims.WF S7 S14x1 S14 [] [0] [0] 1
  gather_S7_S14x1_S14_n_0_n_n_0_1_1_wf : GatherDims.WF S7 S14x1 S14 [] [0] [] [0] [] 1 ![1]
  dot_S7x128_S128x128_S7x128_1_0_0_1_n_n_wf : DotDims.WF S7x128 S128x128 S7x128 [1] [0] [0] [1] [] []
  gather_S7x128_S14x1_S14x128_1_0_n_n_0_1_1128_wf : GatherDims.WF S7x128 S14x1 S14x128 [1] [0] [] [0] [] 1 ![1, 128]
  scatter_S7x128_S14x1_S14x128_1_0_0_1_wf : ScatterDims.WF S7x128 S14x1 S14x128 [1] [0] [0] 1
  dot_S1x128_S128x64_S1x64_1_0_0_1_n_n_wf : DotDims.WF S1x128 S128x64 S1x64 [1] [0] [0] [1] [] []
  dot_S1x64_S64x1_S1x1_1_0_0_1_n_n_wf : DotDims.WF S1x64 S64x1 S1x1 [1] [0] [0] [1] [] []

variable [Facts₀]

def dot_S262144x3_S3x64_S262144x64_1_0_0_1_n_n : DotDims S262144x3 S3x64 S262144x64 where
  lhsContracting := [1]
  rhsContracting := [0]
  lhsNonContracting := [0]
  rhsNonContracting := [1]
  lhsBatch := []
  rhsBatch := []
  wf := dot_S262144x3_S3x64_S262144x64_1_0_0_1_n_n_wf
def dot_S262144x64_S64x128_S262144x128_1_0_0_1_n_n : DotDims S262144x64 S64x128 S262144x128 where
  lhsContracting := [1]
  rhsContracting := [0]
  lhsNonContracting := [0]
  rhsNonContracting := [1]
  lhsBatch := []
  rhsBatch := []
  wf := dot_S262144x64_S64x128_S262144x128_1_0_0_1_n_n_wf
def dot_S262144x2_S2x64_S262144x64_1_0_0_1_n_n : DotDims S262144x2 S2x64 S262144x64 where
  lhsContracting := [1]
  rhsContracting := [0]
  lhsNonContracting := [0]
  rhsNonContracting := [1]
  lhsBatch := []
  rhsBatch := []
  wf := dot_S262144x2_S2x64_S262144x64_1_0_0_1_n_n_wf
def dot_S262144x4_S4x64_S262144x64_1_0_0_1_n_n : DotDims S262144x4 S4x64 S262144x64 where
  lhsContracting := [1]
  rhsContracting := [0]
  lhsNonContracting := [0]
  rhsNonContracting := [1]
  lhsBatch := []
  rhsBatch := []
  wf := dot_S262144x4_S4x64_S262144x64_1_0_0_1_n_n_wf
def dot_S262144x7_S7x64_S262144x64_1_0_0_1_n_n : DotDims S262144x7 S7x64 S262144x64 where
  lhsContracting := [1]
  rhsContracting := [0]
  lhsNonContracting := [0]
  rhsNonContracting := [1]
  lhsBatch := []
  rhsBatch := []
  wf := dot_S262144x7_S7x64_S262144x64_1_0_0_1_n_n_wf
def scatter_S7_S14x1_S14_n_0_0_1 : ScatterDims S7 S14x1 S14 where
  updateWindowDims := []
  insertedWindowDims := [0]
  scatterDimsToOperandDims := [0]
  indexVectorDim := 1
  wf := scatter_S7_S14x1_S14_n_0_0_1_wf
def gather_S7_S14x1_S14_n_0_n_n_0_1_1 : GatherDims S7 S14x1 S14 where
  offsetDims := []
  collapsedSliceDims := [0]
  operandBatchingDims := []
  startIndicesBatchingDims := []
  startIndexMap := [0]
  indexVectorDim := 1
  sliceSizes := ![1]
  wf := gather_S7_S14x1_S14_n_0_n_n_0_1_1_wf
def dot_S7x128_S128x128_S7x128_1_0_0_1_n_n : DotDims S7x128 S128x128 S7x128 where
  lhsContracting := [1]
  rhsContracting := [0]
  lhsNonContracting := [0]
  rhsNonContracting := [1]
  lhsBatch := []
  rhsBatch := []
  wf := dot_S7x128_S128x128_S7x128_1_0_0_1_n_n_wf
def gather_S7x128_S14x1_S14x128_1_0_n_n_0_1_1128 : GatherDims S7x128 S14x1 S14x128 where
  offsetDims := [1]
  collapsedSliceDims := [0]
  operandBatchingDims := []
  startIndicesBatchingDims := []
  startIndexMap := [0]
  indexVectorDim := 1
  sliceSizes := ![1, 128]
  wf := gather_S7x128_S14x1_S14x128_1_0_n_n_0_1_1128_wf
def scatter_S7x128_S14x1_S14x128_1_0_0_1 : ScatterDims S7x128 S14x1 S14x128 where
  updateWindowDims := [1]
  insertedWindowDims := [0]
  scatterDimsToOperandDims := [0]
  indexVectorDim := 1
  wf := scatter_S7x128_S14x1_S14x128_1_0_0_1_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.Spec.lean ====
/-
  The network as one function of its arguments, index by index, on the extended reals.

  An event is a row of 28 features. Seven small two-layer perceptrons (`mlp`: a dense layer, the positive part, a second
  dense layer) read disjoint column ranges of the row — one lepton, one missing-energy, four jets sharing their weights,
  one high-level block — and give the seven node feature vectors of a fixed graph. Two graph-convolution layers follow
  (`arma`): every node receives, over its incoming edges, the transformed features of the edge's source scaled by the
  edge's weight, plus its own features through a second matrix and a bias, and the positive part is taken. The nodes are
  pooled by the maximum of every feature (`pool`) and a last perceptron gives the single output.
  The edges enter through their sources, destinations (`src`, `dst : Fin 14 → Fin 7`) and weights `nrm`.
  When the arguments and the edge weights are real numbers, so is every node feature of every layer (`IsR`).
-/
import proofs.«124651_j5927054868950_2_alg».proof.Proof.LibReal
import Idealize.ShloMosaic.Lib.ValueIdx

noncomputable section

open scoped BigOperators

namespace Cert.Spec

open Cert.LibReal Idealize.ShloMosaic

variable {K H N : ℕ}

/-- A dense layer: `x · W + b`. -/
def dense (x : Fin K → EReal) (W : Fin K → Fin N → EReal) (b : Fin N → EReal) : Fin N → EReal :=
  fun j => (∑ k, x k * W k j) + b j

/-- The positive part, entry by entry. -/
def relu (v : Fin N → EReal) : Fin N → EReal := fun j => max (v j) 0

/-- A two-layer perceptron. -/
def mlp (x : Fin K → EReal) (W1 : Fin K → Fin H → EReal) (b1 : Fin H → EReal) (W2 : Fin H → Fin N → EReal)
    (b2 : Fin N → EReal) : Fin N → EReal :=
  dense (relu (dense x W1 b1)) W2 b2

/-- Columns `o, …, o + n - 1` of the event's 28 features. -/
def cols (o n : ℕ) (h : o + n ≤ 28) (xr : Fin 28 → EReal) : Fin n → EReal := fun k => xr ⟨o + k.val, by omega⟩

/-- The seven node feature vectors of the event. -/
def node (xr : Fin 28 → EReal)
    (lW1 : Fin 3 → Fin 64 → EReal) (lb1 : Fin 64 → EReal) (lW2 : Fin 64 → Fin 128 → EReal) (lb2 : Fin 128 → EReal)
    (mW1 : Fin 2 → Fin 64 → EReal) (mb1 : Fin 64 → EReal) (mW2 : Fin 64 → Fin 128 → EReal) (mb2 : Fin 128 → EReal)
    (jW1 : Fin 4 → Fin 64 → EReal) (jb1 : Fin 64 → EReal) (jW2 : Fin 64 → Fin 128 → EReal) (jb2 : Fin 128 → EReal)
    (hW1 : Fin 7 → Fin 64 → EReal) (hb1 : Fin 64 → EReal) (hW2 : Fin 64 → Fin 128 → EReal) (hb2 : Fin 128 → EReal) :
    Fin 7 → Fin 128 → EReal :=
  ![mlp (cols 0 3 (by omega) xr) lW1 lb1 lW2 lb2, mlp (cols 3 2 (by omega) xr) mW1 mb1 mW2 mb2,
    mlp (cols 5 4 (by omega) xr) jW1 jb1 jW2 jb2, mlp (cols 9 4 (by omega) xr) jW1 jb1 jW2 jb2,
    mlp (cols 13 4 (by omega) xr) jW1 jb1 jW2 jb2, mlp (cols 17 4 (by omega) xr) jW1 jb1 jW2 jb2,
    mlp (cols 21 7 (by omega) xr) hW1 hb1 hW2 hb2]

/-- The features a node passes along its outgoing edges: `nd · Wi`. -/
def msg (nd : Fin 7 → Fin 128 → EReal) (Wi : Fin 128 → Fin 128 → EReal) : Fin 7 → Fin 128 → EReal :=
  fun s j => ∑ k, nd s k * Wi k j

/-- One graph-convolution layer. -/
def arma (src dst : Fin 14 → Fin 7) (nrm : Fin 14 → EReal) (nd : Fin 7 → Fin 128 → EReal)
    (Wi Wr : Fin 128 → Fin 128 → EReal) (b : Fin 128 → EReal) : Fin 7 → Fin 128 → EReal :=
  fun d j => max (((∑ e ∈ Finset.univ.filter (fun e => dst e = d), msg nd Wi (src e) j * nrm e)
    + ∑ k, nd d k * Wr k j) + b j) 0

/-- The maximum of every feature over the seven nodes (from the pattern of `-∞`). -/
def pool (h : Fin 7 → Fin 128 → EReal) : Fin 128 → EReal :=
  fun j => (Finset.univ : Finset (Fin 7)).fold max (Ideal.ofBits .f32 0xFF800000#32) (fun d => h d j)

/-- A vector of the printed programs, by its coordinate. -/
def v1 {a : ℕ} (x : (⟨1, ![a]⟩ : Shape).Idx → EReal) : Fin a → EReal := fun i => x (ValueIdx.ix1 i)

/-- A matrix of the printed programs, by its two coordinates. -/
def v2 {a b : ℕ} (x : (⟨2, ![a, b]⟩ : Shape).Idx → EReal) : Fin a → Fin b → EReal := fun i j => x (ValueIdx.ix2 i j)

/-- The whole network's single output. -/
def net (xr : Fin 28 → EReal)
    (lW1 : Fin 3 → Fin 64 → EReal) (lb1 : Fin 64 → EReal) (lW2 : Fin 64 → Fin 128 → EReal) (lb2 : Fin 128 → EReal)
    (mW1 : Fin 2 → Fin 64 → EReal) (mb1 : Fin 64 → EReal) (mW2 : Fin 64 → Fin 128 → EReal) (mb2 : Fin 128 → EReal)
    (jW1 : Fin 4 → Fin 64 → EReal) (jb1 : Fin 64 → EReal) (jW2 : Fin 64 → Fin 128 → EReal) (jb2 : Fin 128 → EReal)
    (hW1 : Fin 7 → Fin 64 → EReal) (hb1 : Fin 64 → EReal) (hW2 : Fin 64 → Fin 128 → EReal) (hb2 : Fin 128 → EReal)
    (Wi1 Wr1 : Fin 128 → Fin 128 → EReal) (c1 : Fin 128 → EReal) (Wi2 Wr2 : Fin 128 → Fin 128 → EReal) (c2 : Fin 128 → EReal)
    (cW1 : Fin 128 → Fin 64 → EReal) (cb1 : Fin 64 → EReal) (cW2 : Fin 64 → Fin 1 → EReal) (cb2 : Fin 1 → EReal)
    (src dst : Fin 14 → Fin 7) (nrm : Fin 14 → EReal) : EReal :=
  mlp (pool (arma src dst nrm (arma src dst nrm
    (node xr lW1 lb1 lW2 lb2 mW1 mb1 mW2 mb2 jW1 jb1 jW2 jb2 hW1 hb1 hW2 hb2) Wi1 Wr1 c1) Wi2 Wr2 c2)) cW1 cb1 cW2 cb2 0

/-! ## Real arguments give real node features -/

theorem isR_max {a b : EReal} (ha : IsR a) (hb : IsR b) : IsR (max a b) := by
  rcases max_choice a b with h | h <;> rw [h] <;> assumption

theorem isR_dense {x : Fin K → EReal} {W : Fin K → Fin N → EReal} {b : Fin N → EReal} (hx : ∀ k, IsR (x k))
    (hW : ∀ k j, IsR (W k j)) (hb : ∀ j, IsR (b j)) (j : Fin N) : IsR (dense x W b j) :=
  (IsR.sum _ _ fun k _ => (hx k).mul (hW k j)).add (hb j)

theorem isR_relu {v : Fin N → EReal} (hv : ∀ j, IsR (v j)) (j : Fin N) : IsR (relu v j) := isR_max (hv j) IsR.zero

theorem isR_mlp {x : Fin K → EReal} {W1 : Fin K → Fin H → EReal} {b1 : Fin H → EReal} {W2 : Fin H → Fin N → EReal}
    {b2 : Fin N → EReal} (hx : ∀ k, IsR (x k)) (hW1 : ∀ k j, IsR (W1 k j)) (hb1 : ∀ j, IsR (b1 j))
    (hW2 : ∀ k j, IsR (W2 k j)) (hb2 : ∀ j, IsR (b2 j)) (j : Fin N) : IsR (mlp x W1 b1 W2 b2 j) :=
  isR_dense (isR_relu (isR_dense hx hW1 hb1)) hW2 hb2 j

theorem isR_node {xr : Fin 28 → EReal}
    {lW1 : Fin 3 → Fin 64 → EReal} {lb1 : Fin 64 → EReal} {lW2 : Fin 64 → Fin 128 → EReal} {lb2 : Fin 128 → EReal}
    {mW1 : Fin 2 → Fin 64 → EReal} {mb1 : Fin 64 → EReal} {mW2 : Fin 64 → Fin 128 → EReal} {mb2 : Fin 128 → EReal}
    {jW1 : Fin 4 → Fin 64 → EReal} {jb1 : Fin 64 → EReal} {jW2 : Fin 64 → Fin 128 → EReal} {jb2 : Fin 128 → EReal}
    {hW1 : Fin 7 → Fin 64 → EReal} {hb1 : Fin 64 → EReal} {hW2 : Fin 64 → Fin 128 → EReal} {hb2 : Fin 128 → EReal}
    (hx : ∀ k, IsR (xr k))
    (h1 : ∀ k j, IsR (lW1 k j)) (h2 : ∀ j, IsR (lb1 j)) (h3 : ∀ k j, IsR (lW2 k j)) (h4 : ∀ j, IsR (lb2 j))
    (h5 : ∀ k j, IsR (mW1 k j)) (h6 : ∀ j, IsR (mb1 j)) (h7 : ∀ k j, IsR (mW2 k j)) (h8 : ∀ j, IsR (mb2 j))
    (h9 : ∀ k j, IsR (jW1 k j)) (h10 : ∀ j, IsR (jb1 j)) (h11 : ∀ k j, IsR (jW2 k j)) (h12 : ∀ j, IsR (jb2 j))
    (h13 : ∀ k j, IsR (hW1 k j)) (h14 : ∀ j, IsR (hb1 j)) (h15 : ∀ k j, IsR (hW2 k j)) (h16 : ∀ j, IsR (hb2 j))
    (a : Fin 7) (j : Fin 128) :
    IsR (node xr lW1 lb1 lW2 lb2 mW1 mb1 mW2 mb2 jW1 jb1 jW2 jb2 hW1 hb1 hW2 hb2 a j) := by
  have hc : ∀ (o n : ℕ) (h : o + n ≤ 28) (k : Fin n), IsR (cols o n h xr k) := fun o n h k => hx _
  unfold node
  fin_cases a
  · exact isR_mlp (hc _ _ _) h1 h2 h3 h4 j
  · exact isR_mlp (hc _ _ _) h5 h6 h7 h8 j
  · exact isR_mlp (hc _ _ _) h9 h10 h11 h12 j
  · exact isR_mlp (hc _ _ _) h9 h10 h11 h12 j
  · exact isR_mlp (hc _ _ _) h9 h10 h11 h12 j
  · exact isR_mlp (hc _ _ _) h9 h10 h11 h12 j
  · exact isR_mlp (hc _ _ _) h13 h14 h15 h16 j

theorem isR_msg {nd : Fin 7 → Fin 128 → EReal} {Wi : Fin 128 → Fin 128 → EReal} (hn : ∀ a k, IsR (nd a k))
    (hW : ∀ k j, IsR (Wi k j)) (s : Fin 7) (j : Fin 128) : IsR (msg nd Wi s j) :=
  IsR.sum _ _ fun k _ => (hn s k).mul (hW k j)

theorem isR_arma {src dst : Fin 14 → Fin 7} {nrm : Fin 14 → EReal} {nd : Fin 7 → Fin 128 → EReal}
    {Wi Wr : Fin 128 → Fin 128 → EReal} {b : Fin 128 → EReal} (hr : ∀ e, IsR (nrm e)) (hn : ∀ a k, IsR (nd a k))
    (hWi : ∀ k j, IsR (Wi k j)) (hWr : ∀ k j, IsR (Wr k j)) (hb : ∀ j, IsR (b j)) (d : Fin 7) (j : Fin 128) :
    IsR (arma src dst nrm nd Wi Wr b d j) :=
  isR_max (((IsR.sum _ _ fun e _ => (isR_msg hn hWi _ _).mul (hr e)).add
    (IsR.sum _ _ fun k _ => (hn d k).mul (hWr k j))).add (hb j)) IsR.zero

end Cert.Spec

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.KernelOps.lean ====
/-
  The kernel's vector operations read at an index, layer by layer, on the extended reals.

  A matrix-unit product into the zero accumulator is the plain sum of products; a dense layer adds the bias (a vector
  cast to one row); the positive part is the maximum with zero. Put together they read a two-layer perceptron applied to
  one row, and a graph-convolution layer in its matrix form: the adjacency matrix times the transformed features, plus
  the features through a second matrix, plus the bias broadcast over the seven rows.
-/
import proofs.«124651_j5927054868950_2_alg».proof.Proof.Spec
import proofs.«124651_j5927054868950_2_alg».proof.Proof.LibDot
import Idealize.ShloMosaic.Lib.ValueLayout
import Idealize.ShloMosaic.Lib.Pipeline.Value
import Idealize.ShloMosaic.PureOps.Ideal.Laws

noncomputable section

open scoped BigOperators

namespace Cert.KernelOps

open Idealize.ShloMosaic Idealize.ShloMosaic.ValueIdx Cert.Spec

variable {M K H N : ℕ}

/-- A product into the zero accumulator, at `(a, b)`: `Σ_k l (a, k) · r (k, b)`. -/
theorem mm_apply (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (l : FVec Ideal ⟨2, ![M, K]⟩ .f32) (r : FVec Ideal ⟨2, ![K, N]⟩ .f32) (a : Fin M) (b : Fin N) :
    matmul D prec l r (constant (F := Ideal) ⟨2, ![M, N]⟩ .f32 0x00000000#32) (ix2 a b)
      = ∑ k : Fin K, l (ix2 a k) * r (ix2 k b) :=
  (Ideal.matmul_constant_zero_apply D prec l r (ix2 a b)).trans (PlainDot.sum_eq D h1 h2 h3 h4 h5 h6 l r a b)

/-- The positive part at an index. -/
theorem relu_apply {s : Shape} (v : FVec Ideal s .f32) (i : s.Idx) :
    maximumf v (broadcast s (Scalar.ofBits (F := Ideal) .f32 0x00000000#32)) i = max (v i) 0 := by
  show max (v i) (Ideal.ofBits .f32 0x00000000#32) = _
  rw [Ideal.ofBits_zero_f32]

/-- A dense layer applied to one row. -/
theorem dense1_apply (D : DotDims ⟨2, ![1, K]⟩ ⟨2, ![K, N]⟩ ⟨2, ![1, N]⟩)
    (h1 : D.lhsContracting = [1]) (h2 : D.rhsContracting = [0]) (h3 : D.lhsNonContracting = [0])
    (h4 : D.rhsNonContracting = [1]) (h5 : D.lhsBatch = []) (h6 : D.rhsBatch = []) (prec : Option ContractPrecision)
    (x : FVec Ideal ⟨2, ![1, K]⟩ .f32) (W : FVec Ideal ⟨2, ![K, N]⟩ .f32) (b : FVec Ideal ⟨1, ![N]⟩ .f32)
    (hc : (⟨1, ![N]⟩ : Shape).ShapeCasts ⟨2, ![1, N]⟩) (u : Fin 1) (j : Fin N) :
    addf (matmul D prec x W (constant (F := Ideal) ⟨2, ![1, N]⟩ .f32 0x00000000#32)) (shapeCast ⟨2, ![1, N]⟩ b hc) (ix2 u j)
      = dense (fun k => x (ix2 u k)) (v2 W) (v1 b) j := by
  rw [addf_apply, mm_apply D h1 h2 h3 h4 h5 h6, shapeCast_a_1a_apply]
  rfl

/-- A two-layer perceptron applied to one row. -/
theorem mlp1_apply (D1 : DotDims ⟨2, ![1, K]⟩ ⟨2, ![K, H]⟩ ⟨2, ![1, H]⟩)
    (a1 : D1.lhsContracting = [1]) (a2 : D1.rhsContracting = [0]) (a3 : D1.lhsNonContracting = [0])
    (a4 : D1.rhsNonContracting = [1]) (a5 : D1.lhsBatch = []) (a6 : D1.rhsBatch = [])
    (D2 : DotDims ⟨2, ![1, H]⟩ ⟨2, ![H, N]⟩ ⟨2, ![1, N]⟩)
    (c1 : D2.lhsContracting = [1]) (c2 : D2.rhsContracting = [0]) (c3 : D2.lhsNonContracting = [0])
    (c4 : D2.rhsNonContracting = [1]) (c5 : D2.lhsBatch = []) (c6 : D2.rhsBatch = []) (p1 p2 : Option ContractPrecision)
    (x : FVec Ideal ⟨2, ![1, K]⟩ .f32) (W1 : FVec Ideal ⟨2, ![K, H]⟩ .f32) (b1 : FVec Ideal ⟨1, ![H]⟩ .f32)
    (W2 : FVec Ideal ⟨2, ![H, N]⟩ .f32) (b2 : FVec Ideal ⟨1, ![N]⟩ .f32)
    (hc1 : (⟨1, ![H]⟩ : Shape).ShapeCasts ⟨2, ![1, H]⟩) (hc2 : (⟨1, ![N]⟩ : Shape).ShapeCasts ⟨2, ![1, N]⟩)
    (u : Fin 1) (j : Fin N) :
    addf (matmul D2 p2
        (maximumf (addf (matmul D1 p1 x W1 (constant (F := Ideal) ⟨2, ![1, H]⟩ .f32 0x00000000#32)) (shapeCast ⟨2, ![1, H]⟩ b1 hc1))
          (broadcast ⟨2, ![1, H]⟩ (Scalar.ofBits (F := Ideal) .f32 0x00000000#32)))
        W2 (constant (F := Ideal) ⟨2, ![1, N]⟩ .f32 0x00000000#32)) (shapeCast ⟨2, ![1, N]⟩ b2 hc2) (ix2 u j)
      = mlp (fun k => x (ix2 u k)) (v2 W1) (v1 b1) (v2 W2) (v1 b2) j := by
  rw [dense1_apply D2 c1 c2 c3 c4 c5 c6]
  unfold mlp
  refine congrArg (fun f => dense f (v2 W2) (v1 b2) j) (funext fun k => ?_)
  rw [relu_apply, dense1_apply D1 a1 a2 a3 a4 a5 a6]
  rfl

/-- A graph-convolution layer in its matrix form: the adjacency matrix `A` applied to the messages. -/
def armaK (A : Fin 7 → Fin 7 → EReal) (nd : Fin 7 → Fin 128 → EReal) (Wi Wr : Fin 128 → Fin 128 → EReal)
    (b : Fin 128 → EReal) : Fin 7 → Fin 128 → EReal :=
  fun d j => max (((∑ s, A d s * msg nd Wi s j) + ∑ k, nd d k * Wr k j) + b j) 0

/-- The kernel's graph-convolution layer read at `(d, j)`. -/
theorem armaK_apply (DA : DotDims ⟨2, ![7, 7]⟩ ⟨2, ![7, 128]⟩ ⟨2, ![7, 128]⟩)
    (a1 : DA.lhsContracting = [1]) (a2 : DA.rhsContracting = [0]) (a3 : DA.lhsNonContracting = [0])
    (a4 : DA.rhsNonContracting = [1]) (a5 : DA.lhsBatch = []) (a6 : DA.rhsBatch = [])
    (DW : DotDims ⟨2, ![7, 128]⟩ ⟨2, ![128, 128]⟩ ⟨2, ![7, 128]⟩)
    (c1 : DW.lhsContracting = [1]) (c2 : DW.rhsContracting = [0]) (c3 : DW.lhsNonContracting = [0])
    (c4 : DW.rhsNonContracting = [1]) (c5 : DW.lhsBatch = []) (c6 : DW.rhsBatch = []) (p : Option ContractPrecision)
    (A : FVec Ideal ⟨2, ![7, 7]⟩ .f32) (nd : FVec Ideal ⟨2, ![7, 128]⟩ .f32) (Wi Wr : FVec Ideal ⟨2, ![128, 128]⟩ .f32)
    (b : FVec Ideal ⟨1, ![128]⟩ .f32) (hc : (⟨1, ![128]⟩ : Shape).ShapeCasts ⟨2, ![1, 128]⟩)
    (hb : (⟨2, ![1, 128]⟩ : Shape).Broadcasts ⟨2, ![7, 128]⟩) (d : Fin 7) (j : Fin 128) :
    maximumf (addf (addf
        (matmul DA p A (matmul DW p nd Wi (constant (F := Ideal) ⟨2, ![7, 128]⟩ .f32 0x00000000#32))
          (constant (F := Ideal) ⟨2, ![7, 128]⟩ .f32 0x00000000#32))
        (matmul DW p nd Wr (constant (F := Ideal) ⟨2, ![7, 128]⟩ .f32 0x00000000#32)))
        (broadcastTo ⟨2, ![7, 128]⟩ (shapeCast ⟨2, ![1, 128]⟩ b hc) hb))
      (broadcast ⟨2, ![7, 128]⟩ (Scalar.ofBits (F := Ideal) .f32 0x00000000#32)) (ix2 d j)
      = armaK (v2 A) (v2 nd) (v2 Wi) (v2 Wr) (v1 b) d j := by
  rw [relu_apply, addf_apply, addf_apply, mm_apply DA a1 a2 a3 a4 a5 a6, mm_apply DW c1 c2 c3 c4 c5 c6,
    broadcastTo_1b_ab_apply, shapeCast_a_1a_apply]
  unfold armaK msg
  refine congrArg (fun z => max (((z + _) + _)) 0) (Finset.sum_congr rfl fun s _ => ?_)
  rw [mm_apply DW c1 c2 c3 c4 c5 c6]
  rfl

end Cert.KernelOps

end
-- ==== Proof.KernelBody.lean ====
/-
  The kernel body's arithmetic, read at an index on the extended reals.

  The body computes seven node feature rows from column ranges of the event's row (two-layer perceptrons), two
  graph-convolution layers in matrix form over the seven rows, the maximum of every feature over the rows, and a last
  perceptron down to one number. Each printed value is read here at an index and identified with the specification's
  function of the loaded arrays.
-/
import proofs.«124651_j5927054868950_2_alg».proof.Proof.Gen.KernelIdeal.Skeleton
import proofs.«124651_j5927054868950_2_alg».proof.Proof.KernelOps

noncomputable section

open scoped BigOperators

namespace Cert.KernelIdeal.Body

open Cert.KernelIdeal Cert.KernelIdeal.Gen
open Idealize.ShloMosaic Idealize.ShloMosaic.ValueIdx Cert.Spec Cert.KernelOps

variable [Cert.KernelIdeal.Facts]

/-- The event's row, by its column. -/
def row (v0 : FVec Ideal S1x28 .f32) : Fin 28 → EReal := fun k => v0 (ix2 (0 : Fin 1) k)

/-- A column range cut out of the row. -/
theorem cut_apply (v0 : FVec Ideal S1x28 .f32) (o n : ℕ) (h : o + n ≤ 28) (hs : S1x28.Slices ![0, o] ⟨2, ![1, n]⟩)
    (u : Fin 1) (k : Fin n) :
    extractStridedSlice ⟨2, ![1, n]⟩ ![0, o] (k0_pay2 (F := Ideal) v0) hs (ix2 u k) = cols o n h (row v0) k := by
  have hu : u = 0 := Subsingleton.elim _ _
  subst hu
  have e : k0_pay2 (F := Ideal) v0 = v0 := by unfold k0_pay2; exact shapeCast_self _ _
  rw [e]
  refine (slice2_axis1_apply o v0 hs 0 k ⟨o + k.val, by omega⟩ rfl).trans ?_
  rfl

/-- The lepton row. -/
theorem pay3_apply (v0 : FVec Ideal S1x28 .f32) (v3 : FVec Ideal S3x64 .f32) (v4 : FVec Ideal S64 .f32)
    (v5 : FVec Ideal S64x128 .f32) (v6 : FVec Ideal S128 .f32) (u : Fin 1) (j : Fin 128) :
    k0_pay3 (F := Ideal) v0 v3 v4 v5 v6 (ix2 u j)
      = mlp (cols 0 3 (by omega) (row v0)) (v2 v3) (v1 v4) (v2 v5) (v1 v6) j := by
  have e := mlp1_apply dot_S1x3_S3x64_S1x64_1_0_0_1_n_n rfl rfl rfl rfl rfl rfl dot_S1x64_S64x128_S1x128_1_0_0_1_n_n rfl rfl rfl rfl rfl rfl
    (some .fp32) (some .fp32) (extractStridedSlice S1x3 ![0, 0] (k0_pay2 (F := Ideal) v0) Facts₀.slices_S1x28_o0_0_S1x3) v3 v4 v5 v6
    Facts₀.shapeCasts_S64_S1x64 Facts₀.shapeCasts_S128_S1x128 u j
  unfold k0_pay3
  refine e.trans ?_
  exact congrArg (fun x => mlp x (v2 v3) (v1 v4) (v2 v5) (v1 v6) j) (funext fun k => cut_apply v0 0 3 (by omega) _ u k)

/-- The missing-energy row. -/
theorem pay4_apply (v0 : FVec Ideal S1x28 .f32) (v16 : FVec Ideal S2x64 .f32) (v17 : FVec Ideal S64 .f32)
    (v18 : FVec Ideal S64x128 .f32) (v19 : FVec Ideal S128 .f32) (u : Fin 1) (j : Fin 128) :
    k0_pay4 (F := Ideal) v0 v16 v17 v18 v19 (ix2 u j)
      = mlp (cols 3 2 (by omega) (row v0)) (v2 v16) (v1 v17) (v2 v18) (v1 v19) j := by
  have e := mlp1_apply dot_S1x2_S2x64_S1x64_1_0_0_1_n_n rfl rfl rfl rfl rfl rfl dot_S1x64_S64x128_S1x128_1_0_0_1_n_n rfl rfl rfl rfl rfl rfl
    (some .fp32) (some .fp32) (extractStridedSlice S1x2 ![0, 3] (k0_pay2 (F := Ideal) v0) Facts₀.slices_S1x28_o0_3_S1x2) v16 v17 v18 v19
    Facts₀.shapeCasts_S64_S1x64 Facts₀.shapeCasts_S128_S1x128 u j
  unfold k0_pay4
  refine e.trans ?_
  exact congrArg (fun x => mlp x (v2 v16) (v1 v17) (v2 v18) (v1 v19) j) (funext fun k => cut_apply v0 3 2 (by omega) _ u k)

/-- The first jet row. -/
theorem pay6_apply (v0 : FVec Ideal S1x28 .f32) (v28 : FVec Ideal S4x64 .f32) (v29 : FVec Ideal S64 .f32)
    (v30 : FVec Ideal S64x128 .f32) (v31 : FVec Ideal S128 .f32) (u : Fin 1) (j : Fin 128) :
    k0_pay6 (F := Ideal) v28 v29 v30 v31 (k0_pay5 (F := Ideal) v0) (ix2 u j)
      = mlp (cols 5 4 (by omega) (row v0)) (v2 v28) (v1 v29) (v2 v30) (v1 v31) j := by
  have e := mlp1_apply dot_S1x4_S4x64_S1x64_1_0_0_1_n_n rfl rfl rfl rfl rfl rfl dot_S1x64_S64x128_S1x128_1_0_0_1_n_n rfl rfl rfl rfl rfl rfl
    (some .fp32) (some .fp32) (extractStridedSlice S1x4 ![0, 5] (k0_pay2 (F := Ideal) v0) Facts₀.slices_S1x28_o0_5_S1x4) v28 v29 v30 v31
    Facts₀.shapeCasts_S64_S1x64 Facts₀.shapeCasts_S128_S1x128 u j
  unfold k0_pay6 k0_pay5
  refine e.trans ?_
  exact congrArg (fun x => mlp x (v2 v28) (v1 v29) (v2 v30) (v1 v31) j) (funext fun k => cut_apply v0 5 4 (by omega) _ u k)

/-- The second jet row. -/
theorem pay7_apply (v0 : FVec Ideal S1x28 .f32) (v28 : FVec Ideal S4x64 .f32) (v29 : FVec Ideal S64 .f32)
    (v30 : FVec Ideal S64x128 .f32) (v31 : FVec Ideal S128 .f32) (u : Fin 1) (j : Fin 128) :
    k0_pay7 (F := Ideal) (k0_pay2 (F := Ideal) v0) v28 v29 v30 v31 (ix2 u j)
      = mlp (cols 9 4 (by omega) (row v0)) (v2 v28) (v1 v29) (v2 v30) (v1 v31) j := by
  have e := mlp1_apply dot_S1x4_S4x64_S1x64_1_0_0_1_n_n rfl rfl rfl rfl rfl rfl dot_S1x64_S64x128_S1x128_1_0_0_1_n_n rfl rfl rfl rfl rfl rfl
    (some .fp32) (some .fp32) (extractStridedSlice S1x4 ![0, 9] (k0_pay2 (F := Ideal) v0) Facts₀.slices_S1x28_o0_9_S1x4) v28 v29 v30 v31
    Facts₀.shapeCasts_S64_S1x64 Facts₀.shapeCasts_S128_S1x128 u j
  unfold k0_pay7
  refine e.trans ?_
  exact congrArg (fun x => mlp x (v2 v28) (v1 v29) (v2 v30) (v1 v31) j) (funext fun k => cut_apply v0 9 4 (by omega) _ u k)

/-- The third jet row. -/
theorem pay8_apply (v0 : FVec Ideal S1x28 .f32) (v28 : FVec Ideal S4x64 .f32) (v29 : FVec Ideal S64 .f32)
    (v30 : FVec Ideal S64x128 .f32) (v31 : FVec Ideal S128 .f32) (u : Fin 1) (j : Fin 128) :
    k0_pay8 (F := Ideal) (k0_pay2 (F := Ideal) v0) v28 v29 v30 v31 (ix2 u j)
      = mlp (cols 13 4 (by omega) (row v0)) (v2 v28) (v1 v29) (v2 v30) (v1 v31) j := by
  have e := mlp1_apply dot_S1x4_S4x64_S1x64_1_0_0_1_n_n rfl rfl rfl rfl rfl rfl dot_S1x64_S64x128_S1x128_1_0_0_1_n_n rfl rfl rfl rfl rfl rfl
    (some .fp32) (some .fp32) (extractStridedSlice S1x4 ![0, 13] (k0_pay2 (F := Ideal) v0) Facts₀.slices_S1x28_o0_13_S1x4) v28 v29 v30 v31
    Facts₀.shapeCasts_S64_S1x64 Facts₀.shapeCasts_S128_S1x128 u j
  unfold k0_pay8
  refine e.trans ?_
  exact congrArg (fun x => mlp x (v2 v28) (v1 v29) (v2 v30) (v1 v31) j) (funext fun k => cut_apply v0 13 4 (by omega) _ u k)

/-- The fourth jet row. -/
theorem pay9_apply (v0 : FVec Ideal S1x28 .f32) (v28 : FVec Ideal S4x64 .f32) (v29 : FVec Ideal S64 .f32)
    (v30 : FVec Ideal S64x128 .f32) (v31 : FVec Ideal S128 .f32) (u : Fin 1) (j : Fin 128) :
    k0_pay9 (F := Ideal) (k0_pay2 (F := Ideal) v0) v28 v29 v30 v31 (ix2 u j)
      = mlp (cols 17 4 (by omega) (row v0)) (v2 v28) (v1 v29) (v2 v30) (v1 v31) j := by
  have e := mlp1_apply dot_S1x4_S4x64_S1x64_1_0_0_1_n_n rfl rfl rfl rfl rfl rfl dot_S1x64_S64x128_S1x128_1_0_0_1_n_n rfl rfl rfl rfl rfl rfl
    (some .fp32) (some .fp32) (extractStridedSlice S1x4 ![0, 17] (k0_pay2 (F := Ideal) v0) Facts₀.slices_S1x28_o0_17_S1x4) v28 v29 v30 v31
    Facts₀.shapeCasts_S64_S1x64 Facts₀.shapeCasts_S128_S1x128 u j
  unfold k0_pay9
  refine e.trans ?_
  exact congrArg (fun x => mlp x (v2 v28) (v1 v29) (v2 v30) (v1 v31) j) (funext fun k => cut_apply v0 17 4 (by omega) _ u k)

/-- The high-level row (stored through a cast to a vector and back). -/
theorem pay17_apply (v0 : FVec Ideal S1x28 .f32) (v69 : FVec Ideal S7x64 .f32) (v70 : FVec Ideal S64 .f32)
    (v71 : FVec Ideal S64x128 .f32) (v72 : FVec Ideal S128 .f32) (u : Fin 1) (j : Fin 128) :
    k0_pay17 (F := Ideal) v70 v71 v72 (k0_pay10 (F := Ideal) (k0_pay2 (F := Ideal) v0) v69) (ix2 u j)
      = mlp (cols 21 7 (by omega) (row v0)) (v2 v69) (v1 v70) (v2 v71) (v1 v72) j := by
  have e := mlp1_apply dot_S1x7_S7x64_S1x64_1_0_0_1_n_n rfl rfl rfl rfl rfl rfl dot_S1x64_S64x128_S1x128_1_0_0_1_n_n rfl rfl rfl rfl rfl rfl
    (some .fp32) (some .fp32) (extractStridedSlice S1x7 ![0, 21] (k0_pay2 (F := Ideal) v0) Facts₀.slices_S1x28_o0_21_S1x7) v69 v70 v71 v72
    Facts₀.shapeCasts_S64_S1x64 Facts₀.shapeCasts_S128_S1x128 u j
  unfold k0_pay17 k0_pay10
  refine (congrFun (shapeCast_shapeCast _ Facts₀.shapeCasts_S1x128_S128 Facts₀.shapeCasts_S128_S1x128) (ix2 u j)).trans ?_
  refine e.trans ?_
  exact congrArg (fun x => mlp x (v2 v69) (v1 v70) (v2 v71) (v1 v72) j) (funext fun k => cut_apply v0 21 7 (by omega) _ u k)

/-- A row stored through a cast to a vector and back is the row. -/
theorem pay11_eq (v : FVec Ideal S1x128 .f32) : k0_pay11 (F := Ideal) v = v := by
  unfold k0_pay11; exact shapeCast_shapeCast _ _ _
theorem pay12_eq (v : FVec Ideal S1x128 .f32) : k0_pay12 (F := Ideal) v = v := by
  unfold k0_pay12; exact shapeCast_shapeCast _ _ _
theorem pay13_eq (v : FVec Ideal S1x128 .f32) : k0_pay13 (F := Ideal) v = v := by
  unfold k0_pay13; exact shapeCast_shapeCast _ _ _
theorem pay14_eq (v : FVec Ideal S1x128 .f32) : k0_pay14 (F := Ideal) v = v := by
  unfold k0_pay14; exact shapeCast_shapeCast _ _ _
theorem pay15_eq (v : FVec Ideal S1x128 .f32) : k0_pay15 (F := Ideal) v = v := by
  unfold k0_pay15; exact shapeCast_shapeCast _ _ _
theorem pay16_eq (v : FVec Ideal S1x128 .f32) : k0_pay16 (F := Ideal) v = v := by
  unfold k0_pay16; exact shapeCast_shapeCast _ _ _

/-- Inserting the row coordinate into a feature index. -/
theorem lift_eq (j : Fin 128) (d : Fin 7) : (Facts₀.reduces_S7x128_S128).lift (ix1 j) d = ix2 d j :=
  funext fun c => Fin.ext (by match c with | ⟨0, _⟩ => rfl | ⟨1, _⟩ => rfl)

/-- The two convolution layers and the pooling, read at feature `j`. -/
theorem pay18_apply (v109 : FVec Ideal S7x128 .f32) (v110 : FVec Ideal S7x7 .f32) (v112 v113 : FVec Ideal S128x128 .f32)
    (v114 : FVec Ideal S128 .f32) (v124 v125 : FVec Ideal S128x128 .f32) (v126 : FVec Ideal S128 .f32) (u : Fin 1) (j : Fin 128) :
    k0_pay18 (F := Ideal) v109 v110 v112 v113 v114 v124 v125 v126 (ix2 u j)
      = Spec.pool (armaK (v2 v110) (armaK (v2 v110) (v2 v109) (v2 v112) (v2 v113) (v1 v114)) (v2 v124) (v2 v125) (v1 v126)) j := by
  have hA : shapeCast S7x7 v110 Facts₀.shapeCasts_S7x7_S7x7 = v110 := shapeCast_self _ _
  have l1 : ∀ (a : Fin 7) (k : Fin 128), _ = armaK (v2 v110) (v2 v109) (v2 v112) (v2 v113) (v1 v114) a k :=
    fun a k => armaK_apply dot_S7x7_S7x128_S7x128_1_0_0_1_n_n rfl rfl rfl rfl rfl rfl dot_S7x128_S128x128_S7x128_1_0_0_1_n_n rfl rfl rfl rfl rfl rfl
      (some .fp32) v110 v109 v112 v113 v114 Facts₀.shapeCasts_S128_S1x128 Facts₀.broadcasts_S1x128_S7x128 a k
  have l2 : ∀ (nd : FVec Ideal S7x128 .f32) (d : Fin 7), _ = armaK (v2 (shapeCast S7x7 v110 Facts₀.shapeCasts_S7x7_S7x7)) (v2 nd) (v2 v124) (v2 v125) (v1 v126) d j :=
    fun nd d => armaK_apply dot_S7x7_S7x128_S7x128_1_0_0_1_n_n rfl rfl rfl rfl rfl rfl dot_S7x128_S128x128_S7x128_1_0_0_1_n_n rfl rfl rfl rfl rfl rfl
      (some .fp32) (shapeCast S7x7 v110 Facts₀.shapeCasts_S7x7_S7x7) nd v124 v125 v126 Facts₀.shapeCasts_S128_S1x128 Facts₀.broadcasts_S1x128_S7x128 d j
  unfold k0_pay18
  refine (shapeCast_a_1a_apply _ Facts₀.shapeCasts_S128_S1x128 u j).trans ?_
  refine (Ideal.multiReduction_maximumf_single _ _ Facts₀.reduces_S7x128_S128 (.inl rfl) rfl (ix1 j)).trans ?_
  unfold Spec.pool
  refine congrArg (fun f => (Finset.univ : Finset (Fin 7)).fold max (Ideal.ofBits .f32 0xFF800000#32) f) (funext fun d => ?_)
  refine (congrArg _ (lift_eq j d)).trans ?_
  refine (l2 _ d).trans ?_
  rw [hA]
  exact congrArg (fun nd => armaK (v2 v110) nd (v2 v124) (v2 v125) (v1 v126) d j)
    (funext fun a => funext fun k => l1 a k)

/-- The classifier. -/
theorem pay1_apply (v137 : FVec Ideal S1x128 .f32) (v138 : FVec Ideal S128x64 .f32) (v139 : FVec Ideal S64 .f32)
    (v140 : FVec Ideal S64x1 .f32) (v141 : FVec Ideal S1 .f32) (u : Fin 1) (j : Fin 1) :
    k0_pay1 (F := Ideal) v137 v138 v139 v140 v141 (ix2 u j)
      = mlp (fun k => v137 (ix2 u k)) (v2 v138) (v1 v139) (v2 v140) (v1 v141) j := by
  have e := mlp1_apply dot_S1x128_S128x64_S1x64_1_0_0_1_n_n rfl rfl rfl rfl rfl rfl dot_S1x64_S64x1_S1x1_1_0_0_1_n_n rfl rfl rfl rfl rfl rfl
    (some .fp32) (some .fp32) v137 v138 v139 v140 v141 Facts₀.shapeCasts_S64_S1x64 Facts₀.shapeCasts_S1_S1x1 u j
  unfold k0_pay1
  exact e

end Cert.KernelIdeal.Body

end
-- ==== Proof.KernelNet.lean ====
/-
  The network in the kernel's arrangement, as one function of the twenty-eight arrays the body loads: the event's row,
  the perceptrons' weights, the two layers' weights, the classifier's, and the adjacency matrix. The convolution layers
  are in matrix form (`armaK`).
-/
import proofs.«124651_j5927054868950_2_alg».proof.Proof.KernelBody

noncomputable section

namespace Cert.KernelIdeal.Pieces

open Cert.KernelIdeal Cert.KernelIdeal.Body
open Idealize.ShloMosaic Idealize.ShloMosaic.ValueIdx Cert.Spec Cert.KernelOps

/-- The network in matrix form over the loaded arrays. -/
def netK (x0 : FVec Ideal S1x28 .f32) (x1 : FVec Ideal S3x64 .f32) (x2 : FVec Ideal S64 .f32) (x3 : FVec Ideal S64x128 .f32) (x4 : FVec Ideal S128 .f32) (x5 : FVec Ideal S2x64 .f32) (x6 : FVec Ideal S64 .f32) (x7 : FVec Ideal S64x128 .f32) (x8 : FVec Ideal S128 .f32) (x9 : FVec Ideal S4x64 .f32) (x10 : FVec Ideal S64 .f32) (x11 : FVec Ideal S64x128 .f32) (x12 : FVec Ideal S128 .f32) (x13 : FVec Ideal S7x64 .f32) (x14 : FVec Ideal S64 .f32) (x15 : FVec Ideal S64x128 .f32) (x16 : FVec Ideal S128 .f32) (x17 : FVec Ideal S128x128 .f32) (x18 : FVec Ideal S128x128 .f32) (x19 : FVec Ideal S128 .f32) (x20 : FVec Ideal S128x128 .f32) (x21 : FVec Ideal S128x128 .f32) (x22 : FVec Ideal S128 .f32) (x23 : FVec Ideal S128x64 .f32) (x24 : FVec Ideal S64 .f32) (x25 : FVec Ideal S64x1 .f32) (x26 : FVec Ideal S1 .f32) (x27 : FVec Ideal S7x7 .f32) : EReal :=
  Cert.Spec.mlp (Cert.Spec.pool (armaK (v2 x27) (armaK (v2 x27) (Cert.Spec.node (row x0) (v2 x1) (v1 x2) (v2 x3) (v1 x4) (v2 x5) (v1 x6) (v2 x7) (v1 x8) (v2 x9) (v1 x10) (v2 x11) (v1 x12) (v2 x13) (v1 x14) (v2 x15) (v1 x16)) (v2 x17) (v2 x18) (v1 x19)) (v2 x20) (v2 x21) (v1 x22))) (v2 x23) (v1 x24) (v2 x25) (v1 x26) 0

end Cert.KernelIdeal.Pieces

end
-- ==== Proof.KernelPieces.lean ====
/-
  What the kernel body leaves in its output block, as the network in matrix form.

  The body stores seven node feature rows into a scratch array, one row per store, and reads the array back whole: the
  read is the seven rows stacked (each row piece is the block of one function of the array index, and the seven pieces
  cover the seven rows). The single output element is then the classifier applied to the pooled result of the two
  convolution layers on those rows.
-/
import proofs.«124651_j5927054868950_2_alg».proof.Proof.PatchedKernelIdealFrame
import proofs.«124651_j5927054868950_2_alg».proof.Proof.KernelNet
import Idealize.ShloMosaic.Lib.Pipeline.Value

set_option maxRecDepth 16384

noncomputable section

namespace Cert.KernelIdeal.Pieces

open Cert.KernelIdeal Cert.KernelIdeal.Gen Cert.KernelIdeal.GenP Cert.KernelIdeal.Body
open Idealize.ShloMosaic Idealize.ShloMosaic.TcCoe Idealize.ShloMosaic.Tactic Idealize.SL.Sem Idealize.ShloMosaic.ValueIdx Cert.Spec Cert.KernelOps

theorem hz2 : (![0, 0] : Fin 2 → Nat) = fun _ => 0 := funext fun a => by fin_cases a <;> rfl
theorem hz1 : (![0] : Fin 1 → Nat) = fun _ => 0 := funext fun a => by fin_cases a; rfl

theorem two (a : Fin 2) : a = 0 ∨ a = 1 := by
  rcases a with ⟨_ | _ | n, h⟩
  · exact .inl rfl
  · exact .inr rfl
  · omega

variable [Cert.KernelIdeal.Facts]

/-- Seven row pieces cover the seven rows. -/
theorem cover7 (w0 : (Rect.unit (s := S7x128) ![0, 0] ![1, 128] Facts₀.inb_S7x128_S1x128_0_0).shape.Idx → Elt Ideal .f32)
    (w1 : (Rect.unit (s := S7x128) ![1, 0] ![1, 128] Facts₀.inb_S7x128_S1x128_1_0).shape.Idx → Elt Ideal .f32)
    (w2 : (Rect.unit (s := S7x128) ![2, 0] ![1, 128] Facts₀.inb_S7x128_S1x128_2_0).shape.Idx → Elt Ideal .f32)
    (w3 : (Rect.unit (s := S7x128) ![3, 0] ![1, 128] Facts₀.inb_S7x128_S1x128_3_0).shape.Idx → Elt Ideal .f32)
    (w4 : (Rect.unit (s := S7x128) ![4, 0] ![1, 128] Facts₀.inb_S7x128_S1x128_4_0).shape.Idx → Elt Ideal .f32)
    (w5 : (Rect.unit (s := S7x128) ![5, 0] ![1, 128] Facts₀.inb_S7x128_S1x128_5_0).shape.Idx → Elt Ideal .f32)
    (w6 : (Rect.unit (s := S7x128) ![6, 0] ![1, 128] Facts₀.inb_S7x128_S1x128_6_0).shape.Idx → Elt Ideal .f32)
    (a : Fin 7) (q : Fin 128) :
    ∃ p ∈ ([⟨Rect.unit ![6, 0] ![1, 128] Facts₀.inb_S7x128_S1x128_6_0, w6⟩, ⟨Rect.unit ![5, 0] ![1, 128] Facts₀.inb_S7x128_S1x128_5_0, w5⟩, ⟨Rect.unit ![4, 0] ![1, 128] Facts₀.inb_S7x128_S1x128_4_0, w4⟩, ⟨Rect.unit ![3, 0] ![1, 128] Facts₀.inb_S7x128_S1x128_3_0, w3⟩, ⟨Rect.unit ![2, 0] ![1, 128] Facts₀.inb_S7x128_S1x128_2_0, w2⟩, ⟨Rect.unit ![1, 0] ![1, 128] Facts₀.inb_S7x128_S1x128_1_0, w1⟩, ⟨Rect.unit ![0, 0] ![1, 128] Facts₀.inb_S7x128_S1x128_0_0, w0⟩] : List (View.Piece (Elt Ideal) S7x128 .f32)), ix2 a q ∈ p.1.set := by
  have hq := q.isLt
  fin_cases a
  · refine ⟨_, List.mem_cons_of_mem _ (List.mem_cons_of_mem _ (List.mem_cons_of_mem _ (List.mem_cons_of_mem _ (List.mem_cons_of_mem _ (List.mem_cons_of_mem _ (List.mem_cons_self)))))), ?_⟩
    show ix2 (0 : Fin 7) q ∈ (Rect.unit (s := S7x128) ![0, 0] ![1, 128] Facts₀.inb_S7x128_S1x128_0_0).set
    rw [Rect.mem_set_unit]
    intro ax
    rcases two ax with rfl | rfl
    · show (0 : ℕ) ≤ 0 ∧ (0 : ℕ) < 0 + 1; omega
    · show (0 : ℕ) ≤ q.val ∧ q.val < 0 + 128; omega
  · refine ⟨_, List.mem_cons_of_mem _ (List.mem_cons_of_mem _ (List.mem_cons_of_mem _ (List.mem_cons_of_mem _ (List.mem_cons_of_mem _ (List.mem_cons_self))))), ?_⟩
    show ix2 (1 : Fin 7) q ∈ (Rect.unit (s := S7x128) ![1, 0] ![1, 128] Facts₀.inb_S7x128_S1x128_1_0).set
    rw [Rect.mem_set_unit]
    intro ax
    rcases two ax with rfl | rfl
    · show (1 : ℕ) ≤ 1 ∧ (1 : ℕ) < 1 + 1; omega
    · show (0 : ℕ) ≤ q.val ∧ q.val < 0 + 128; omega
  · refine ⟨_, List.mem_cons_of_mem _ (List.mem_cons_of_mem _ (List.mem_cons_of_mem _ (List.mem_cons_of_mem _ (List.mem_cons_self)))), ?_⟩
    show ix2 (2 : Fin 7) q ∈ (Rect.unit (s := S7x128) ![2, 0] ![1, 128] Facts₀.inb_S7x128_S1x128_2_0).set
    rw [Rect.mem_set_unit]
    intro ax
    rcases two ax with rfl | rfl
    · show (2 : ℕ) ≤ 2 ∧ (2 : ℕ) < 2 + 1; omega
    · show (0 : ℕ) ≤ q.val ∧ q.val < 0 + 128; omega
  · refine ⟨_, List.mem_cons_of_mem _ (List.mem_cons_of_mem _ (List.mem_cons_of_mem _ (List.mem_cons_self))), ?_⟩
    show ix2 (3 : Fin 7) q ∈ (Rect.unit (s := S7x128) ![3, 0] ![1, 128] Facts₀.inb_S7x128_S1x128_3_0).set
    rw [Rect.mem_set_unit]
    intro ax
    rcases two ax with rfl | rfl
    · show (3 : ℕ) ≤ 3 ∧ (3 : ℕ) < 3 + 1; omega
    · show (0 : ℕ) ≤ q.val ∧ q.val < 0 + 128; omega
  · refine ⟨_, List.mem_cons_of_mem _ (List.mem_cons_of_mem _ (List.mem_cons_self)), ?_⟩
    show ix2 (4 : Fin 7) q ∈ (Rect.unit (s := S7x128) ![4, 0] ![1, 128] Facts₀.inb_S7x128_S1x128_4_0).set
    rw [Rect.mem_set_unit]
    intro ax
    rcases two ax with rfl | rfl
    · show (4 : ℕ) ≤ 4 ∧ (4 : ℕ) < 4 + 1; omega
    · show (0 : ℕ) ≤ q.val ∧ q.val < 0 + 128; omega
  · refine ⟨_, List.mem_cons_of_mem _ (List.mem_cons_self), ?_⟩
    show ix2 (5 : Fin 7) q ∈ (Rect.unit (s := S7x128) ![5, 0] ![1, 128] Facts₀.inb_S7x128_S1x128_5_0).set
    rw [Rect.mem_set_unit]
    intro ax
    rcases two ax with rfl | rfl
    · show (5 : ℕ) ≤ 5 ∧ (5 : ℕ) < 5 + 1; omega
    · show (0 : ℕ) ≤ q.val ∧ q.val < 0 + 128; omega
  · refine ⟨_, List.mem_cons_self, ?_⟩
    show ix2 (6 : Fin 7) q ∈ (Rect.unit (s := S7x128) ![6, 0] ![1, 128] Facts₀.inb_S7x128_S1x128_6_0).set
    rw [Rect.mem_set_unit]
    intro ax
    rcases two ax with rfl | rfl
    · show (6 : ℕ) ≤ 6 ∧ (6 : ℕ) < 6 + 1; omega
    · show (0 : ℕ) ≤ q.val ∧ q.val < 0 + 128; omega

set_option maxHeartbeats 4000000 in
/-- The canonical contents of the output's one piece, at its one index. -/
theorem canon_run (c : Dev nD) (i : grid0.Coords) (arg1 : Memref sig .tc .vmem S1x28 .f32) (harg1 : arg1.IsWhole) (arg2 : Memref sig .tc .vmem S3x64 .f32) (harg2 : arg2.IsWhole) (arg3 : Memref sig .tc .vmem S64 .f32) (harg3 : arg3.IsWhole) (arg4 : Memref sig .tc .vmem S64x128 .f32) (harg4 : arg4.IsWhole) (arg5 : Memref sig .tc .vmem S128 .f32) (harg5 : arg5.IsWhole) (arg6 : Memref sig .tc .vmem S2x64 .f32) (harg6 : arg6.IsWhole) (arg7 : Memref sig .tc .vmem S64 .f32) (harg7 : arg7.IsWhole) (arg8 : Memref sig .tc .vmem S64x128 .f32) (harg8 : arg8.IsWhole) (arg9 : Memref sig .tc .vmem S128 .f32) (harg9 : arg9.IsWhole) (arg10 : Memref sig .tc .vmem S4x64 .f32) (harg10 : arg10.IsWhole) (arg11 : Memref sig .tc .vmem S64 .f32) (harg11 : arg11.IsWhole) (arg12 : Memref sig .tc .vmem S64x128 .f32) (harg12 : arg12.IsWhole) (arg13 : Memref sig .tc .vmem S128 .f32) (harg13 : arg13.IsWhole) (arg14 : Memref sig .tc .vmem S7x64 .f32) (harg14 : arg14.IsWhole) (arg15 : Memref sig .tc .vmem S64 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128 .f32) (harg23 : arg23.IsWhole) (arg24 : Memref sig .tc .vmem S128x64 .f32) (harg24 : arg24.IsWhole) (arg25 : Memref sig .tc .vmem S64 .f32) (harg25 : arg25.IsWhole) (arg26 : Memref sig .tc .vmem S64x1 .f32) (harg26 : arg26.IsWhole) (arg27 : Memref sig .tc .vmem S1 .f32) (harg27 : arg27.IsWhole) (arg28 : Memref sig .tc .vmem S7x7 .f32) (harg28 : arg28.IsWhole) (arg29 : Memref sig .tc .vmem S1x1 .f32) (harg29 : arg29.IsWhole) (arg30 : Memref sig .tc .vmem S7x128 .f32) (harg30 : arg30.IsWhole)
    (x0 : FVec Ideal S1x28 .f32) (x1 : FVec Ideal S3x64 .f32) (x2 : FVec Ideal S64 .f32) (x3 : FVec Ideal S64x128 .f32) (x4 : FVec Ideal S128 .f32) (x5 : FVec Ideal S2x64 .f32) (x6 : FVec Ideal S64 .f32) (x7 : FVec Ideal S64x128 .f32) (x8 : FVec Ideal S128 .f32) (x9 : FVec Ideal S4x64 .f32) (x10 : FVec Ideal S64 .f32) (x11 : FVec Ideal S64x128 .f32) (x12 : FVec Ideal S128 .f32) (x13 : FVec Ideal S7x64 .f32) (x14 : FVec Ideal S64 .f32) (x15 : FVec Ideal S64x128 .f32) (x16 : FVec Ideal S128 .f32) (x17 : FVec Ideal S128x128 .f32) (x18 : FVec Ideal S128x128 .f32) (x19 : FVec Ideal S128 .f32) (x20 : FVec Ideal S128x128 .f32) (x21 : FVec Ideal S128x128 .f32) (x22 : FVec Ideal S128 .f32) (x23 : FVec Ideal S128x64 .f32) (x24 : FVec Ideal S64 .f32) (x25 : FVec Ideal S64x1 .f32) (x26 : FVec Ideal S1 .f32) (x27 : FVec Ideal S7x7 .f32) (y : S1x1.Idx) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1 y = netK x0 x1 x2 x3 x4 x5 x6 x7 x8 x9 x10 x11 x12 x13 x14 x15 x16 x17 x18 x19 x20 x21 x22 x23 x24 x25 x26 x27 := by
  unfold netK
  unfold kernelRun0_A
  dsimp only
  sl_unfold_words
  refine (congrFun (View.canon_unit_zero (S := S1x1) hz2 _ _) y).trans ?_
  simp only [View.readAt_eq_ld, Memref.IsWhole.read_unread, View.ld_unit_zero (S := S1x28) hz2, View.ld_unit_zero (S := S3x64) hz2,
    View.ld_unit_zero (S := S64) hz1, View.ld_unit_zero (S := S64x128) hz2, View.ld_unit_zero (S := S128) hz1,
    View.ld_unit_zero (S := S2x64) hz2, View.ld_unit_zero (S := S4x64) hz2, View.ld_unit_zero (S := S7x64) hz2,
    View.ld_unit_zero (S := S128x128) hz2, View.ld_unit_zero (S := S128x64) hz2, View.ld_unit_zero (S := S64x1) hz2,
    View.ld_unit_zero (S := S1) hz1, View.ld_unit_zero (S := S7x7) hz2]
  obtain ⟨u, j, rfl⟩ : ∃ (u : Fin 1) (j : Fin 1), y = ix2 u j := ⟨y 0, y 1, eq_ix2 y⟩
  have hj : j = 0 := Subsingleton.elim _ _
  subst hj
  refine (pay1_apply _ x23 x24 x25 x26 u 0).trans ?_
  refine congrArg (fun f => Cert.Spec.mlp f (v2 x23) (v1 x24) (v2 x25) (v1 x26) 0) (funext fun k => ?_)
  refine (pay18_apply _ x27 x17 x18 x19 x20 x21 x22 u k).trans ?_
  refine congrArg (fun nd => Cert.Spec.pool (armaK (v2 x27) (armaK (v2 x27) nd (v2 x17) (v2 x18) (v1 x19)) (v2 x20) (v2 x21) (v1 x22)) k) (funext fun a => funext fun q => ?_)
  rw [View.readCov_eq_canon']
  refine Eq.trans (congrFun (congrFun (congrArg v2 (View.ld_unit_zero (S := S7x128) hz2 _ _)) a) q) ?_
  refine (View.canon_apply_of_pieces (fun i : S7x128.Idx => Cert.Spec.node (row x0) (v2 x1) (v1 x2) (v2 x3) (v1 x4) (v2 x5) (v1 x6) (v2 x7) (v1 x8) (v2 x9) (v1 x10) (v2 x11) (v1 x12) (v2 x13) (v1 x14) (v2 x15) (v1 x16) (i 0) (i 1)) _ ?hp (ix2 a q)
    (cover7 _ _ _ _ _ _ _ a q)).trans rfl
  case hp =>
    intro p hp x
    simp only [List.mem_cons, List.mem_nil_iff, or_false] at hp
    rcases hp with rfl | rfl | rfl | rfl | rfl | rfl | rfl
    · -- row 6
      obtain ⟨u, j, rfl⟩ : ∃ (u : Fin 1) (j : Fin 128), x = ix2 u j := ⟨x 0, x 1, eq_ix2 x⟩
      have hu : u = 0 := Subsingleton.elim _ _
      subst hu
      have he : (Rect.unit (s := S7x128) ![6, 0] ![1, 128] Facts₀.inb_S7x128_S1x128_6_0).emb (ix2 (0 : Fin 1) j) = ix2 (6 : Fin 7) j :=
        funext fun a => Fin.ext (by
          rcases two a with rfl | rfl
          · show 6 + 1 * 0 = 6; rfl
          · show 0 + 1 * j.val = j.val; omega)
      rw [he]
      exact pay17_apply x0 x13 x14 x15 x16 0 j
    · -- row 5
      obtain ⟨u, j, rfl⟩ : ∃ (u : Fin 1) (j : Fin 128), x = ix2 u j := ⟨x 0, x 1, eq_ix2 x⟩
      have hu : u = 0 := Subsingleton.elim _ _
      subst hu
      have he : (Rect.unit (s := S7x128) ![5, 0] ![1, 128] Facts₀.inb_S7x128_S1x128_5_0).emb (ix2 (0 : Fin 1) j) = ix2 (5 : Fin 7) j :=
        funext fun a => Fin.ext (by
          rcases two a with rfl | rfl
          · show 5 + 1 * 0 = 5; rfl
          · show 0 + 1 * j.val = j.val; omega)
      rw [he]
      rw [pay16_eq]; exact pay9_apply x0 x9 x10 x11 x12 0 j
    · -- row 4
      obtain ⟨u, j, rfl⟩ : ∃ (u : Fin 1) (j : Fin 128), x = ix2 u j := ⟨x 0, x 1, eq_ix2 x⟩
      have hu : u = 0 := Subsingleton.elim _ _
      subst hu
      have he : (Rect.unit (s := S7x128) ![4, 0] ![1, 128] Facts₀.inb_S7x128_S1x128_4_0).emb (ix2 (0 : Fin 1) j) = ix2 (4 : Fin 7) j :=
        funext fun a => Fin.ext (by
          rcases two a with rfl | rfl
          · show 4 + 1 * 0 = 4; rfl
          · show 0 + 1 * j.val = j.val; omega)
      rw [he]
      rw [pay15_eq]; exact pay8_apply x0 x9 x10 x11 x12 0 j
    · -- row 3
      obtain ⟨u, j, rfl⟩ : ∃ (u : Fin 1) (j : Fin 128), x = ix2 u j := ⟨x 0, x 1, eq_ix2 x⟩
      have hu : u = 0 := Subsingleton.elim _ _
      subst hu
      have he : (Rect.unit (s := S7x128) ![3, 0] ![1, 128] Facts₀.inb_S7x128_S1x128_3_0).emb (ix2 (0 : Fin 1) j) = ix2 (3 : Fin 7) j :=
        funext fun a => Fin.ext (by
          rcases two a with rfl | rfl
          · show 3 + 1 * 0 = 3; rfl
          · show 0 + 1 * j.val = j.val; omega)
      rw [he]
      rw [pay14_eq]; exact pay7_apply x0 x9 x10 x11 x12 0 j
    · -- row 2
      obtain ⟨u, j, rfl⟩ : ∃ (u : Fin 1) (j : Fin 128), x = ix2 u j := ⟨x 0, x 1, eq_ix2 x⟩
      have hu : u = 0 := Subsingleton.elim _ _
      subst hu
      have he : (Rect.unit (s := S7x128) ![2, 0] ![1, 128] Facts₀.inb_S7x128_S1x128_2_0).emb (ix2 (0 : Fin 1) j) = ix2 (2 : Fin 7) j :=
        funext fun a => Fin.ext (by
          rcases two a with rfl | rfl
          · show 2 + 1 * 0 = 2; rfl
          · show 0 + 1 * j.val = j.val; omega)
      rw [he]
      rw [pay13_eq]; exact pay6_apply x0 x9 x10 x11 x12 0 j
    · -- row 1
      obtain ⟨u, j, rfl⟩ : ∃ (u : Fin 1) (j : Fin 128), x = ix2 u j := ⟨x 0, x 1, eq_ix2 x⟩
      have hu : u = 0 := Subsingleton.elim _ _
      subst hu
      have he : (Rect.unit (s := S7x128) ![1, 0] ![1, 128] Facts₀.inb_S7x128_S1x128_1_0).emb (ix2 (0 : Fin 1) j) = ix2 (1 : Fin 7) j :=
        funext fun a => Fin.ext (by
          rcases two a with rfl | rfl
          · show 1 + 1 * 0 = 1; rfl
          · show 0 + 1 * j.val = j.val; omega)
      rw [he]
      rw [pay12_eq]; exact pay4_apply x0 x5 x6 x7 x8 0 j
    · -- row 0
      obtain ⟨u, j, rfl⟩ : ∃ (u : Fin 1) (j : Fin 128), x = ix2 u j := ⟨x 0, x 1, eq_ix2 x⟩
      have hu : u = 0 := Subsingleton.elim _ _
      subst hu
      have he : (Rect.unit (s := S7x128) ![0, 0] ![1, 128] Facts₀.inb_S7x128_S1x128_0_0).emb (ix2 (0 : Fin 1) j) = ix2 (0 : Fin 7) j :=
        funext fun a => Fin.ext (by
          rcases two a with rfl | rfl
          · show 0 + 1 * 0 = 0; rfl
          · show 0 + 1 * j.val = j.val; omega)
      rw [he]
      rw [pay11_eq]; exact pay3_apply x0 x1 x2 x3 x4 0 j

/-- The output's staging buffer after the run: the run's pieces read back over junk. -/
theorem out0_def {F : FTy → Type} [FloatOps F] (c : Dev nD) (i : grid0.Coords) (arg1 : Memref sig .tc .vmem S1x28 .f32) (harg1 : arg1.IsWhole) (arg2 : Memref sig .tc .vmem S3x64 .f32) (harg2 : arg2.IsWhole) (arg3 : Memref sig .tc .vmem S64 .f32) (harg3 : arg3.IsWhole) (arg4 : Memref sig .tc .vmem S64x128 .f32) (harg4 : arg4.IsWhole) (arg5 : Memref sig .tc .vmem S128 .f32) (harg5 : arg5.IsWhole) (arg6 : Memref sig .tc .vmem S2x64 .f32) (harg6 : arg6.IsWhole) (arg7 : Memref sig .tc .vmem S64 .f32) (harg7 : arg7.IsWhole) (arg8 : Memref sig .tc .vmem S64x128 .f32) (harg8 : arg8.IsWhole) (arg9 : Memref sig .tc .vmem S128 .f32) (harg9 : arg9.IsWhole) (arg10 : Memref sig .tc .vmem S4x64 .f32) (harg10 : arg10.IsWhole) (arg11 : Memref sig .tc .vmem S64 .f32) (harg11 : arg11.IsWhole) (arg12 : Memref sig .tc .vmem S64x128 .f32) (harg12 : arg12.IsWhole) (arg13 : Memref sig .tc .vmem S128 .f32) (harg13 : arg13.IsWhole) (arg14 : Memref sig .tc .vmem S7x64 .f32) (harg14 : arg14.IsWhole) (arg15 : Memref sig .tc .vmem S64 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128 .f32) (harg23 : arg23.IsWhole) (arg24 : Memref sig .tc .vmem S128x64 .f32) (harg24 : arg24.IsWhole) (arg25 : Memref sig .tc .vmem S64 .f32) (harg25 : arg25.IsWhole) (arg26 : Memref sig .tc .vmem S64x1 .f32) (harg26 : arg26.IsWhole) (arg27 : Memref sig .tc .vmem S1 .f32) (harg27 : arg27.IsWhole) (arg28 : Memref sig .tc .vmem S7x7 .f32) (harg28 : arg28.IsWhole) (arg29 : Memref sig .tc .vmem S1x1 .f32) (harg29 : arg29.IsWhole) (arg30 : Memref sig .tc .vmem S7x128 .f32) (harg30 : arg30.IsWhole)
    (x0 : Vec F S1x28 .f32) (x1 : Vec F S3x64 .f32) (x2 : Vec F S64 .f32) (x3 : Vec F S64x128 .f32) (x4 : Vec F S128 .f32) (x5 : Vec F S2x64 .f32) (x6 : Vec F S64 .f32) (x7 : Vec F S64x128 .f32) (x8 : Vec F S128 .f32) (x9 : Vec F S4x64 .f32) (x10 : Vec F S64 .f32) (x11 : Vec F S64x128 .f32) (x12 : Vec F S128 .f32) (x13 : Vec F S7x64 .f32) (x14 : Vec F S64 .f32) (x15 : Vec F S64x128 .f32) (x16 : Vec F S128 .f32) (x17 : Vec F S128x128 .f32) (x18 : Vec F S128x128 .f32) (x19 : Vec F S128 .f32) (x20 : Vec F S128x128 .f32) (x21 : Vec F S128x128 .f32) (x22 : Vec F S128 .f32) (x23 : Vec F S128x64 .f32) (x24 : Vec F S64 .f32) (x25 : Vec F S64x1 .f32) (x26 : Vec F S1 .f32) (x27 : Vec F S7x7 .f32) :
    out0_A_28 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27
      = VO0_28.read (Elt F) (VO0_28.writes (Elt F) VO0_28.junk (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1) := by
  delta out0_A_28
  rfl

set_option maxHeartbeats 1000000 in
/-- What the run leaves in the output's staging buffer. -/
theorem out_eq (c : Dev nD) (i : grid0.Coords) (arg1 : Memref sig .tc .vmem S1x28 .f32) (harg1 : arg1.IsWhole) (arg2 : Memref sig .tc .vmem S3x64 .f32) (harg2 : arg2.IsWhole) (arg3 : Memref sig .tc .vmem S64 .f32) (harg3 : arg3.IsWhole) (arg4 : Memref sig .tc .vmem S64x128 .f32) (harg4 : arg4.IsWhole) (arg5 : Memref sig .tc .vmem S128 .f32) (harg5 : arg5.IsWhole) (arg6 : Memref sig .tc .vmem S2x64 .f32) (harg6 : arg6.IsWhole) (arg7 : Memref sig .tc .vmem S64 .f32) (harg7 : arg7.IsWhole) (arg8 : Memref sig .tc .vmem S64x128 .f32) (harg8 : arg8.IsWhole) (arg9 : Memref sig .tc .vmem S128 .f32) (harg9 : arg9.IsWhole) (arg10 : Memref sig .tc .vmem S4x64 .f32) (harg10 : arg10.IsWhole) (arg11 : Memref sig .tc .vmem S64 .f32) (harg11 : arg11.IsWhole) (arg12 : Memref sig .tc .vmem S64x128 .f32) (harg12 : arg12.IsWhole) (arg13 : Memref sig .tc .vmem S128 .f32) (harg13 : arg13.IsWhole) (arg14 : Memref sig .tc .vmem S7x64 .f32) (harg14 : arg14.IsWhole) (arg15 : Memref sig .tc .vmem S64 .f32) (harg15 : arg15.IsWhole) (arg16 : Memref sig .tc .vmem S64x128 .f32) (harg16 : arg16.IsWhole) (arg17 : Memref sig .tc .vmem S128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128 .f32) (harg23 : arg23.IsWhole) (arg24 : Memref sig .tc .vmem S128x64 .f32) (harg24 : arg24.IsWhole) (arg25 : Memref sig .tc .vmem S64 .f32) (harg25 : arg25.IsWhole) (arg26 : Memref sig .tc .vmem S64x1 .f32) (harg26 : arg26.IsWhole) (arg27 : Memref sig .tc .vmem S1 .f32) (harg27 : arg27.IsWhole) (arg28 : Memref sig .tc .vmem S7x7 .f32) (harg28 : arg28.IsWhole) (arg29 : Memref sig .tc .vmem S1x1 .f32) (harg29 : arg29.IsWhole) (arg30 : Memref sig .tc .vmem S7x128 .f32) (harg30 : arg30.IsWhole)
    (x0 : FVec Ideal S1x28 .f32) (x1 : FVec Ideal S3x64 .f32) (x2 : FVec Ideal S64 .f32) (x3 : FVec Ideal S64x128 .f32) (x4 : FVec Ideal S128 .f32) (x5 : FVec Ideal S2x64 .f32) (x6 : FVec Ideal S64 .f32) (x7 : FVec Ideal S64x128 .f32) (x8 : FVec Ideal S128 .f32) (x9 : FVec Ideal S4x64 .f32) (x10 : FVec Ideal S64 .f32) (x11 : FVec Ideal S64x128 .f32) (x12 : FVec Ideal S128 .f32) (x13 : FVec Ideal S7x64 .f32) (x14 : FVec Ideal S64 .f32) (x15 : FVec Ideal S64x128 .f32) (x16 : FVec Ideal S128 .f32) (x17 : FVec Ideal S128x128 .f32) (x18 : FVec Ideal S128x128 .f32) (x19 : FVec Ideal S128 .f32) (x20 : FVec Ideal S128x128 .f32) (x21 : FVec Ideal S128x128 .f32) (x22 : FVec Ideal S128 .f32) (x23 : FVec Ideal S128x64 .f32) (x24 : FVec Ideal S64 .f32) (x25 : FVec Ideal S64x1 .f32) (x26 : FVec Ideal S1 .f32) (x27 : FVec Ideal S7x7 .f32) (y : S1x1.Idx) :
    out0_A_28 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27 y = netK x0 x1 x2 x3 x4 x5 x6 x7 x8 x9 x10 x11 x12 x13 x14 x15 x16 x17 x18 x19 x20 x21 x22 x23 x24 x25 x26 x27 := by
  refine (congrFun (out0_def (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27) y).trans ?_
  refine (congrFun (View.read_writes_eq_canon _ _ _ (cover0_A_28 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27)) y).trans ?_
  exact canon_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27 y

end Cert.KernelIdeal.Pieces

end
-- ==== Proof.KernelBlocksA.lean ====
/-
  The windows of the one-point grid are whole arrays: the grid's one point, and windows 0 … 13.

  The kernel's launch has a single grid point and every window's block is its whole array, at block index zero on
  every axis. So the block a window stages at the point is the array itself as the region finds it, and for an argument
  that no earlier operation writes, the argument as launched; the output window's block covers its whole array, and a
  block read of a function on that array is the function.
-/
import proofs.«124651_j5927054868950_2_alg».proof.Proof.Gen.KernelIdeal.Frame.Runs

noncomputable section

namespace Cert.KernelIdeal.Blocks

open Cert.KernelIdeal Cert.KernelIdeal.Gen Idealize.ShloMosaic Idealize.ShloMosaic.TcCoe Idealize.SL.Sem

variable {F : FTy → Type} [FloatOps F] [Cert.KernelIdeal.Facts]
variable (m : (ℓ : Loc nD τ sig) → Buf (Elt F) ℓ) (c : Dev nD) (t : Fin cfg0.N)

/-! ## The grid has one point -/

/-- Any two grid points are equal. -/
theorem point_eq (t t' : Fin cfg0.N) : t = t' := (fin_N0 t).trans (fin_N0 t').symm

/-- Every grid point is the first. -/
theorem t_zero (t : Fin cfg0.N) : t = t0_0 := fin_N0 t

instance : Subsingleton (Fin cfg0.N) := ⟨point_eq⟩

/-! ## The block index of every window is zero on every axis (decided over the grid) -/
theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 1) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 1) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 1) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 1) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 1) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 1) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)

/-! ## Input windows: the staged block is the array -/

/-- Window 0's block at the point is the whole of `main_v0` as the region finds it. -/
theorem blk_0 : (iblk m c 0 t : S1x28.Idx → Elt F .f32) = V m c main_v0 := by
  funext y
  show V m c main_v0 (((cfg0.win 0).blk t).view.emb y) = V m c main_v0 y
  refine congrArg (V m c main_v0) ?_
  obtain ⟨e0, e1⟩ := idx_0 t
  funext a; apply Fin.ext
  match a with
  | ⟨0, _⟩ => show win0_0.index t (0 : Fin 2) * 1 + 1 * (y 0).val = (y 0).val; omega
  | ⟨1, _⟩ => show win0_0.index t (1 : Fin 2) * 28 + 1 * (y 1).val = (y 1).val; omega

/-- Window 1's block at the point is the whole of `main_arg1` as the region finds it. -/
theorem blk_1 : (iblk m c 1 t : S3x64.Idx → Elt F .f32) = V m c main_arg1 := by
  funext y
  show V m c main_arg1 (((cfg0.win 1).blk t).view.emb y) = V m c main_arg1 y
  refine congrArg (V m c main_arg1) ?_
  obtain ⟨e0, e1⟩ := idx_1 t
  funext a; apply Fin.ext
  match a with
  | ⟨0, _⟩ => show win0_1.index t (0 : Fin 2) * 3 + 1 * (y 0).val = (y 0).val; omega
  | ⟨1, _⟩ => show win0_1.index t (1 : Fin 2) * 64 + 1 * (y 1).val = (y 1).val; omega

/-- … and `main_arg1` reaches the region as launched. -/
theorem blk_1_arg : (iblk m c 1 t : S3x64.Idx → Elt F .f32) = m ((c : Thread nD τ).loc main_arg1) :=
  (blk_1 m c t).trans (V_main_arg1 m c)

/-- Window 2's block at the point is the whole of `main_arg2` as the region finds it. -/
theorem blk_2 : (iblk m c 2 t : S64.Idx → Elt F .f32) = V m c main_arg2 := by
  funext y
  show V m c main_arg2 (((cfg0.win 2).blk t).view.emb y) = V m c main_arg2 y
  refine congrArg (V m c main_arg2) ?_
  have e0 := idx_2 t
  funext a; apply Fin.ext
  match a with
  | ⟨0, _⟩ => show win0_2.index t (0 : Fin 1) * 64 + 1 * (y 0).val = (y 0).val; omega

/-- … and `main_arg2` reaches the region as launched. -/
theorem blk_2_arg : (iblk m c 2 t : S64.Idx → Elt F .f32) = m ((c : Thread nD τ).loc main_arg2) :=
  (blk_2 m c t).trans (V_main_arg2 m c)

/-- Window 3's block at the point is the whole of `main_arg3` as the region finds it. -/
theorem blk_3 : (iblk m c 3 t : S64x128.Idx → Elt F .f32) = V m c main_arg3 := by
  funext y
  show V m c main_arg3 (((cfg0.win 3).blk t).view.emb y) = V m c main_arg3 y
  refine congrArg (V m c main_arg3) ?_
  obtain ⟨e0, e1⟩ := idx_3 t
  funext a; apply Fin.ext
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- … and `main_arg3` reaches the region as launched. -/
theorem blk_3_arg : (iblk m c 3 t : S64x128.Idx → Elt F .f32) = m ((c : Thread nD τ).loc main_arg3) :=
  (blk_3 m c t).trans (V_main_arg3 m c)

/-- Window 4's block at the point is the whole of `main_arg4` as the region finds it. -/
theorem blk_4 : (iblk m c 4 t : S128.Idx → Elt F .f32) = V m c main_arg4 := by
  funext y
  show V m c main_arg4 (((cfg0.win 4).blk t).view.emb y) = V m c main_arg4 y
  refine congrArg (V m c main_arg4) ?_
  have e0 := idx_4 t
  funext a; apply Fin.ext
  match a with
  | ⟨0, _⟩ => show win0_4.index t (0 : Fin 1) * 128 + 1 * (y 0).val = (y 0).val; omega

/-- … and `main_arg4` reaches the region as launched. -/
theorem blk_4_arg : (iblk m c 4 t : S128.Idx → Elt F .f32) = m ((c : Thread nD τ).loc main_arg4) :=
  (blk_4 m c t).trans (V_main_arg4 m c)

/-- Window 5's block at the point is the whole of `main_arg5` as the region finds it. -/
theorem blk_5 : (iblk m c 5 t : S2x64.Idx → Elt F .f32) = V m c main_arg5 := by
  funext y
  show V m c main_arg5 (((cfg0.win 5).blk t).view.emb y) = V m c main_arg5 y
  refine congrArg (V m c main_arg5) ?_
  obtain ⟨e0, e1⟩ := idx_5 t
  funext a; apply Fin.ext
  match a with
  | ⟨0, _⟩ => show win0_5.index t (0 : Fin 2) * 2 + 1 * (y 0).val = (y 0).val; omega
  | ⟨1, _⟩ => show win0_5.index t (1 : Fin 2) * 64 + 1 * (y 1).val = (y 1).val; omega

/-- … and `main_arg5` reaches the region as launched. -/
theorem blk_5_arg : (iblk m c 5 t : S2x64.Idx → Elt F .f32) = m ((c : Thread nD τ).loc main_arg5) :=
  (blk_5 m c t).trans (V_main_arg5 m c)

/-- Window 6's block at the point is the whole of `main_arg6` as the region finds it. -/
theorem blk_6 : (iblk m c 6 t : S64.Idx → Elt F .f32) = V m c main_arg6 := by
  funext y
  show V m c main_arg6 (((cfg0.win 6).blk t).view.emb y) = V m c main_arg6 y
  refine congrArg (V m c main_arg6) ?_
  have e0 := idx_6 t
  funext a; apply Fin.ext
  match a with
  | ⟨0, _⟩ => show win0_6.index t (0 : Fin 1) * 64 + 1 * (y 0).val = (y 0).val; omega

/-- … and `main_arg6` reaches the region as launched. -/
theorem blk_6_arg : (iblk m c 6 t : S64.Idx → Elt F .f32) = m ((c : Thread nD τ).loc main_arg6) :=
  (blk_6 m c t).trans (V_main_arg6 m c)

/-- Window 7's block at the point is the whole of `main_arg7` as the region finds it. -/
theorem blk_7 : (iblk m c 7 t : S64x128.Idx → Elt F .f32) = V m c main_arg7 := by
  funext y
  show V m c main_arg7 (((cfg0.win 7).blk t).view.emb y) = V m c main_arg7 y
  refine congrArg (V m c main_arg7) ?_
  obtain ⟨e0, e1⟩ := idx_7 t
  funext a; apply Fin.ext
  match a with
  | ⟨0, _⟩ => show win0_7.index t (0 : Fin 2) * 64 + 1 * (y 0).val = (y 0).val; omega
  | ⟨1, _⟩ => show win0_7.index t (1 : Fin 2) * 128 + 1 * (y 1).val = (y 1).val; omega

/-- … and `main_arg7` reaches the region as launched. -/
theorem blk_7_arg : (iblk m c 7 t : S64x128.Idx → Elt F .f32) = m ((c : Thread nD τ).loc main_arg7) :=
  (blk_7 m c t).trans (V_main_arg7 m c)

/-- Window 8's block at the point is the whole of `main_arg8` as the region finds it. -/
theorem blk_8 : (iblk m c 8 t : S128.Idx → Elt F .f32) = V m c main_arg8 := by
  funext y
  show V m c main_arg8 (((cfg0.win 8).blk t).view.emb y) = V m c main_arg8 y
  refine congrArg (V m c main_arg8) ?_
  have e0 := idx_8 t
  funext a; apply Fin.ext
  match a with
  | ⟨0, _⟩ => show win0_8.index t (0 : Fin 1) * 128 + 1 * (y 0).val = (y 0).val; omega

/-- … and `main_arg8` reaches the region as launched. -/
theorem blk_8_arg : (iblk m c 8 t : S128.Idx → Elt F .f32) = m ((c : Thread nD τ).loc main_arg8) :=
  (blk_8 m c t).trans (V_main_arg8 m c)

/-- Window 9's block at the point is the whole of `main_arg9` as the region finds it. -/
theorem blk_9 : (iblk m c 9 t : S4x64.Idx → Elt F .f32) = V m c main_arg9 := by
  funext y
  show V m c main_arg9 (((cfg0.win 9).blk t).view.emb y) = V m c main_arg9 y
  refine congrArg (V m c main_arg9) ?_
  obtain ⟨e0, e1⟩ := idx_9 t
  funext a; apply Fin.ext
  match a with
  | ⟨0, _⟩ => show win0_9.index t (0 : Fin 2) * 4 + 1 * (y 0).val = (y 0).val; omega
  | ⟨1, _⟩ => show win0_9.index t (1 : Fin 2) * 64 + 1 * (y 1).val = (y 1).val; omega

/-- … and `main_arg9` reaches the region as launched. -/
theorem blk_9_arg : (iblk m c 9 t : S4x64.Idx → Elt F .f32) = m ((c : Thread nD τ).loc main_arg9) :=
  (blk_9 m c t).trans (V_main_arg9 m c)

/-- Window 10's block at the point is the whole of `main_arg10` as the region finds it. -/
theorem blk_10 : (iblk m c 10 t : S64.Idx → Elt F .f32) = V m c main_arg10 := by
  funext y
  show V m c main_arg10 (((cfg0.win 10).blk t).view.emb y) = V m c main_arg10 y
  refine congrArg (V m c main_arg10) ?_
  have e0 := idx_10 t
  funext a; apply Fin.ext
  match a with
  | ⟨0, _⟩ => show win0_10.index t (0 : Fin 1) * 64 + 1 * (y 0).val = (y 0).val; omega

/-- … and `main_arg10` reaches the region as launched. -/
theorem blk_10_arg : (iblk m c 10 t : S64.Idx → Elt F .f32) = m ((c : Thread nD τ).loc main_arg10) :=
  (blk_10 m c t).trans (V_main_arg10 m c)

/-- Window 11's block at the point is the whole of `main_arg11` as the region finds it. -/
theorem blk_11 : (iblk m c 11 t : S64x128.Idx → Elt F .f32) = V m c main_arg11 := by
  funext y
  show V m c main_arg11 (((cfg0.win 11).blk t).view.emb y) = V m c main_arg11 y
  refine congrArg (V m c main_arg11) ?_
  obtain ⟨e0, e1⟩ := idx_11 t
  funext a; apply Fin.ext
  match a with
  | ⟨0, _⟩ => show win0_11.index t (0 : Fin 2) * 64 + 1 * (y 0).val = (y 0).val; omega
  | ⟨1, _⟩ => show win0_11.index t (1 : Fin 2) * 128 + 1 * (y 1).val = (y 1).val; omega

/-- … and `main_arg11` reaches the region as launched. -/
theorem blk_11_arg : (iblk m c 11 t : S64x128.Idx → Elt F .f32) = m ((c : Thread nD τ).loc main_arg11) :=
  (blk_11 m c t).trans (V_main_arg11 m c)

/-- Window 12's block at the point is the whole of `main_arg12` as the region finds it. -/
theorem blk_12 : (iblk m c 12 t : S128.Idx → Elt F .f32) = V m c main_arg12 := by
  funext y
  show V m c main_arg12 (((cfg0.win 12).blk t).view.emb y) = V m c main_arg12 y
  refine congrArg (V m c main_arg12) ?_
  have e0 := idx_12 t
  funext a; apply Fin.ext
  match a with
  | ⟨0, _⟩ => show win0_12.index t (0 : Fin 1) * 128 + 1 * (y 0).val = (y 0).val; omega

/-- … and `main_arg12` reaches the region as launched. -/
theorem blk_12_arg : (iblk m c 12 t : S128.Idx → Elt F .f32) = m ((c : Thread nD τ).loc main_arg12) :=
  (blk_12 m c t).trans (V_main_arg12 m c)

/-- Window 13's block at the point is the whole of `main_arg13` as the region finds it. -/
theorem blk_13 : (iblk m c 13 t : S7x64.Idx → Elt F .f32) = V m c main_arg13 := by
  funext y
  show V m c main_arg13 (((cfg0.win 13).blk t).view.emb y) = V m c main_arg13 y
  refine congrArg (V m c main_arg13) ?_
  obtain ⟨e0, e1⟩ := idx_13 t
  funext a; apply Fin.ext
  match a with
  | ⟨0, _⟩ => show win0_13.index t (0 : Fin 2) * 7 + 1 * (y 0).val = (y 0).val; omega
  | ⟨1, _⟩ => show win0_13.index t (1 : Fin 2) * 64 + 1 * (y 1).val = (y 1).val; omega

/-- … and `main_arg13` reaches the region as launched. -/
theorem blk_13_arg : (iblk m c 13 t : S7x64.Idx → Elt F .f32) = m ((c : Thread nD τ).loc main_arg13) :=
  (blk_13 m c t).trans (V_main_arg13 m c)

end Cert.KernelIdeal.Blocks

end
-- ==== Proof.KernelBlocks.lean ====
/-
  The windows of the one-point grid are whole arrays: windows 14 … 27 and the output window.

  The launch has a single grid point and every window's block is its whole array, at block index zero on every axis:
  the staged block of an input window is the array itself, the output window's block covers its whole array, and a
  block read of a function on that array is the function.
-/
import proofs.«124651_j5927054868950_2_alg».proof.Proof.Gen.KernelIdeal.Frame.Runs
import proofs.«124651_j5927054868950_2_alg».proof.Proof.KernelBlocksA

noncomputable section

namespace Cert.KernelIdeal.Blocks

open Cert.KernelIdeal Cert.KernelIdeal.Gen Idealize.ShloMosaic Idealize.ShloMosaic.TcCoe Idealize.SL.Sem

variable {F : FTy → Type} [FloatOps F] [Cert.KernelIdeal.Facts]
variable (m : (ℓ : Loc nD τ sig) → Buf (Elt F) ℓ) (c : Dev nD) (t : Fin cfg0.N)

/-! ## The block index of every window is zero on every axis (decided over the grid) -/
theorem idx_14 : ∀ t : Fin cfg0.N, win0_14.index t (0 : Fin 1) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 1) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 1) = 0 :=
  (by decide +kernel : ∀ t : Fin grid0.N, _)
theorem idx_20 : ∀ t : Fin cfg0.N, win0_20.index t (0 : Fin 2) = 0 ∧ win0_20.index t (1 : Fin 2) = 0 :=
  (by decide +kernel : ∀ t : Fin grid0.N, _)
theorem idx_21 : ∀ t : Fin cfg0.N, win0_21.index t (0 : Fin 2) = 0 ∧ win0_21.index t (1 : Fin 2) = 0 :=
  (by decide +kernel : ∀ t : Fin grid0.N, _)
theorem idx_22 : ∀ t : Fin cfg0.N, win0_22.index t (0 : Fin 1) = 0 :=
  (by decide +kernel : ∀ t : Fin grid0.N, _)
theorem idx_23 : ∀ t : Fin cfg0.N, win0_23.index t (0 : Fin 2) = 0 ∧ win0_23.index t (1 : Fin 2) = 0 :=
  (by decide +kernel : ∀ t : Fin grid0.N, _)
theorem idx_24 : ∀ t : Fin cfg0.N, win0_24.index t (0 : Fin 1) = 0 :=
  (by decide +kernel : ∀ t : Fin grid0.N, _)
theorem idx_25 : ∀ t : Fin cfg0.N, win0_25.index t (0 : Fin 2) = 0 ∧ win0_25.index t (1 : Fin 2) = 0 :=
  (by decide +kernel : ∀ t : Fin grid0.N, _)
theorem idx_26 : ∀ t : Fin cfg0.N, win0_26.index t (0 : Fin 1) = 0 :=
  (by decide +kernel : ∀ t : Fin grid0.N, _)
theorem idx_27 : ∀ t : Fin cfg0.N, win0_27.index t (0 : Fin 2) = 0 ∧ win0_27.index t (1 : Fin 2) = 0 :=
  (by decide +kernel : ∀ t : Fin grid0.N, _)
theorem idx_28 : ∀ t : Fin cfg0.N, win0_28.index t (0 : Fin 2) = 0 ∧ win0_28.index t (1 : Fin 2) = 0 :=
  (by decide +kernel : ∀ t : Fin grid0.N, _)

/-! ## Input windows 14 … 27: the staged block is the array -/

/-- Window 14's block at the point is the whole of `main_arg14` as the region finds it. -/
theorem blk_14 : (iblk m c 14 t : S64.Idx → Elt F .f32) = V m c main_arg14 := by
  funext y
  show V m c main_arg14 (((cfg0.win 14).blk t).view.emb y) = V m c main_arg14 y
  refine congrArg (V m c main_arg14) ?_
  have e0 := idx_14 t
  funext a; apply Fin.ext
  match a with
  | ⟨0, _⟩ => show win0_14.index t (0 : Fin 1) * 64 + 1 * (y 0).val = (y 0).val; omega

/-- … and `main_arg14` reaches the region as launched. -/
theorem blk_14_arg : (iblk m c 14 t : S64.Idx → Elt F .f32) = m ((c : Thread nD τ).loc main_arg14) :=
  (blk_14 m c t).trans (V_main_arg14 m c)

/-- Window 15's block at the point is the whole of `main_arg15` as the region finds it. -/
theorem blk_15 : (iblk m c 15 t : S64x128.Idx → Elt F .f32) = V m c main_arg15 := by
  funext y
  show V m c main_arg15 (((cfg0.win 15).blk t).view.emb y) = V m c main_arg15 y
  refine congrArg (V m c main_arg15) ?_
  obtain ⟨e0, e1⟩ := idx_15 t
  funext a; apply Fin.ext
  match a with
  | ⟨0, _⟩ => show win0_15.index t (0 : Fin 2) * 64 + 1 * (y 0).val = (y 0).val; omega
  | ⟨1, _⟩ => show win0_15.index t (1 : Fin 2) * 128 + 1 * (y 1).val = (y 1).val; omega

/-- … and `main_arg15` reaches the region as launched. -/
theorem blk_15_arg : (iblk m c 15 t : S64x128.Idx → Elt F .f32) = m ((c : Thread nD τ).loc main_arg15) :=
  (blk_15 m c t).trans (V_main_arg15 m c)

/-- Window 16's block at the point is the whole of `main_arg16` as the region finds it. -/
theorem blk_16 : (iblk m c 16 t : S128.Idx → Elt F .f32) = V m c main_arg16 := by
  funext y
  show V m c main_arg16 (((cfg0.win 16).blk t).view.emb y) = V m c main_arg16 y
  refine congrArg (V m c main_arg16) ?_
  have e0 := idx_16 t
  funext a; apply Fin.ext
  match a with
  | ⟨0, _⟩ => show win0_16.index t (0 : Fin 1) * 128 + 1 * (y 0).val = (y 0).val; omega

/-- … and `main_arg16` reaches the region as launched. -/
theorem blk_16_arg : (iblk m c 16 t : S128.Idx → Elt F .f32) = m ((c : Thread nD τ).loc main_arg16) :=
  (blk_16 m c t).trans (V_main_arg16 m c)

/-- Window 17's block at the point is the whole of `main_arg17` as the region finds it. -/
theorem blk_17 : (iblk m c 17 t : S128x128.Idx → Elt F .f32) = V m c main_arg17 := by
  funext y
  show V m c main_arg17 (((cfg0.win 17).blk t).view.emb y) = V m c main_arg17 y
  refine congrArg (V m c main_arg17) ?_
  obtain ⟨e0, e1⟩ := idx_17 t
  funext a; apply Fin.ext
  match a with
  | ⟨0, _⟩ => show win0_17.index t (0 : Fin 2) * 128 + 1 * (y 0).val = (y 0).val; omega
  | ⟨1, _⟩ => show win0_17.index t (1 : Fin 2) * 128 + 1 * (y 1).val = (y 1).val; omega

/-- … and `main_arg17` reaches the region as launched. -/
theorem blk_17_arg : (iblk m c 17 t : S128x128.Idx → Elt F .f32) = m ((c : Thread nD τ).loc main_arg17) :=
  (blk_17 m c t).trans (V_main_arg17 m c)

/-- Window 18's block at the point is the whole of `main_arg18` as the region finds it. -/
theorem blk_18 : (iblk m c 18 t : S128x128.Idx → Elt F .f32) = V m c main_arg18 := by
  funext y
  show V m c main_arg18 (((cfg0.win 18).blk t).view.emb y) = V m c main_arg18 y
  refine congrArg (V m c main_arg18) ?_
  obtain ⟨e0, e1⟩ := idx_18 t
  funext a; apply Fin.ext
  match a with
  | ⟨0, _⟩ => show win0_18.index t (0 : Fin 2) * 128 + 1 * (y 0).val = (y 0).val; omega
  | ⟨1, _⟩ => show win0_18.index t (1 : Fin 2) * 128 + 1 * (y 1).val = (y 1).val; omega

/-- … and `main_arg18` reaches the region as launched. -/
theorem blk_18_arg : (iblk m c 18 t : S128x128.Idx → Elt F .f32) = m ((c : Thread nD τ).loc main_arg18) :=
  (blk_18 m c t).trans (V_main_arg18 m c)

/-- Window 19's block at the point is the whole of `main_arg19` as the region finds it. -/
theorem blk_19 : (iblk m c 19 t : S128.Idx → Elt F .f32) = V m c main_arg19 := by
  funext y
  show V m c main_arg19 (((cfg0.win 19).blk t).view.emb y) = V m c main_arg19 y
  refine congrArg (V m c main_arg19) ?_
  have e0 := idx_19 t
  funext a; apply Fin.ext
  match a with
  | ⟨0, _⟩ => show win0_19.index t (0 : Fin 1) * 128 + 1 * (y 0).val = (y 0).val; omega

/-- … and `main_arg19` reaches the region as launched. -/
theorem blk_19_arg : (iblk m c 19 t : S128.Idx → Elt F .f32) = m ((c : Thread nD τ).loc main_arg19) :=
  (blk_19 m c t).trans (V_main_arg19 m c)

/-- Window 20's block at the point is the whole of `main_arg20` as the region finds it. -/
theorem blk_20 : (iblk m c 20 t : S128x128.Idx → Elt F .f32) = V m c main_arg20 := by
  funext y
  show V m c main_arg20 (((cfg0.win 20).blk t).view.emb y) = V m c main_arg20 y
  refine congrArg (V m c main_arg20) ?_
  obtain ⟨e0, e1⟩ := idx_20 t
  funext a; apply Fin.ext
  match a with
  | ⟨0, _⟩ => show win0_20.index t (0 : Fin 2) * 128 + 1 * (y 0).val = (y 0).val; omega
  | ⟨1, _⟩ => show win0_20.index t (1 : Fin 2) * 128 + 1 * (y 1).val = (y 1).val; omega

/-- … and `main_arg20` reaches the region as launched. -/
theorem blk_20_arg : (iblk m c 20 t : S128x128.Idx → Elt F .f32) = m ((c : Thread nD τ).loc main_arg20) :=
  (blk_20 m c t).trans (V_main_arg20 m c)

/-- Window 21's block at the point is the whole of `main_arg21` as the region finds it. -/
theorem blk_21 : (iblk m c 21 t : S128x128.Idx → Elt F .f32) = V m c main_arg21 := by
  funext y
  show V m c main_arg21 (((cfg0.win 21).blk t).view.emb y) = V m c main_arg21 y
  refine congrArg (V m c main_arg21) ?_
  obtain ⟨e0, e1⟩ := idx_21 t
  funext a; apply Fin.ext
  match a with
  | ⟨0, _⟩ => show win0_21.index t (0 : Fin 2) * 128 + 1 * (y 0).val = (y 0).val; omega
  | ⟨1, _⟩ => show win0_21.index t (1 : Fin 2) * 128 + 1 * (y 1).val = (y 1).val; omega

/-- … and `main_arg21` reaches the region as launched. -/
theorem blk_21_arg : (iblk m c 21 t : S128x128.Idx → Elt F .f32) = m ((c : Thread nD τ).loc main_arg21) :=
  (blk_21 m c t).trans (V_main_arg21 m c)

/-- Window 22's block at the point is the whole of `main_arg22` as the region finds it. -/
theorem blk_22 : (iblk m c 22 t : S128.Idx → Elt F .f32) = V m c main_arg22 := by
  funext y
  show V m c main_arg22 (((cfg0.win 22).blk t).view.emb y) = V m c main_arg22 y
  refine congrArg (V m c main_arg22) ?_
  have e0 := idx_22 t
  funext a; apply Fin.ext
  match a with
  | ⟨0, _⟩ => show win0_22.index t (0 : Fin 1) * 128 + 1 * (y 0).val = (y 0).val; omega

/-- … and `main_arg22` reaches the region as launched. -/
theorem blk_22_arg : (iblk m c 22 t : S128.Idx → Elt F .f32) = m ((c : Thread nD τ).loc main_arg22) :=
  (blk_22 m c t).trans (V_main_arg22 m c)

/-- Window 23's block at the point is the whole of `main_arg23` as the region finds it. -/
theorem blk_23 : (iblk m c 23 t : S128x64.Idx → Elt F .f32) = V m c main_arg23 := by
  funext y
  show V m c main_arg23 (((cfg0.win 23).blk t).view.emb y) = V m c main_arg23 y
  refine congrArg (V m c main_arg23) ?_
  obtain ⟨e0, e1⟩ := idx_23 t
  funext a; apply Fin.ext
  match a with
  | ⟨0, _⟩ => show win0_23.index t (0 : Fin 2) * 128 + 1 * (y 0).val = (y 0).val; omega
  | ⟨1, _⟩ => show win0_23.index t (1 : Fin 2) * 64 + 1 * (y 1).val = (y 1).val; omega

/-- … and `main_arg23` reaches the region as launched. -/
theorem blk_23_arg : (iblk m c 23 t : S128x64.Idx → Elt F .f32) = m ((c : Thread nD τ).loc main_arg23) :=
  (blk_23 m c t).trans (V_main_arg23 m c)

/-- Window 24's block at the point is the whole of `main_arg24` as the region finds it. -/
theorem blk_24 : (iblk m c 24 t : S64.Idx → Elt F .f32) = V m c main_arg24 := by
  funext y
  show V m c main_arg24 (((cfg0.win 24).blk t).view.emb y) = V m c main_arg24 y
  refine congrArg (V m c main_arg24) ?_
  have e0 := idx_24 t
  funext a; apply Fin.ext
  match a with
  | ⟨0, _⟩ => show win0_24.index t (0 : Fin 1) * 64 + 1 * (y 0).val = (y 0).val; omega

/-- … and `main_arg24` reaches the region as launched. -/
theorem blk_24_arg : (iblk m c 24 t : S64.Idx → Elt F .f32) = m ((c : Thread nD τ).loc main_arg24) :=
  (blk_24 m c t).trans (V_main_arg24 m c)

/-- Window 25's block at the point is the whole of `main_arg25` as the region finds it. -/
theorem blk_25 : (iblk m c 25 t : S64x1.Idx → Elt F .f32) = V m c main_arg25 := by
  funext y
  show V m c main_arg25 (((cfg0.win 25).blk t).view.emb y) = V m c main_arg25 y
  refine congrArg (V m c main_arg25) ?_
  obtain ⟨e0, e1⟩ := idx_25 t
  funext a; apply Fin.ext
  match a with
  | ⟨0, _⟩ => show win0_25.index t (0 : Fin 2) * 64 + 1 * (y 0).val = (y 0).val; omega
  | ⟨1, _⟩ => show win0_25.index t (1 : Fin 2) * 1 + 1 * (y 1).val = (y 1).val; omega

/-- … and `main_arg25` reaches the region as launched. -/
theorem blk_25_arg : (iblk m c 25 t : S64x1.Idx → Elt F .f32) = m ((c : Thread nD τ).loc main_arg25) :=
  (blk_25 m c t).trans (V_main_arg25 m c)

/-- Window 26's block at the point is the whole of `main_arg26` as the region finds it. -/
theorem blk_26 : (iblk m c 26 t : S1.Idx → Elt F .f32) = V m c main_arg26 := by
  funext y
  show V m c main_arg26 (((cfg0.win 26).blk t).view.emb y) = V m c main_arg26 y
  refine congrArg (V m c main_arg26) ?_
  have e0 := idx_26 t
  funext a; apply Fin.ext
  match a with
  | ⟨0, _⟩ => show win0_26.index t (0 : Fin 1) * 1 + 1 * (y 0).val = (y 0).val; omega

/-- … and `main_arg26` reaches the region as launched. -/
theorem blk_26_arg : (iblk m c 26 t : S1.Idx → Elt F .f32) = m ((c : Thread nD τ).loc main_arg26) :=
  (blk_26 m c t).trans (V_main_arg26 m c)

/-- Window 27's block at the point is the whole of `main_v43` as the region finds it. -/
theorem blk_27 : (iblk m c 27 t : S7x7.Idx → Elt F .f32) = V m c main_v43 := by
  funext y
  show V m c main_v43 (((cfg0.win 27).blk t).view.emb y) = V m c main_v43 y
  refine congrArg (V m c main_v43) ?_
  obtain ⟨e0, e1⟩ := idx_27 t
  funext a; apply Fin.ext
  match a with
  | ⟨0, _⟩ => show win0_27.index t (0 : Fin 2) * 7 + 1 * (y 0).val = (y 0).val; omega
  | ⟨1, _⟩ => show win0_27.index t (1 : Fin 2) * 7 + 1 * (y 1).val = (y 1).val; omega

/-! ## The output window -/

/-- A block read of a function on the output array is the function. -/
theorem read28 (G : S1x1.Idx → Elt F .f32) :
    (((cfg0.win 28).blk t).view.read (Elt F) G : S1x1.Idx → Elt F .f32) = G := by
  refine funext fun (y : S1x1.Idx) => ?_
  show G (((cfg0.win 28).blk t).view.emb y) = G y
  refine congrArg G ?_
  obtain ⟨e0, e1⟩ := idx_28 t
  funext a; apply Fin.ext
  match a with
  | ⟨0, _⟩ => show win0_28.index t (0 : Fin 2) * 1 + 1 * (y 0).val = (y 0).val; omega
  | ⟨1, _⟩ => show win0_28.index t (1 : Fin 2) * 1 + 1 * (y 1).val = (y 1).val; omega

/-- An index of the output array is in the point's block iff each coordinate is in the block's range on its axis. -/
theorem mem_blk28 (i : S1x1.Idx) :
    i ∈ ((cfg0.win 28).blk t).view.set ↔ ∀ a : Fin 2, win0_28.index t a * S1x1.size a ≤ (i a).val
      ∧ (i a).val < win0_28.index t a * S1x1.size a + S1x1.size a := by
  show i ∈ ((View.whole main_v44).slice (win0_28.rect t)).set ↔ _
  rw [View.set_slice_whole, Rect.mem_set_unit]
  exact Iff.rfl

/-- The point's block covers the whole output array, and the point writes it back. -/
theorem cover28 : ∀ i : S1x1.Idx, ∃ t : Fin cfg0.N, (cfg0.win 28).flush t = true ∧ i ∈ ((cfg0.win 28).blk t).view.set := by
  intro i
  refine ⟨t0_0, flush0_28 t0_0, ?_⟩
  rw [mem_blk28]
  obtain ⟨e0, e1⟩ := idx_28 t0_0
  have h0 : (i 0).val < 1 := (i 0).isLt
  have h1 : (i 1).val < 1 := (i 1).isLt
  intro a
  match a with
  | ⟨0, _⟩ => show win0_28.index t0_0 (0 : Fin 2) * 1 ≤ (i 0).val ∧ (i 0).val < win0_28.index t0_0 (0 : Fin 2) * 1 + 1; omega
  | ⟨1, _⟩ => show win0_28.index t0_0 (1 : Fin 2) * 1 ≤ (i 1).val ∧ (i 1).val < win0_28.index t0_0 (1 : Fin 2) * 1 + 1; omega

end Cert.KernelIdeal.Blocks

end
-- ==== Proof.EdgeWeightsK.lean ====
/-
  The kernel's host operations before its region, composed: from the edge list they compute the 7 × 7 adjacency matrix
  of normalised edge weights, and from the feature array its first row.

  The edge list has two rows of 14 index words: row 0 the source of each edge, row 1 its destination. The in-degree of a
  node is the number of edges that end there; each edge weighs the product of `degree ^ (-1/2)` (zero at degree zero) at
  its two ends; the matrix holds at `(destination, source)` the sum of the weights of the edges between them. What the
  region finds in the matrix's buffer is this composed term of the launch contents of the edge-list argument.
-/
import proofs.«124651_j5927054868950_2_alg».proof.Proof.Gen.KernelIdeal.Frame.Runs
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.EdgeWeights

open Cert.KernelIdeal Cert.KernelIdeal.Gen
open Idealize.ShloMosaic Idealize.ShloMosaic.TcCoe Idealize.SL.Sem Idealize.ShloMosaic.StableHlo

/-- Row 0 of the edge list (the source node of each edge), as a vector of 14 words. -/
def row0 (ei : IVec S2x14 32) : IVec S14 32 :=
  shapeCast S14 (extractStridedSlice S1x14 ![0, 0] ei slices_S2x14_S1x14_0_0) shapeCasts_S1x14_S14

/-- Row 1 of the edge list (the destination node of each edge), as a vector of 14 words. -/
def row1 (ei : IVec S2x14 32) : IVec S14 32 :=
  shapeCast S14 (extractStridedSlice S1x14 ![1, 0] ei slices_S2x14_S1x14_1_0) shapeCasts_S1x14_S14

/-- A negative index word counted from the end: `w + 7` where `w < 0`, else `w`. -/
def wrap (w : IVec S14 32) : IVec S14 32 :=
  select (cmpi .slt w (broadcastInDim S14 ![] bcast_S_S14 (constantI S_ 32 0#32)))
    (addi w (broadcastInDim S14 ![] bcast_S_S14 (constantI S_ 32 7#32))) w

/-- A vector of 14 words as a column. -/
def col (w : IVec S14 32) : IVec S14x1 32 := broadcastInDim S14x1 ![0] bcast_S14_S14x1_0 w

/-- The in-degree of each node: a one added at each edge's destination. -/
def deg (ei : IVec S2x14 32) : FVec Ideal S7 .f32 :=
  Host.scatterAdd scatter_S7_S14x1_S14_n_0_0_1
    (broadcastInDim S7 ![] bcast_S_S7 (constant (F := Ideal) S_ .f32 0x00000000#32)) (col (row1 ei))
    (broadcastInDim S14 ![] bcast_S_S14 (constant (F := Ideal) S_ .f32 0x3F800000#32))

/-- The degree to the power `-1/2` where the degree is positive, zero elsewhere. -/
def dinv (ei : IVec S2x14 32) : FVec Ideal S7 .f32 :=
  select (cmpf .ogt (deg ei) (broadcastInDim S7 ![] bcast_S_S7 (constant (F := Ideal) S_ .f32 0x00000000#32)))
    (Host.powf (deg ei) (broadcastInDim S7 ![] bcast_S_S7 (constant (F := Ideal) S_ .f32 0xBF000000#32)))
    (broadcastInDim S7 ![] bcast_S_S7 (id (constant (F := Ideal) S_ .f32 0x00000000#32)))

/-- The weight of each edge: the product of `dinv` at its source and at its destination. -/
def normK (ei : IVec S2x14 32) : FVec Ideal S14 .f32 :=
  mulf (Host.gather gather_S7_S14x1_S14_n_0_n_n_0_1_1 (dinv ei) (col (wrap (row0 ei))))
    (Host.gather gather_S7_S14x1_S14_n_0_n_n_0_1_1 (dinv ei) (col (wrap (row1 ei))))

/-- The index pairs `(destination, source)`, one row per edge. -/
def catK (ei : IVec S2x14 32) : IVec S14x2 32 :=
  concatenate S14x2 1 [⟨S14x1, col (wrap (row1 ei))⟩, ⟨S14x1, col (wrap (row0 ei))⟩] concatenates_S14x1_S14x1_S14x2_d1

/-- The 7 × 7 adjacency matrix: each edge's weight added at `(destination, source)`, from zero. -/
def adjTerm (ei : IVec S2x14 32) : FVec Ideal S7x7 .f32 :=
  Host.scatterAdd scatter_S7x7_S14x2_S14_n_01_01_1
    (broadcastInDim S7x7 ![] bcast_S_S7x7 (constant (F := Ideal) S_ .f32 0x00000000#32)) (catK ei) (normK ei)

/-- What the region finds in the adjacency matrix's buffer: the composed term of the launched edge list. -/
theorem V_adj (m : (ℓ : Loc nD τ sig) → Buf (Elt Ideal) ℓ) (c : Dev nD) :
    (V m c main_v43 : S7x7.Idx → EReal) = adjTerm (m ((c : Thread nD τ).loc main_arg27)) := by
  dsimp only [V]
  simp only [hostOps0, hostOps0_1, hostOps0_2, List.flatten_cons, List.flatten_nil, List.append_nil, List.cons_append,
    List.nil_append]
  after_results_simp
  rfl

/-- What the region finds in the first feature row's buffer: row 0 of the launched feature array. -/
theorem V_x0 (m : (ℓ : Loc nD τ sig) → Buf (Elt Ideal) ℓ) (c : Dev nD) :
    (V m c main_v0 : S1x28.Idx → EReal)
      = extractStridedSlice S1x28 ![0, 0] (m ((c : Thread nD τ).loc main_arg0)) slices_S262144x28_S1x28_0_0 := by
  dsimp only [V]
  simp only [hostOps0, hostOps0_1, hostOps0_2, List.flatten_cons, List.flatten_nil, List.append_nil, List.cons_append,
    List.nil_append]
  after_results_simp

end Cert.EdgeWeights

end
-- ==== Proof.GraphSum.lean ====
/-
  The aggregation identity of a graph convolution.

  A message-passing layer adds, into each destination node `d`, the features of every edge's source node scaled by the
  edge's weight: `Σ_{e : dst e = d} h (src e) · n e`. The same number is the row `d` of the weighted adjacency matrix
  `A d s = Σ_{e : dst e = d, src e = s} n e` applied to the feature column: `Σ_s A d s · h s`. The two agree whenever the
  weights and the features are real numbers: the product then distributes over the inner sums, and the double sum is
  regrouped by the source of each edge.
-/
import proofs.«124651_j5927054868950_2_alg».proof.Proof.LibReal

noncomputable section

open scoped BigOperators

namespace Cert.GraphSum

open Cert.LibReal

/-- The embedding of the reals into the extended reals commutes with finite sums. -/
@[norm_cast]
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the adjacency matrix's row applied to the features is the sum over the row's edges.
    `P s` selects the edges of one matrix entry, `Q` the edges of the row, `σ` is an edge's source. -/
theorem agg_real {E S : Type*} [Fintype E] [Fintype S] [DecidableEq S] (P : S → E → Prop) [∀ s, DecidablePred (P s)]
    (Q : E → Prop) [DecidablePred Q] (σ : E → S) (hP : ∀ s e, P s e ↔ (Q e ∧ σ e = s)) (n : E → ℝ) (h : S → ℝ) :
    ∑ s, (∑ e ∈ Finset.univ.filter (P s), n e) * h s = ∑ e ∈ Finset.univ.filter Q, h (σ e) * n e := by
  simp_rw [Finset.sum_mul]
  rw [Finset.sum_comm' (t' := Finset.univ.filter Q) (s' := fun e => {σ e})]
  · refine Finset.sum_congr rfl fun e _ => ?_
    rw [Finset.sum_singleton, mul_comm]
  · intro s e
    simp only [Finset.mem_univ, true_and, Finset.mem_filter, Finset.mem_singleton, hP]
    constructor
    · rintro ⟨hq, rfl⟩; exact ⟨rfl, hq⟩
    · rintro ⟨rfl, hq⟩; exact ⟨hq, rfl⟩

/-- The same over the extended reals, for real weights and real features. -/
theorem agg_ereal {E S : Type*} [Fintype E] [Fintype S] [DecidableEq S] (P : S → E → Prop) [∀ s, DecidablePred (P s)]
    (Q : E → Prop) [DecidablePred Q] (σ : E → S) (hP : ∀ s e, P s e ↔ (Q e ∧ σ e = s)) (n : E → EReal) (h : S → EReal)
    (hn : ∀ e, IsR (n e)) (hh : ∀ s, IsR (h s)) :
    ∑ s, (∑ e ∈ Finset.univ.filter (P s), n e) * h s = ∑ e ∈ Finset.univ.filter Q, h (σ e) * n e := by
  choose n' hn' using hn
  choose h' hh' using hh
  have e1 : ∀ s, (∑ e ∈ Finset.univ.filter (P s), n e) * h s
      = (((∑ e ∈ Finset.univ.filter (P s), n' e) * h' s : ℝ) : EReal) := fun s => by
    rw [EReal.coe_mul, coe_sum, hh' s]; exact congrArg (· * _) (Finset.sum_congr rfl fun e _ => hn' e)
  have e2 : ∀ e, h (σ e) * n e = ((h' (σ e) * n' e : ℝ) : EReal) := fun e => by rw [EReal.coe_mul, hh', hn']
  rw [Finset.sum_congr rfl fun s _ => e1 s, Finset.sum_congr rfl fun e _ => e2 e, ← coe_sum, ← coe_sum]
  exact congrArg _ (agg_real P Q σ hP n' h')

end Cert.GraphSum

end
-- ==== Proof.Graph.lean ====
/-
  The graph's normalised adjacency matrix and its use in a convolution layer.

  The kernel's program scatters the edge weights into a 7 × 7 matrix at (destination, source): entry `(d, s)` is the sum of
  the weights of the edges from `s` to `d` (when every index word is in range, each update lands inside the matrix at the
  pair its two words name). A convolution layer written with that matrix — the matrix applied to the messages — is the
  layer written edge by edge, by the aggregation identity, as soon as weights and messages are real numbers.
  The edge weights are products of entries of a degree vector passed through a power and a selection: real numbers
  whatever the index words are, since a gather only ever returns an entry of its operand.
-/
import proofs.«124651_j5927054868950_2_alg».proof.Proof.GraphSum
import proofs.«124651_j5927054868950_2_alg».proof.Proof.KernelOps

noncomputable section

open scoped BigOperators

namespace Cert.Graph

open Idealize.ShloMosaic Idealize.ShloMosaic.ValueIdx Cert.LibReal Cert.Spec Cert.KernelOps

/-- Rank-1 indices are their coordinate. -/
def e1 (n : ℕ) : Fin n ≃ (⟨1, ![n]⟩ : Shape).Idx where
  toFun := ix1
  invFun q := q 0
  left_inv _ := rfl
  right_inv q := (eq_ix1 q).symm

theorem ix2_inj {a b : ℕ} {p p' : Fin a} {q q' : Fin b} : (ix2 p q = ix2 p' q') ↔ (p = p' ∧ q = q') :=
  ⟨fun h => ⟨congrFun h 0, congrFun h 1⟩, fun ⟨h1, h2⟩ => by rw [h1, h2]⟩

theorem two (a : Fin 2) : a = 0 ∨ a = 1 := by
  rcases a with ⟨_ | _ | n, h⟩
  · exact .inl rfl
  · exact .inr rfl
  · omega

section
variable (wf : ScatterDims.WF ⟨2, ![7, 7]⟩ ⟨2, ![14, 2]⟩ ⟨1, ![14]⟩ [] [0, 1] [0, 1] 1)
local notation "DD" => (ScatterDims.mk (s := ⟨2, ![7, 7]⟩) (si := ⟨2, ![14, 2]⟩) (u := ⟨1, ![14]⟩) [] [0, 1] [0, 1] 1 wf)

/-- Update `q` of the adjacency scatter lands at the pair its two index words name, when both are in range. -/
theorem lands (q : (⟨1, ![14]⟩ : Shape).Idx) (cat : IVec ⟨2, ![14, 2]⟩ 32) (d s : Fin 7)
    (h0 : (cat (ix2 (q 0) (0 : Fin 2))).toInt = (d.val : ℤ)) (h1 : (cat (ix2 (q 0) (1 : Fin 2))).toInt = (s.val : ℤ)) :
    ScatterDims.resultIdx? DD q cat = some (ix2 d s) := by
  have s0 : ScatterDims.start DD q cat 0 = (cat (ix2 (q 0) (0 : Fin 2))).toInt := by
    unfold ScatterDims.start
    rw [dif_pos (show (0 : Fin 2) ∈ [(0 : Fin 2), 1] from List.mem_cons_self)]
    refine congrArg (fun i => (cat i).toInt) (funext fun b => ?_)
    match b with
    | ⟨0, _⟩ => rfl
    | ⟨1, _⟩ => rfl
  have s1 : ScatterDims.start DD q cat 1 = (cat (ix2 (q 0) (1 : Fin 2))).toInt := by
    unfold ScatterDims.start
    rw [dif_pos (show (1 : Fin 2) ∈ [(0 : Fin 2), 1] from List.mem_cons_of_mem _ List.mem_cons_self)]
    refine congrArg (fun i => (cat i).toInt) (funext fun b => ?_)
    match b with
    | ⟨0, _⟩ => rfl
    | ⟨1, _⟩ => rfl
  have w0 : ScatterDims.window DD q 0 = 0 := rfl
  have w1 : ScatterDims.window DD q 1 = 0 := rfl
  have hd := d.isLt
  have hs := s.isLt
  have hall : ∀ a, 0 ≤ ScatterDims.start DD q cat a + ScatterDims.window DD q a
      ∧ ScatterDims.start DD q cat a + ScatterDims.window DD q a < (⟨2, ![7, 7]⟩ : Shape).size a := fun a => by
    rcases two a with rfl | rfl
    · rw [s0, w0, h0]; show (0 : ℤ) ≤ d.val + ((0 : ℕ) : ℤ) ∧ (d.val : ℤ) + ((0 : ℕ) : ℤ) < ((7 : ℕ) : ℤ); omega
    · rw [s1, w1, h1]; show (0 : ℤ) ≤ s.val + ((0 : ℕ) : ℤ) ∧ (s.val : ℤ) + ((0 : ℕ) : ℤ) < ((7 : ℕ) : ℤ); omega
  unfold ScatterDims.resultIdx?
  rw [dif_pos hall]
  refine congrArg some (funext fun a => Fin.ext ?_)
  rcases two a with rfl | rfl
  · show (ScatterDims.start DD q cat 0 + ScatterDims.window DD q 0).toNat = d.val; rw [s0, w0, h0]; omega
  · show (ScatterDims.start DD q cat 1 + ScatterDims.window DD q 1).toNat = s.val; rw [s1, w1, h1]; omega

end

/-- An entry of the adjacency matrix: the sum of the weights of the edges from `s` to `d`. -/
theorem adj_entry (D : ScatterDims ⟨2, ![7, 7]⟩ ⟨2, ![14, 2]⟩ ⟨1, ![14]⟩) (k1 : D.updateWindowDims = [])
    (k2 : D.insertedWindowDims = [0, 1]) (k3 : D.scatterDimsToOperandDims = [0, 1]) (k4 : D.indexVectorDim = 1)
    (z : FVec Ideal ⟨2, ![7, 7]⟩ .f32) (hz : ∀ i, z i = 0) (cat : IVec ⟨2, ![14, 2]⟩ 32) (nrm : FVec Ideal ⟨1, ![14]⟩ .f32)
    (src dst : Fin 14 → Fin 7) (h0 : ∀ e : Fin 14, (cat (ix2 e (0 : Fin 2))).toInt = ((dst e).val : ℤ))
    (h1 : ∀ e : Fin 14, (cat (ix2 e (1 : Fin 2))).toInt = ((src e).val : ℤ)) (d s : Fin 7) :
    Host.scatterAdd D z cat nrm (ix2 d s) = ∑ e ∈ Finset.univ.filter (fun e => dst e = d ∧ src e = s), nrm (ix1 e) := by
  obtain ⟨uw, iw, sd, iv, wf⟩ := D
  dsimp only at k1 k2 k3 k4
  subst k1 k2 k3 k4
  show z (ix2 d s) + ∑ j ∈ Finset.univ.filter (fun j => ScatterDims.resultIdx? _ j cat = some (ix2 d s)), nrm j = _
  rw [hz, zero_add]
  refine Finset.sum_equiv (e1 14).symm (fun q => ?_) (fun q _ => ?_)
  · simp only [Finset.mem_filter, Finset.mem_univ, true_and, lands wf q cat _ _ (h0 (q 0)) (h1 (q 0)),
      Option.some.injEq, ix2_inj]
    rfl
  · exact congrArg nrm (eq_ix1 q)

/-- The matrix form of a convolution layer is the edge form, for real weights and real node features. -/
theorem armaK_eq_arma (A : Fin 7 → Fin 7 → EReal) (src dst : Fin 14 → Fin 7) (nrm : Fin 14 → EReal)
    (hA : ∀ d s, A d s = ∑ e ∈ Finset.univ.filter (fun e => dst e = d ∧ src e = s), nrm e)
    (nd : Fin 7 → Fin 128 → EReal) (Wi Wr : Fin 128 → Fin 128 → EReal) (b : Fin 128 → EReal)
    (hn : ∀ e, IsR (nrm e)) (hnd : ∀ a k, IsR (nd a k)) (hWi : ∀ k j, IsR (Wi k j)) :
    armaK A nd Wi Wr b = arma src dst nrm nd Wi Wr b := by
  funext d j
  unfold armaK arma
  refine congrArg (fun z => max ((z + _) + _) 0) ?_
  simp only [hA]
  exact GraphSum.agg_ereal (fun s e => dst e = d ∧ src e = s) (fun e => dst e = d) src (fun s e => Iff.rfl) nrm
    (fun s => msg nd Wi s j) hn (fun s => isR_msg hnd hWi s j)

/-! ## The edge weights are real numbers -/

theorem isR_zero_word : IsR (Ideal.ofBits .f32 0x00000000#32) := by rw [Ideal.ofBits_zero_f32]; exact IsR.zero

/-- A scatter-add of real updates into real entries has real entries. -/
theorem isR_scatterAdd {s si u : Shape} {w : ℕ} (D : ScatterDims s si u) (x : FVec Ideal s .f32) (idx : IVec si w)
    (upd : FVec Ideal u .f32) (hx : ∀ i, IsR (x i)) (hu : ∀ j, IsR (upd j)) (i : s.Idx) : IsR (Host.scatterAdd D x idx upd i) :=
  (hx i).add (IsR.sum _ _ fun j _ => hu j)

/-- A gather only returns entries of its operand. -/
theorem isR_gather {s si t : Shape} {w : ℕ} (D : GatherDims s si t) (x : FVec Ideal s .f32) (idx : IVec si w)
    (hx : ∀ i, IsR (x i)) (j : t.Idx) : IsR (Host.gather D x idx j) := hx _

/-- A real power of a real number is a real number. -/
theorem isR_pow {a b : EReal} (ha : IsR a) (hb : IsR b) : IsR (Ideal.pow a b) := by
  obtain ⟨r, rfl⟩ := ha; obtain ⟨s, rfl⟩ := hb; exact ⟨Real.rpow r s, rfl⟩

end Cert.Graph

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.EdgeWeights.lean ====
/-
  The edge weights: real numbers, the same in the kernel's program and in the reference, and summed into the adjacency
  matrix entry by entry.

  An edge's weight is the product of `degree ^ (-1/2)` (zero at degree zero) at its two ends. Each factor is gathered
  from a vector whose entries are all real — a real power of a real degree, or zero —, and a gather returns an entry of
  its operand whatever the index word is, so the weights are real with no condition on the edge list. The kernel's
  program computes them by the same operations as the reference, one for one. When every index word names a node, the
  wrap-around of negative indices leaves it unchanged, the pair `(destination, source)` of each edge is read off the
  two rows of the edge list, and entry `(d, s)` of the scattered matrix is the sum of the weights of the edges from
  `s` to `d`.
-/
import proofs.«124651_j5927054868950_2_alg».proof.Proof.EdgeWeightsK
import proofs.«124651_j5927054868950_2_alg».proof.Proof.PatchedRefRead
import proofs.«124651_j5927054868950_2_alg».proof.Proof.Graph
import proofs.«124651_j5927054868950_2_alg».proof.Proof.LibReal
import proofs.«124651_j5927054868950_2_alg».proof.Proof.LibColumn
import Idealize.ShloMosaic.Lib.Affine

set_option maxRecDepth 16384

noncomputable section

namespace Cert.EdgeWeights

open Cert.KernelIdeal Cert.KernelIdeal.Gen
open Idealize.ShloMosaic Idealize.ShloMosaic.TcCoe Idealize.SL.Sem Idealize.ShloMosaic.StableHlo

open Idealize.ShloMosaic.ValueIdx Cert.LibReal Cert.Graph
open scoped BigOperators

/-! ## The edge weights are real numbers -/

/-- A 32-bit pattern whose exponent field is not all ones denotes a real number. -/
theorem isR_ofBits_f32 (b : BitVec 32) (h : (b.extractLsb' 23 8).toNat ≠ 2 ^ 8 - 1) : IsR (Ideal.ofBits .f32 b) := by
  unfold Ideal.ofBits Ideal.ieee
  dsimp only
  rw [if_neg h]
  split
  · exact ⟨_, rfl⟩
  · exact ⟨_, rfl⟩

theorem isR_one_word : IsR (Ideal.ofBits .f32 0x3F800000#32) := isR_ofBits_f32 _ (by decide)
theorem isR_neg_half_word : IsR (Ideal.ofBits .f32 0xBF000000#32) := isR_ofBits_f32 _ (by decide)

/-- Every degree is a real number: ones added to zero. -/
theorem isR_deg (x27 : IVec Cert.ReferenceIdeal.S2x14 32) (i : Cert.ReferenceIdeal.S7.Idx) :
    IsR (Cert.ReferenceIdeal.ReadP.val_main_v87 (F := Ideal) x27 i) := by
  unfold Cert.ReferenceIdeal.ReadP.val_main_v87
  refine isR_scatterAdd _ _ _ _ (fun i => ?_) (fun j => ?_) i
  · rw [Cert.ReferenceIdeal.ReadP.val_main_v85_apply]; exact isR_zero_word
  · rw [Cert.ReferenceIdeal.ReadP.val_main_v84_apply]; exact isR_one_word

/-- Every entry of the normalising vector is a real number: a real power of a degree, or zero. -/
theorem isR_dinv (x27 : IVec Cert.ReferenceIdeal.S2x14 32) (i : Cert.ReferenceIdeal.S7.Idx) :
    IsR (Cert.ReferenceIdeal.ReadP.val_main_v92 (F := Ideal) x27 i) := by
  rw [Cert.ReferenceIdeal.ReadP.val_main_v92_apply]
  by_cases hb : Cert.ReferenceIdeal.ReadP.val_main_v89 (F := Ideal) x27 i = 1#1
  · rw [hb, select_one, Cert.ReferenceIdeal.ReadP.val_main_v91_apply, Cert.ReferenceIdeal.ReadP.val_main_v90_apply]
    exact isR_pow (isR_deg x27 i) isR_neg_half_word
  · rw [eq_zero_of_ne_one hb, select_zero, Cert.ReferenceIdeal.ReadP.val_main_call7_v1_apply]
    exact isR_zero_word

/-- Every edge weight is a real number, whatever the index words are: a gather returns an entry of its operand. -/
theorem isR_norm (x27 : IVec Cert.ReferenceIdeal.S2x14 32) (e : Fin 14) :
    IsR (Cert.ReferenceIdeal.ReadP.val_main_v107 (F := Ideal) x27 (ix1 e)) := by
  rw [Cert.ReferenceIdeal.ReadP.val_main_v107_apply]
  unfold Cert.ReferenceIdeal.ReadP.val_main_v99 Cert.ReferenceIdeal.ReadP.val_main_v106
  exact (isR_gather _ _ _ (isR_dinv x27) _).mul (isR_gather _ _ _ (isR_dinv x27) _)

/-! ## The kernel's edge weights are the reference's -/

/-- The kernel computes the edge weights by the reference's operations, one for one. -/
theorem normK_eq (ei : IVec S2x14 32) : normK ei = Cert.ReferenceIdeal.ReadP.val_main_v107 (F := Ideal) ei := rfl

/-! ## The index pairs read at an entry -/

/-- A nonnegative index word passes the wrap-around of negative indices unchanged. -/
theorem wrap_word_nonneg (w : BitVec 32) (h : 0 ≤ w.toInt) :
    Scalar.select (IntOp.cmpi .slt w 0#32) (IntOp.addi w 7#32) w = w := by
  have hc : ¬ IntOp.cmpi .slt w 0#32 = 1#1 := by
    rw [IntOp.cmpi_slt, show (0#32 : BitVec 32).toInt = 0 from by decide]; omega
  rw [eq_zero_of_ne_one hc, select_zero]

theorem row0_apply (ei : IVec S2x14 32) (e : Fin 14) : row0 ei (ix1 e) = ei (ix2 (0 : Fin 2) e) := by
  unfold row0
  rw [shapeCast_1a_a_apply]
  exact slice2_axis0_apply 0 ei _ (0 : Fin 1) e (0 : Fin 2) rfl

theorem row1_apply (ei : IVec S2x14 32) (e : Fin 14) : row1 ei (ix1 e) = ei (ix2 (1 : Fin 2) e) := by
  unfold row1
  rw [shapeCast_1a_a_apply]
  exact slice2_axis0_apply 1 ei _ (0 : Fin 1) e (1 : Fin 2) rfl

theorem wrap_apply_of_nonneg (w : IVec S14 32) (i : S14.Idx) (h : 0 ≤ (w i).toInt) : wrap w i = w i := by
  have h0 : broadcastInDim S14 ![] bcast_S_S14 (constantI S_ 32 0#32) i = 0#32 :=
    Cert.LibColumn.broadcastInDim_scalar_apply _ _ i
  have h7 : broadcastInDim S14 ![] bcast_S_S14 (constantI S_ 32 7#32) i = 7#32 :=
    Cert.LibColumn.broadcastInDim_scalar_apply _ _ i
  show Scalar.select (IntOp.cmpi .slt (w i) (broadcastInDim S14 ![] bcast_S_S14 (constantI S_ 32 0#32) i))
    (IntOp.addi (w i) (broadcastInDim S14 ![] bcast_S_S14 (constantI S_ 32 7#32) i)) (w i) = w i
  rw [h0, h7]
  exact wrap_word_nonneg (w i) h

theorem col_apply (w : IVec S14 32) (e : Fin 14) (u : Fin 1) : col w (ix2 e u) = w (ix1 e) :=
  Cert.LibColumn.broadcastInDim_a_a1_apply w _ e u

/-- Column 0 of the index pairs is the wrapped destination row. -/
theorem catK_apply_0 (ei : IVec S2x14 32) (e : Fin 14) :
    catK ei (ix2 e (0 : Fin 2)) = col (wrap (row1 ei)) (ix2 e (0 : Fin 1)) := by
  unfold catK
  exact concatenate_pair_apply_left (t := S14x2) (s₁ := S14x1) (s₂ := S14x1) (1 : Fin 2) _ _ concatenates_S14x1_S14x1_S14x2_d1 (ix2 e (0 : Fin 2)) rfl
    (ix2 e (0 : Fin 1)) (fun b => by match b with | ⟨0, _⟩ => rfl | ⟨1, _⟩ => rfl)

/-- Column 1 of the index pairs is the wrapped source row. -/
theorem catK_apply_1 (ei : IVec S2x14 32) (e : Fin 14) :
    catK ei (ix2 e (1 : Fin 2)) = col (wrap (row0 ei)) (ix2 e (0 : Fin 1)) := by
  unfold catK
  exact concatenate_pair_apply_right (t := S14x2) (s₁ := S14x1) (s₂ := S14x1) (1 : Fin 2) _ _ concatenates_S14x1_S14x1_S14x2_d1 (ix2 e (1 : Fin 2)) rfl rfl
    (ix2 e (0 : Fin 1)) (fun b hb => by
      match b with
      | ⟨0, _⟩ => rfl
      | ⟨1, _⟩ => exact absurd rfl hb) rfl

/-! ## An entry of the adjacency matrix -/

/-- Entry `(d, s)` of the adjacency matrix is the sum of the reference's weights of the edges from `s` to `d`, when
    every index word of the edge list names a node. -/
theorem adj_entry' (ei : IVec S2x14 32) (src dst : Fin 14 → Fin 7)
    (hsrc : ∀ e : Fin 14, (ei (ix2 (0 : Fin 2) e)).toInt = ((src e).val : ℤ))
    (hdst : ∀ e : Fin 14, (ei (ix2 (1 : Fin 2) e)).toInt = ((dst e).val : ℤ)) (d s : Fin 7) :
    adjTerm ei (ix2 d s) = ∑ e ∈ Finset.univ.filter (fun e => dst e = d ∧ src e = s),
      Cert.ReferenceIdeal.ReadP.val_main_v107 (F := Ideal) ei (ix1 e) := by
  have h0 : ∀ e : Fin 14, (catK ei (ix2 e (0 : Fin 2))).toInt = ((dst e).val : ℤ) := fun e => by
    have hn : 0 ≤ (row1 ei (ix1 e)).toInt := by rw [row1_apply, hdst]; exact Int.natCast_nonneg _
    rw [catK_apply_0, col_apply, wrap_apply_of_nonneg _ _ hn, row1_apply, hdst]
  have h1 : ∀ e : Fin 14, (catK ei (ix2 e (1 : Fin 2))).toInt = ((src e).val : ℤ) := fun e => by
    have hn : 0 ≤ (row0 ei (ix1 e)).toInt := by rw [row0_apply, hsrc]; exact Int.natCast_nonneg _
    rw [catK_apply_1, col_apply, wrap_apply_of_nonneg _ _ hn, row0_apply, hsrc]
  have hz : ∀ i, broadcastInDim S7x7 ![] bcast_S_S7x7 (constant (F := Ideal) S_ .f32 0x00000000#32) i = 0 := fun i =>
    (Cert.LibColumn.broadcastInDim_scalar_apply _ _ i).trans Ideal.ofBits_zero_f32
  rw [← normK_eq]
  exact Cert.Graph.adj_entry scatter_S7x7_S14x2_S14_n_01_01_1 rfl rfl rfl rfl _ hz (catK ei) (normK ei) src dst h0 h1 d s

end Cert.EdgeWeights

end
-- ==== Proof.KernelAlgebra.lean ====
/-
  The network in matrix form is the specification's network.

  For real weights, real edge weights and an edge list whose words name nodes, each entry of the adjacency matrix is
  the sum of the weights of the edges between its two nodes, so each convolution layer in matrix form is the layer
  edge by edge; the event's row is row 0 of the launched events.
-/
import proofs.«124651_j5927054868950_2_alg».proof.Proof.KernelNet
import proofs.«124651_j5927054868950_2_alg».proof.Proof.EdgeWeights

noncomputable section

open scoped BigOperators

namespace Cert.KernelIdeal.ValueK

open Cert.KernelIdeal Cert.KernelIdeal.Gen Cert.KernelIdeal.Body Cert.KernelIdeal.Pieces Cert.EdgeWeights
open Idealize.ShloMosaic Idealize.ShloMosaic.ValueIdx Cert.Spec Cert.KernelOps Cert.LibReal

/-- Row 0 of the events, read through the row slice. -/
theorem row_slice (a0 : FVec Ideal S262144x28 .f32) :
    row (extractStridedSlice S1x28 ![0, 0] a0 slices_S262144x28_S1x28_0_0) = fun k => a0 (ix2 (0 : Fin 262144) k) := by
  funext k
  exact slice2_axis0_apply 0 a0 slices_S262144x28_S1x28_0_0 0 k 0 rfl

/-- The network in matrix form is the specification's network, for real weights and an edge list naming nodes. -/
theorem netK_eq_net (a0 : FVec Ideal S262144x28 .f32) (a1 : FVec Ideal S3x64 .f32) (a2 : FVec Ideal S64 .f32) (a3 : FVec Ideal S64x128 .f32) (a4 : FVec Ideal S128 .f32) (a5 : FVec Ideal S2x64 .f32) (a6 : FVec Ideal S64 .f32) (a7 : FVec Ideal S64x128 .f32) (a8 : FVec Ideal S128 .f32) (a9 : FVec Ideal S4x64 .f32) (a10 : FVec Ideal S64 .f32) (a11 : FVec Ideal S64x128 .f32) (a12 : FVec Ideal S128 .f32) (a13 : FVec Ideal S7x64 .f32) (a14 : FVec Ideal S64 .f32) (a15 : FVec Ideal S64x128 .f32) (a16 : FVec Ideal S128 .f32) (a17 : FVec Ideal S128x128 .f32) (a18 : FVec Ideal S128x128 .f32) (a19 : FVec Ideal S128 .f32) (a20 : FVec Ideal S128x128 .f32) (a21 : FVec Ideal S128x128 .f32) (a22 : FVec Ideal S128 .f32) (a23 : FVec Ideal S128x64 .f32) (a24 : FVec Ideal S64 .f32) (a25 : FVec Ideal S64x1 .f32) (a26 : FVec Ideal S1 .f32) (ei : IVec S2x14 32)
    (r0 : ∀ i, IsR (a0 i)) (r1 : ∀ i, IsR (a1 i)) (r2 : ∀ i, IsR (a2 i)) (r3 : ∀ i, IsR (a3 i)) (r4 : ∀ i, IsR (a4 i)) (r5 : ∀ i, IsR (a5 i)) (r6 : ∀ i, IsR (a6 i)) (r7 : ∀ i, IsR (a7 i)) (r8 : ∀ i, IsR (a8 i)) (r9 : ∀ i, IsR (a9 i)) (r10 : ∀ i, IsR (a10 i)) (r11 : ∀ i, IsR (a11 i)) (r12 : ∀ i, IsR (a12 i)) (r13 : ∀ i, IsR (a13 i)) (r14 : ∀ i, IsR (a14 i)) (r15 : ∀ i, IsR (a15 i)) (r16 : ∀ i, IsR (a16 i)) (r17 : ∀ i, IsR (a17 i)) (r18 : ∀ i, IsR (a18 i)) (r19 : ∀ i, IsR (a19 i)) (r20 : ∀ i, IsR (a20 i)) (r21 : ∀ i, IsR (a21 i)) (r22 : ∀ i, IsR (a22 i)) (r23 : ∀ i, IsR (a23 i)) (r24 : ∀ i, IsR (a24 i)) (r25 : ∀ i, IsR (a25 i)) (r26 : ∀ i, IsR (a26 i))
    (src dst : Fin 14 → Fin 7) (hsrc : ∀ e : Fin 14, (ei (ix2 (0 : Fin 2) e)).toInt = ((src e).val : ℤ))
    (hdst : ∀ e : Fin 14, (ei (ix2 (1 : Fin 2) e)).toInt = ((dst e).val : ℤ)) :
    netK (extractStridedSlice S1x28 ![0, 0] a0 slices_S262144x28_S1x28_0_0) a1 a2 a3 a4 a5 a6 a7 a8 a9 a10 a11 a12 a13 a14 a15 a16 a17 a18 a19 a20 a21 a22 a23 a24 a25 a26 (adjTerm ei)
      = net (fun k => a0 (ix2 (0 : Fin 262144) k)) (v2 a1) (v1 a2) (v2 a3) (v1 a4) (v2 a5) (v1 a6) (v2 a7) (v1 a8) (v2 a9) (v1 a10) (v2 a11) (v1 a12) (v2 a13) (v1 a14) (v2 a15) (v1 a16) (v2 a17) (v2 a18) (v1 a19) (v2 a20) (v2 a21) (v1 a22) (v2 a23) (v1 a24) (v2 a25) (v1 a26) src dst
          (fun e => Cert.ReferenceIdeal.ReadP.val_main_v107 (F := Ideal) ei (ix1 e)) := by
  have hA : ∀ d s, v2 (adjTerm ei) d s = ∑ e ∈ Finset.univ.filter (fun e => dst e = d ∧ src e = s),
      Cert.ReferenceIdeal.ReadP.val_main_v107 (F := Ideal) ei (ix1 e) := fun d s => adj_entry' ei src dst hsrc hdst d s
  have hn : ∀ e : Fin 14, IsR (Cert.ReferenceIdeal.ReadP.val_main_v107 (F := Ideal) ei (ix1 e)) := fun e => isR_norm ei e
  have hrow : ∀ k, IsR (a0 (ix2 (0 : Fin 262144) k)) := fun k => r0 _
  have hnode : ∀ a k, IsR (node (fun k => a0 (ix2 (0 : Fin 262144) k)) (v2 a1) (v1 a2) (v2 a3) (v1 a4) (v2 a5) (v1 a6) (v2 a7) (v1 a8) (v2 a9) (v1 a10) (v2 a11) (v1 a12) (v2 a13) (v1 a14) (v2 a15) (v1 a16) a k) :=
    isR_node hrow (fun k j => r1 _) (fun j => r2 _) (fun k j => r3 _) (fun j => r4 _) (fun k j => r5 _) (fun j => r6 _)
      (fun k j => r7 _) (fun j => r8 _) (fun k j => r9 _) (fun j => r10 _) (fun k j => r11 _) (fun j => r12 _)
      (fun k j => r13 _) (fun j => r14 _) (fun k j => r15 _) (fun j => r16 _)
  unfold netK net
  rw [row_slice a0]
  rw [Cert.Graph.armaK_eq_arma (v2 (adjTerm ei)) src dst _ hA _ (v2 a17) (v2 a18) (v1 a19) hn hnode (fun k j => r17 _)]
  refine congrArg (fun h => mlp (Spec.pool h) (v2 a23) (v1 a24) (v2 a25) (v1 a26) 0) ?_
  exact Cert.Graph.armaK_eq_arma (v2 (adjTerm ei)) src dst _ hA _ (v2 a20) (v2 a21) (v1 a22) hn
    (fun a k => isR_arma hn hnode (fun k j => r17 _) (fun k j => r18 _) (fun j => r19 _) a k) (fun k j => r20 _)

end Cert.KernelIdeal.ValueK

end
-- ==== Proof.KernelValue.lean ====
/-
  The kernel's result array as the network function of the launched arrays.

  With one grid point and whole-array windows, every input block is the array the region finds: the launched weights,
  row 0 of the launched events, and the adjacency matrix computed from the edge list. The output block is the network in
  matrix form of those arrays, and — the weights and the edge weights being real numbers, the edge list's words naming
  nodes — the matrix form of each convolution layer is its edge form, so the result is the specification's network.
-/
import proofs.«124651_j5927054868950_2_alg».proof.Proof.PatchedKernelIdealValue
import proofs.«124651_j5927054868950_2_alg».proof.Proof.KernelPieces
import proofs.«124651_j5927054868950_2_alg».proof.Proof.KernelBlocks
import proofs.«124651_j5927054868950_2_alg».proof.Proof.EdgeWeights
import proofs.«124651_j5927054868950_2_alg».proof.Proof.KernelAlgebra

set_option maxRecDepth 16384

noncomputable section

open scoped BigOperators

namespace Cert.KernelIdeal.ValueK

open Cert.KernelIdeal Cert.KernelIdeal.Gen Cert.KernelIdeal.GenP Cert.KernelIdeal.ValueP Cert.KernelIdeal.Body
open Cert.KernelIdeal.Blocks Cert.KernelIdeal.Pieces Cert.EdgeWeights
open Idealize.ShloMosaic Idealize.ShloMosaic.TcCoe Idealize.SL.Sem Idealize.ShloMosaic.ValueIdx Cert.Spec Cert.KernelOps Cert.LibReal

variable (m : (ℓ : Loc nD τ sig) → Buf (Elt Ideal) ℓ) (ρ : Dev nD → PrngReg)

/-- What the one grid point writes back: the network in matrix form of the arrays the region finds. -/
theorem flushed_eq (c : Dev nD) (t : Fin cfg0.N) :
    (dats m 0 c).flushed 28 t = ((cfg0.win 28).blk t).view.read (Elt Ideal)
      (fun _ => netK (V m c main_v0) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (V m c main_v43)) := by
  rw [read28 t, flushed28_A m c t]
  funext y
  refine (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) _).trans ?_
  simp only [blk_0 m c t, blk_1_arg m c t, blk_2_arg m c t, blk_3_arg m c t, blk_4_arg m c t, blk_5_arg m c t, blk_6_arg m c t, blk_7_arg m c t, blk_8_arg m c t, blk_9_arg m c t, blk_10_arg m c t, blk_11_arg m c t, blk_12_arg m c t, blk_13_arg m c t, blk_14_arg m c t, blk_15_arg m c t, blk_16_arg m c t, blk_17_arg m c t, blk_18_arg m c t, blk_19_arg m c t, blk_20_arg m c t, blk_21_arg m c t, blk_22_arg m c t, blk_23_arg m c t, blk_24_arg m c t, blk_25_arg m c t, blk_26_arg m c t, blk_27 m c t]

/-- So the result array ends holding it. -/
theorem final (c : Dev nD) : (dats m 0 c).arrAt 28 cfg0.N = fun _ => netK (V m c main_v0) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (V m c main_v43) :=
  (dats m 0 c).arrAt_eq_of_cover 28 _ (fun t _ => flushed_eq m c t) cover28

end Cert.KernelIdeal.ValueK

end
-- ==== Proof.RefValue1.lean ====
/-
  The operations of the reference program that are not read entry by entry in the generated module, read at an index,
  and the two composite stages — a two-layer perceptron and a graph-convolution layer — read at an index over
  arbitrary operands.

  The reference gathers rows of a `[7, 128]` array at fourteen indices, scatters fourteen rows back with addition,
  reduces seven rows by the maximum, and lays seven slabs side by side. Each is stated here for operands that are
  variables, at explicit coordinates, so that it applies to any stage of the program by unification.
-/
import proofs.«124651_j5927054868950_2_alg».proof.Proof.Spec
import proofs.«124651_j5927054868950_2_alg».proof.Proof.LibDot
import proofs.«124651_j5927054868950_2_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.Spec

/-! ## Index words -/

/-- A nonnegative index word passes the wrap-around of negative indices unchanged. -/
theorem wrap_nonneg (w : BitVec 32) (h : 0 ≤ w.toInt) :
    Scalar.select (IntOp.cmpi .slt w 0#32) (IntOp.addi w 7#32) w = w := by
  have hs : w.slt 0#32 = false := by
    simp only [BitVec.slt, BitVec.toInt_zero, decide_eq_false_iff_not, not_lt]; exact h
  unfold IntOp.cmpi Scalar.select
  simp only [hs]
  rfl

/-! ## Gather, scatter, reduce, concatenate at an index -/

/-- A gather of whole rows: row `e` of the result is the operand's row at the `e`-th index, when that index is in range. -/
theorem gather_rows (x : FVec Ideal S7x128 .f32) (gi : IVec S14x1 32) (src : Fin 14 → Fin 7)
    (hgi : ∀ e : Fin 14, (gi (ix2 e (0 : Fin 1))).toInt = ((src e).val : ℤ)) (e : Fin 14) (j : Fin 128) :
    Host.gather gather_S7x128_S14x1_S14x128_1_0_n_n_0_1_1128 x gi (ix2 e j) = x (ix2 (src e) j) := by
  unfold Host.gather
  congr 1
  funext a
  refine Fin.ext ?_
  show gather_S7x128_S14x1_S14x128_1_0_n_n_0_1_1128.start (ix2 e j) gi a + gather_S7x128_S14x1_S14x128_1_0_n_n_0_1_1128.batchCoord (ix2 e j) a + gather_S7x128_S14x1_S14x128_1_0_n_n_0_1_1128.offCoord (ix2 e j) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)), Nat.add_zero]
    have hm : (⟨0, h0⟩ : Fin S7x128.rank) ∈ gather_S7x128_S14x1_S14x128_1_0_n_n_0_1_1128.startIndexMap := List.mem_singleton.mpr rfl
    unfold GatherDims.start
    rw [dif_pos hm]
    have hsi : gather_S7x128_S14x1_S14x128_1_0_n_n_0_1_1128.siIdx (ix2 e j) ⟨List.idxOf (⟨0, h0⟩ : Fin S7x128.rank) gather_S7x128_S14x1_S14x128_1_0_n_n_0_1_1128.startIndexMap,
        List.idxOf_lt_length_iff.2 hm⟩ = ix2 e (0 : Fin 1) := by
      funext b; refine Fin.ext ?_
      match b with
      | ⟨0, _⟩ => rfl
      | ⟨1, _⟩ => rfl
    rw [hsi, hgi]
    show min ((src e).val : ℤ).toNat (7 - 1) = (src e).val
    have := (src e).isLt
    simp only [Int.toNat_natCast]
    omega
  | ⟨1, h1⟩ =>
    have hs : gather_S7x128_S14x1_S14x128_1_0_n_n_0_1_1128.start (ix2 e j) gi ⟨1, h1⟩ = 0 := by
      unfold GatherDims.start
      rw [dif_neg (fun hm : (⟨1, h1⟩ : Fin S7x128.rank) ∈ gather_S7x128_S14x1_S14x128_1_0_n_n_0_1_1128.startIndexMap =>
        absurd (congrArg Fin.val (List.mem_singleton.mp hm)) Nat.one_ne_zero)]
    rw [hs, Nat.zero_add]
    rfl

/-- Where an update lands: update `(e, j)` goes to row `dst e`, column `j`, when the `e`-th index is in range. -/
theorem scatter_lands (si : IVec S14x1 32) (dst : Fin 14 → Fin 7)
    (hsi : ∀ e : Fin 14, (si (ix2 e (0 : Fin 1))).toInt = ((dst e).val : ℤ)) (e : Fin 14) (j : Fin 128) :
    scatter_S7x128_S14x1_S14x128_1_0_0_1.resultIdx? (ix2 e j) si = some (ix2 (dst e) j) := by
  have hs0 : scatter_S7x128_S14x1_S14x128_1_0_0_1.start (ix2 e j) si ⟨0, by decide⟩ = ((dst e).val : ℤ) := by
    unfold ScatterDims.start
    rw [dif_pos (show (⟨0, by decide⟩ : Fin 2) ∈ scatter_S7x128_S14x1_S14x128_1_0_0_1.scatterDimsToOperandDims from List.mem_singleton.mpr rfl)]
    have hq : scatter_S7x128_S14x1_S14x128_1_0_0_1.siIdx (ix2 e j) ⟨List.idxOf (⟨0, by decide⟩ : Fin 2) scatter_S7x128_S14x1_S14x128_1_0_0_1.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hq, hsi]
  have hs1 : scatter_S7x128_S14x1_S14x128_1_0_0_1.start (ix2 e j) si ⟨1, by decide⟩ = 0 := by
    unfold ScatterDims.start
    rw [dif_neg (show ¬ (⟨1, by decide⟩ : Fin 2) ∈ scatter_S7x128_S14x1_S14x128_1_0_0_1.scatterDimsToOperandDims by decide)]
  have hw0 : scatter_S7x128_S14x1_S14x128_1_0_0_1.window (ix2 e j) ⟨0, by decide⟩ = 0 := rfl
  have hw1 : scatter_S7x128_S14x1_S14x128_1_0_0_1.window (ix2 e j) ⟨1, by decide⟩ = j.val := rfl
  have hd := (dst e).isLt
  have hj := j.isLt
  unfold ScatterDims.resultIdx?
  rw [dif_pos (fun a => by
    match a with
    | ⟨0, _⟩ => rw [hs0, hw0]; show (0 : ℤ) ≤ _ ∧ _ < ((7 : ℕ) : ℤ); omega
    | ⟨1, _⟩ => rw [hs1, hw1]; show (0 : ℤ) ≤ _ ∧ _ < ((128 : ℕ) : ℤ); omega)]
  congr 1
  funext a
  refine Fin.ext ?_
  match a with
  | ⟨0, _⟩ => show (scatter_S7x128_S14x1_S14x128_1_0_0_1.start (ix2 e j) si ⟨0, by decide⟩ + (scatter_S7x128_S14x1_S14x128_1_0_0_1.window (ix2 e j) ⟨0, by decide⟩ : ℕ)).toNat = (dst e).val; rw [hs0, hw0]; omega
  | ⟨1, _⟩ => show (scatter_S7x128_S14x1_S14x128_1_0_0_1.start (ix2 e j) si ⟨1, by decide⟩ + (scatter_S7x128_S14x1_S14x128_1_0_0_1.window (ix2 e j) ⟨1, by decide⟩ : ℕ)).toNat = j.val; rw [hs1, hw1]; omega

/-- An accumulating scatter of rows into zeros: row `d` of the result is the sum of the update rows whose index is `d`. -/
theorem scatter_rows (z : FVec Ideal S7x128 .f32) (si : IVec S14x1 32) (upd : FVec Ideal S14x128 .f32) (dst : Fin 14 → Fin 7)
    (hsi : ∀ e : Fin 14, (si (ix2 e (0 : Fin 1))).toInt = ((dst e).val : ℤ)) (hz : ∀ i, z i = 0) (d : Fin 7) (j : Fin 128) :
    Host.scatterAdd (F := Ideal) scatter_S7x128_S14x1_S14x128_1_0_0_1 z si upd (ix2 d j)
      = ∑ e ∈ Finset.univ.filter (fun e => dst e = d), upd (ix2 e j) := by
  simp only [Host.scatterAdd, Ideal.hostScatterAdd_def, Ideal.hostScatterAdd]
  rw [hz, zero_add, Finset.sum_filter, sum_idx2, Finset.sum_filter]
  refine Finset.sum_congr rfl fun e _ => ?_
  simp only [scatter_lands si dst hsi]
  by_cases hd : dst e = d
  · rw [if_pos hd]
    subst hd
    rw [Finset.sum_eq_single j]
    · rw [if_pos rfl]
    · intro j' _ hne
      rw [if_neg]
      intro h
      have hc := congrFun (Option.some.inj h) (⟨1, by decide⟩ : Fin 2)
      exact hne hc
    · intro h; exact absurd (Finset.mem_univ _) h
  · rw [if_neg hd]
    refine Finset.sum_eq_zero fun j' _ => ?_
    rw [if_neg]
    intro h
    have hc := congrFun (Option.some.inj h) (⟨0, by decide⟩ : Fin 2)
    exact hd hc

/-- The maximum over the seven rows, column by column, from the pattern of `-∞`. -/
theorem pool_read (h : FVec Ideal S7x128 .f32) (hr : S7x128.ReducesTo [0] S128) (hu : 0 < S_.numel) (j : Fin 128) :
    Host.reduce FloatOps.maximumf h (constant (F := Ideal) S_ .f32 0xFF800000#32) hr hu (ix1 j)
      = (Finset.univ : Finset (Fin 7)).fold max (Ideal.ofBits .f32 0xFF800000#32) (fun d => h (ix2 d j)) := by
  have hR : S7x128.Reduces [0] S128 := by decide
  rw [Host.reduce_eq_fold_single _ _ _ hr hR hu]
  have hl : (h ∘ hR.lift (ix1 j)) = fun d : Fin 7 => h (ix2 d j) := by
    funext d
    show h (hR.lift (ix1 j) d) = h (ix2 d j)
    congr 1
    funext c
    refine Fin.ext ?_
    match c with
    | ⟨0, _⟩ => rfl
    | ⟨1, _⟩ => rfl
  rw [hl]
  rfl

/-- Seven arrays of one unit slab each, laid side by side along the middle axis: slab `a` of the result is the `a`-th array. -/
theorem stack7_read {R : ℕ} (p0 p1 p2 p3 p4 p5 p6 : (⟨3, ![R, 1, 128]⟩ : Shape).Idx → EReal)
    (h : Shape.Concatenates ([(⟨⟨3, ![R, 1, 128]⟩, p0⟩ : (s : Shape) × (s.Idx → EReal)), ⟨⟨3, ![R, 1, 128]⟩, p1⟩, ⟨⟨3, ![R, 1, 128]⟩, p2⟩,
      ⟨⟨3, ![R, 1, 128]⟩, p3⟩, ⟨⟨3, ![R, 1, 128]⟩, p4⟩, ⟨⟨3, ![R, 1, 128]⟩, p5⟩, ⟨⟨3, ![R, 1, 128]⟩, p6⟩].map (·.1)) ⟨3, ![R, 7, 128]⟩ 1)
    (r : Fin R) (a : Fin 7) (j : Fin 128) :
    concatenate ⟨3, ![R, 7, 128]⟩ 1 [⟨⟨3, ![R, 1, 128]⟩, p0⟩, ⟨⟨3, ![R, 1, 128]⟩, p1⟩, ⟨⟨3, ![R, 1, 128]⟩, p2⟩,
      ⟨⟨3, ![R, 1, 128]⟩, p3⟩, ⟨⟨3, ![R, 1, 128]⟩, p4⟩, ⟨⟨3, ![R, 1, 128]⟩, p5⟩, ⟨⟨3, ![R, 1, 128]⟩, p6⟩] h (ix3 r a j)
      = (![p0, p1, p2, p3, p4, p5, p6] a) (ix3 r (0 : Fin 1) j) := by
  have hi : ∀ b : Fin 3, b.cast (rfl : (3 : ℕ) = 3) ≠ (1 : Fin 3) →
      ((ix3 r (0 : Fin 1) j) b).val = ((ix3 r a j) (b.cast (rfl : (3 : ℕ) = 3))).val := fun b hb => by
    match b with
    | ⟨0, _⟩ => rfl
    | ⟨1, _⟩ => exact absurd rfl hb
    | ⟨2, _⟩ => rfl
  match a with
  | ⟨0, _⟩ => exact concatenate_apply_piece 1 _ h _ 0 (by show (0 : ℕ) < 7; omega) _ p0 rfl rfl 0 rfl _ hi rfl
  | ⟨1, _⟩ => exact concatenate_apply_piece 1 _ h _ 1 (by show (1 : ℕ) < 7; omega) _ p1 rfl rfl 1 rfl _ hi rfl
  | ⟨2, _⟩ => exact concatenate_apply_piece 1 _ h _ 2 (by show (2 : ℕ) < 7; omega) _ p2 rfl rfl 2 rfl _ hi rfl
  | ⟨3, _⟩ => exact concatenate_apply_piece 1 _ h _ 3 (by show (3 : ℕ) < 7; omega) _ p3 rfl rfl 3 rfl _ hi rfl
  | ⟨4, _⟩ => exact concatenate_apply_piece 1 _ h _ 4 (by show (4 : ℕ) < 7; omega) _ p4 rfl rfl 4 rfl _ hi rfl
  | ⟨5, _⟩ => exact concatenate_apply_piece 1 _ h _ 5 (by show (5 : ℕ) < 7; omega) _ p5 rfl rfl 5 rfl _ hi rfl
  | ⟨6, _⟩ => exact concatenate_apply_piece 1 _ h _ 6 (by show (6 : ℕ) < 7; omega) _ p6 rfl rfl 6 rfl _ hi rfl

/-! ## The composite stages -/

variable {M K H N : ℕ}

/-- A rows-by-columns product of the reference read at `(a, b)`. -/
theorem dot_read (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : FVec Ideal ⟨2, ![M, K]⟩ .f32) (r : FVec Ideal ⟨2, ![K, N]⟩ .f32) (a : Fin M) (b : Fin N) :
    Host.dotGeneral (F := Ideal) D none l r (ix2 a b) = ∑ k : Fin K, l (ix2 a k) * r (ix2 k b) := by
  simp only [Host.dotGeneral]
  rw [Ideal.dotGeneral_apply]
  exact PlainDot.sum_eq D h1 h2 h3 h4 h5 h6 l r a b

/-- A two-layer perceptron of the reference — product, bias row, positive part, product, bias row — read at `(r, j)`:
    the perceptron of row `r` of its input. The bias rows and the zero array enter by what they hold. -/
theorem mlp_core (D1 : DotDims ⟨2, ![M, K]⟩ ⟨2, ![K, H]⟩ ⟨2, ![M, H]⟩)
    (h1 : D1.lhsContracting = [1]) (h2 : D1.rhsContracting = [0]) (h3 : D1.lhsNonContracting = [0])
    (h4 : D1.rhsNonContracting = [1]) (h5 : D1.lhsBatch = []) (h6 : D1.rhsBatch = [])
    (D2 : DotDims ⟨2, ![M, H]⟩ ⟨2, ![H, N]⟩ ⟨2, ![M, N]⟩)
    (g1 : D2.lhsContracting = [1]) (g2 : D2.rhsContracting = [0]) (g3 : D2.lhsNonContracting = [0])
    (g4 : D2.rhsNonContracting = [1]) (g5 : D2.lhsBatch = []) (g6 : D2.rhsBatch = [])
    (xs : FVec Ideal ⟨2, ![M, K]⟩ .f32) (W1 : FVec Ideal ⟨2, ![K, H]⟩ .f32) (bb1 rz : FVec Ideal ⟨2, ![M, H]⟩ .f32)
    (W2 : FVec Ideal ⟨2, ![H, N]⟩ .f32) (bb2 : FVec Ideal ⟨2, ![M, N]⟩ .f32) (b1 : Fin H → EReal) (b2 : Fin N → EReal)
    (hb1 : ∀ (r : Fin M) (j : Fin H), bb1 (ix2 r j) = b1 j) (hrz : ∀ i, rz i = 0)
    (hb2 : ∀ (r : Fin M) (j : Fin N), bb2 (ix2 r j) = b2 j) (r : Fin M) (j : Fin N) :
    addf (Host.dotGeneral (F := Ideal) D2 none (maximumf (addf (Host.dotGeneral (F := Ideal) D1 none xs W1) bb1) rz) W2) bb2 (ix2 r j)
      = mlp (fun k => xs (ix2 r k)) (v2 W1) b1 (v2 W2) b2 j := by
  rw [addf_apply, dot_read D2 g1 g2 g3 g4 g5 g6, hb2]
  simp only [maximumf_apply, addf_apply, dot_read D1 h1 h2 h3 h4 h5 h6, hb1, hrz]
  rfl

/-- One graph-convolution layer of the reference — the rows of `nd · Wi` gathered at the edges' sources, scaled by the
    edges' weights, summed into the edges' destinations; plus `nd · Wr`; plus the bias; the positive part — read at
    `(d, j)`. The index arrays, the weight array, the bias rows and the zero arrays enter by what they hold. -/
theorem arma_core (DD : DotDims S7x128 S128x128 S7x128)
    (h1 : DD.lhsContracting = [1]) (h2 : DD.rhsContracting = [0]) (h3 : DD.lhsNonContracting = [0])
    (h4 : DD.rhsNonContracting = [1]) (h5 : DD.lhsBatch = []) (h6 : DD.rhsBatch = [])
    (nd : FVec Ideal S7x128 .f32) (Wi Wr : FVec Ideal S128x128 .f32) (z bb rz : FVec Ideal S7x128 .f32)
    (gi si : IVec S14x1 32) (nw : FVec Ideal S14x128 .f32) (src dst : Fin 14 → Fin 7) (nrm : Fin 14 → EReal)
    (b : Fin 128 → EReal) (hz : ∀ i, z i = 0) (hrz : ∀ i, rz i = 0)
    (hbb : ∀ (d : Fin 7) (j : Fin 128), bb (ix2 d j) = b j) (hnw : ∀ (e : Fin 14) (j : Fin 128), nw (ix2 e j) = nrm e)
    (hgi : ∀ e : Fin 14, (gi (ix2 e (0 : Fin 1))).toInt = ((src e).val : ℤ))
    (hsi : ∀ e : Fin 14, (si (ix2 e (0 : Fin 1))).toInt = ((dst e).val : ℤ)) (d : Fin 7) (j : Fin 128) :
    maximumf (addf (addf (Host.scatterAdd (F := Ideal) scatter_S7x128_S14x1_S14x128_1_0_0_1 z si
        (mulf (Host.gather gather_S7x128_S14x1_S14x128_1_0_n_n_0_1_1128 (Host.dotGeneral (F := Ideal) DD none nd Wi) gi) nw))
      (Host.dotGeneral (F := Ideal) DD none nd Wr)) bb) rz (ix2 d j)
      = arma src dst nrm (v2 nd) (v2 Wi) (v2 Wr) b d j := by
  rw [maximumf_apply, addf_apply, addf_apply, hrz, hbb, scatter_rows z si _ dst hsi hz,
    dot_read DD h1 h2 h3 h4 h5 h6]
  simp only [mulf_apply, gather_rows _ gi src hgi, hnw, dot_read DD h1 h2 h3 h4 h5 h6]
  rfl

end Cert.RefValue

end
-- ==== Proof.RefValue2.lean ====
/-
  The seven perceptron branches of the reference and its node array.

  Each branch of the reference is the same seven operations over its own column slice of the input and its own
  weights; read at row `r`, column `j` it is the perceptron of the slice of row `r`. The branches are stacked along a
  new middle axis and row 0 is kept: the node array.
-/
import proofs.«124651_j5927054868950_2_alg».proof.Proof.Spec
import proofs.«124651_j5927054868950_2_alg».proof.Proof.LibDot
import proofs.«124651_j5927054868950_2_alg».proof.Proof.PatchedRefRead
import proofs.«124651_j5927054868950_2_alg».proof.Proof.RefValue1

noncomputable section

open scoped BigOperators

namespace Cert.RefValue

open Idealize.ShloMosaic Idealize.ShloMosaic.ValueIdx Cert.ReferenceIdeal Cert.Spec

/-- Branch 0 (columns 0 … 2) at row `r`, column `j`. -/
theorem branch0 (x0 : FVec Ideal S262144x28 .f32) (x1 : FVec Ideal S3x64 .f32) (x2 : FVec Ideal S64 .f32) (x3 : FVec Ideal S64x128 .f32) (x4 : FVec Ideal S128 .f32) (r : Fin 262144) (j : Fin 128) :
    ReadP.val_main_v9 (F := Ideal) x0 x1 x2 x3 x4 (ix2 r j)
      = mlp (cols 0 3 (by omega) (fun k => x0 (ix2 r k))) (v2 x1) (v1 x2) (v2 x3) (v1 x4) j := by
  have hx : (fun k : Fin 3 => ReadP.val_main_v0 (F := Ideal) x0 (ix2 r k)) = cols 0 3 (by omega) (fun k => x0 (ix2 r k)) := by
    funext k
    rw [ReadP.val_main_v0_apply]
    show x0 _ = x0 _
    congr 1
    funext a
    match a with
    | ⟨0, _⟩ => rfl
    | ⟨1, _⟩ => exact Fin.ext (Nat.zero_add _).symm
  have hb1 : ∀ (r : Fin 262144) (j : Fin 64), ReadP.val_main_v3 (F := Ideal) x2 (ix2 r j) = v1 x2 j := fun r j => by
    rw [ReadP.val_main_v3_apply, ReadP.val_main_v2_apply]
    show x2 _ = x2 (ix1 j)
    congr 1
    funext a
    match a with
    | ⟨0, _⟩ => rfl
  have hb2 : ∀ (r : Fin 262144) (j : Fin 128), ReadP.val_main_v8 (F := Ideal) x4 (ix2 r j) = v1 x4 j := fun r j => by
    rw [ReadP.val_main_v8_apply, ReadP.val_main_v7_apply]
    show x4 _ = x4 (ix1 j)
    congr 1
    funext a
    match a with
    | ⟨0, _⟩ => rfl
  have hrz : ∀ i, ReadP.val_main_call0_v0 (F := Ideal) i = 0 := fun i => by
    rw [ReadP.val_main_call0_v0_apply]
    exact Ideal.ofBits_zero_f32
  exact (mlp_core (M := 262144) dot_S262144x3_S3x64_S262144x64_1_0_0_1_n_n rfl rfl rfl rfl rfl rfl
    dot_S262144x64_S64x128_S262144x128_1_0_0_1_n_n rfl rfl rfl rfl rfl rfl
    (ReadP.val_main_v0 (F := Ideal) x0) x1 (ReadP.val_main_v3 (F := Ideal) x2) (ReadP.val_main_call0_v0 (F := Ideal)) x3
    (ReadP.val_main_v8 (F := Ideal) x4) (v1 x2) (v1 x4) hb1 hrz hb2 r j).trans
    (congrArg (fun f => mlp f (v2 x1) (v1 x2) (v2 x3) (v1 x4) j) hx)

/-- Branch 1 (columns 3 … 4) at row `r`, column `j`. -/
theorem branch1 (x0 : FVec Ideal S262144x28 .f32) (x5 : FVec Ideal S2x64 .f32) (x6 : FVec Ideal S64 .f32) (x7 : FVec Ideal S64x128 .f32) (x8 : FVec Ideal S128 .f32) (r : Fin 262144) (j : Fin 128) :
    ReadP.val_main_v19 (F := Ideal) x0 x5 x6 x7 x8 (ix2 r j)
      = mlp (cols 3 2 (by omega) (fun k => x0 (ix2 r k))) (v2 x5) (v1 x6) (v2 x7) (v1 x8) j := by
  have hx : (fun k : Fin 2 => ReadP.val_main_v10 (F := Ideal) x0 (ix2 r k)) = cols 3 2 (by omega) (fun k => x0 (ix2 r k)) := by
    funext k
    rw [ReadP.val_main_v10_apply]
    show x0 _ = x0 _
    congr 1
    funext a
    match a with
    | ⟨0, _⟩ => rfl
    | ⟨1, _⟩ => rfl
  have hb1 : ∀ (r : Fin 262144) (j : Fin 64), ReadP.val_main_v13 (F := Ideal) x6 (ix2 r j) = v1 x6 j := fun r j => by
    rw [ReadP.val_main_v13_apply, ReadP.val_main_v12_apply]
    show x6 _ = x6 (ix1 j)
    congr 1
    funext a
    match a with
    | ⟨0, _⟩ => rfl
  have hb2 : ∀ (r : Fin 262144) (j : Fin 128), ReadP.val_main_v18 (F := Ideal) x8 (ix2 r j) = v1 x8 j := fun r j => by
    rw [ReadP.val_main_v18_apply, ReadP.val_main_v17_apply]
    show x8 _ = x8 (ix1 j)
    congr 1
    funext a
    match a with
    | ⟨0, _⟩ => rfl
  have hrz : ∀ i, ReadP.val_main_call1_v0 (F := Ideal) i = 0 := fun i => by
    rw [ReadP.val_main_call1_v0_apply]
    exact Ideal.ofBits_zero_f32
  exact (mlp_core (M := 262144) dot_S262144x2_S2x64_S262144x64_1_0_0_1_n_n rfl rfl rfl rfl rfl rfl
    dot_S262144x64_S64x128_S262144x128_1_0_0_1_n_n rfl rfl rfl rfl rfl rfl
    (ReadP.val_main_v10 (F := Ideal) x0) x5 (ReadP.val_main_v13 (F := Ideal) x6) (ReadP.val_main_call1_v0 (F := Ideal)) x7
    (ReadP.val_main_v18 (F := Ideal) x8) (v1 x6) (v1 x8) hb1 hrz hb2 r j).trans
    (congrArg (fun f => mlp f (v2 x5) (v1 x6) (v2 x7) (v1 x8) j) hx)

/-- Branch 2 (columns 5 … 8) at row `r`, column `j`. -/
theorem branch2 (x0 : FVec Ideal S262144x28 .f32) (x9 : FVec Ideal S4x64 .f32) (x10 : FVec Ideal S64 .f32) (x11 : FVec Ideal S64x128 .f32) (x12 : FVec Ideal S128 .f32) (r : Fin 262144) (j : Fin 128) :
    ReadP.val_main_v29 (F := Ideal) x0 x9 x10 x11 x12 (ix2 r j)
      = mlp (cols 5 4 (by omega) (fun k => x0 (ix2 r k))) (v2 x9) (v1 x10) (v2 x11) (v1 x12) j := by
  have hx : (fun k : Fin 4 => ReadP.val_main_v20 (F := Ideal) x0 (ix2 r k)) = cols 5 4 (by omega) (fun k => x0 (ix2 r k)) := by
    funext k
    rw [ReadP.val_main_v20_apply]
    show x0 _ = x0 _
    congr 1
    funext a
    match a with
    | ⟨0, _⟩ => rfl
    | ⟨1, _⟩ => rfl
  have hb1 : ∀ (r : Fin 262144) (j : Fin 64), ReadP.val_main_v23 (F := Ideal) x10 (ix2 r j) = v1 x10 j := fun r j => by
    rw [ReadP.val_main_v23_apply, ReadP.val_main_v22_apply]
    show x10 _ = x10 (ix1 j)
    congr 1
    funext a
    match a with
    | ⟨0, _⟩ => rfl
  have hb2 : ∀ (r : Fin 262144) (j : Fin 128), ReadP.val_main_v28 (F := Ideal) x12 (ix2 r j) = v1 x12 j := fun r j => by
    rw [ReadP.val_main_v28_apply, ReadP.val_main_v27_apply]
    show x12 _ = x12 (ix1 j)
    congr 1
    funext a
    match a with
    | ⟨0, _⟩ => rfl
  have hrz : ∀ i, ReadP.val_main_call2_v0 (F := Ideal) i = 0 := fun i => by
    rw [ReadP.val_main_call2_v0_apply]
    exact Ideal.ofBits_zero_f32
  exact (mlp_core (M := 262144) dot_S262144x4_S4x64_S262144x64_1_0_0_1_n_n rfl rfl rfl rfl rfl rfl
    dot_S262144x64_S64x128_S262144x128_1_0_0_1_n_n rfl rfl rfl rfl rfl rfl
    (ReadP.val_main_v20 (F := Ideal) x0) x9 (ReadP.val_main_v23 (F := Ideal) x10) (ReadP.val_main_call2_v0 (F := Ideal)) x11
    (ReadP.val_main_v28 (F := Ideal) x12) (v1 x10) (v1 x12) hb1 hrz hb2 r j).trans
    (congrArg (fun f => mlp f (v2 x9) (v1 x10) (v2 x11) (v1 x12) j) hx)

/-- Branch 3 (columns 9 … 12) at row `r`, column `j`. -/
theorem branch3 (x0 : FVec Ideal S262144x28 .f32) (x9 : FVec Ideal S4x64 .f32) (x10 : FVec Ideal S64 .f32) (x11 : FVec Ideal S64x128 .f32) (x12 : FVec Ideal S128 .f32) (r : Fin 262144) (j : Fin 128) :
    ReadP.val_main_v39 (F := Ideal) x0 x9 x10 x11 x12 (ix2 r j)
      = mlp (cols 9 4 (by omega) (fun k => x0 (ix2 r k))) (v2 x9) (v1 x10) (v2 x11) (v1 x12) j := by
  have hx : (fun k : Fin 4 => ReadP.val_main_v30 (F := Ideal) x0 (ix2 r k)) = cols 9 4 (by omega) (fun k => x0 (ix2 r k)) := by
    funext k
    rw [ReadP.val_main_v30_apply]
    show x0 _ = x0 _
    congr 1
    funext a
    match a with
    | ⟨0, _⟩ => rfl
    | ⟨1, _⟩ => rfl
  have hb1 : ∀ (r : Fin 262144) (j : Fin 64), ReadP.val_main_v33 (F := Ideal) x10 (ix2 r j) = v1 x10 j := fun r j => by
    rw [ReadP.val_main_v33_apply, ReadP.val_main_v32_apply]
    show x10 _ = x10 (ix1 j)
    congr 1
    funext a
    match a with
    | ⟨0, _⟩ => rfl
  have hb2 : ∀ (r : Fin 262144) (j : Fin 128), ReadP.val_main_v38 (F := Ideal) x12 (ix2 r j) = v1 x12 j := fun r j => by
    rw [ReadP.val_main_v38_apply, ReadP.val_main_v37_apply]
    show x12 _ = x12 (ix1 j)
    congr 1
    funext a
    match a with
    | ⟨0, _⟩ => rfl
  have hrz : ∀ i, ReadP.val_main_call3_v0 (F := Ideal) i = 0 := fun i => by
    rw [ReadP.val_main_call3_v0_apply]
    exact Ideal.ofBits_zero_f32
  exact (mlp_core (M := 262144) dot_S262144x4_S4x64_S262144x64_1_0_0_1_n_n rfl rfl rfl rfl rfl rfl
    dot_S262144x64_S64x128_S262144x128_1_0_0_1_n_n rfl rfl rfl rfl rfl rfl
    (ReadP.val_main_v30 (F := Ideal) x0) x9 (ReadP.val_main_v33 (F := Ideal) x10) (ReadP.val_main_call3_v0 (F := Ideal)) x11
    (ReadP.val_main_v38 (F := Ideal) x12) (v1 x10) (v1 x12) hb1 hrz hb2 r j).trans
    (congrArg (fun f => mlp f (v2 x9) (v1 x10) (v2 x11) (v1 x12) j) hx)

/-- Branch 4 (columns 13 … 16) at row `r`, column `j`. -/
theorem branch4 (x0 : FVec Ideal S262144x28 .f32) (x9 : FVec Ideal S4x64 .f32) (x10 : FVec Ideal S64 .f32) (x11 : FVec Ideal S64x128 .f32) (x12 : FVec Ideal S128 .f32) (r : Fin 262144) (j : Fin 128) :
    ReadP.val_main_v49 (F := Ideal) x0 x9 x10 x11 x12 (ix2 r j)
      = mlp (cols 13 4 (by omega) (fun k => x0 (ix2 r k))) (v2 x9) (v1 x10) (v2 x11) (v1 x12) j := by
  have hx : (fun k : Fin 4 => ReadP.val_main_v40 (F := Ideal) x0 (ix2 r k)) = cols 13 4 (by omega) (fun k => x0 (ix2 r k)) := by
    funext k
    rw [ReadP.val_main_v40_apply]
    show x0 _ = x0 _
    congr 1
    funext a
    match a with
    | ⟨0, _⟩ => rfl
    | ⟨1, _⟩ => rfl
  have hb1 : ∀ (r : Fin 262144) (j : Fin 64), ReadP.val_main_v43 (F := Ideal) x10 (ix2 r j) = v1 x10 j := fun r j => by
    rw [ReadP.val_main_v43_apply, ReadP.val_main_v42_apply]
    show x10 _ = x10 (ix1 j)
    congr 1
    funext a
    match a with
    | ⟨0, _⟩ => rfl
  have hb2 : ∀ (r : Fin 262144) (j : Fin 128), ReadP.val_main_v48 (F := Ideal) x12 (ix2 r j) = v1 x12 j := fun r j => by
    rw [ReadP.val_main_v48_apply, ReadP.val_main_v47_apply]
    show x12 _ = x12 (ix1 j)
    congr 1
    funext a
    match a with
    | ⟨0, _⟩ => rfl
  have hrz : ∀ i, ReadP.val_main_call4_v0 (F := Ideal) i = 0 := fun i => by
    rw [ReadP.val_main_call4_v0_apply]
    exact Ideal.ofBits_zero_f32
  exact (mlp_core (M := 262144) dot_S262144x4_S4x64_S262144x64_1_0_0_1_n_n rfl rfl rfl rfl rfl rfl
    dot_S262144x64_S64x128_S262144x128_1_0_0_1_n_n rfl rfl rfl rfl rfl rfl
    (ReadP.val_main_v40 (F := Ideal) x0) x9 (ReadP.val_main_v43 (F := Ideal) x10) (ReadP.val_main_call4_v0 (F := Ideal)) x11
    (ReadP.val_main_v48 (F := Ideal) x12) (v1 x10) (v1 x12) hb1 hrz hb2 r j).trans
    (congrArg (fun f => mlp f (v2 x9) (v1 x10) (v2 x11) (v1 x12) j) hx)

/-- Branch 5 (columns 17 … 20) at row `r`, column `j`. -/
theorem branch5 (x0 : FVec Ideal S262144x28 .f32) (x9 : FVec Ideal S4x64 .f32) (x10 : FVec Ideal S64 .f32) (x11 : FVec Ideal S64x128 .f32) (x12 : FVec Ideal S128 .f32) (r : Fin 262144) (j : Fin 128) :
    ReadP.val_main_v59 (F := Ideal) x0 x9 x10 x11 x12 (ix2 r j)
      = mlp (cols 17 4 (by omega) (fun k => x0 (ix2 r k))) (v2 x9) (v1 x10) (v2 x11) (v1 x12) j := by
  have hx : (fun k : Fin 4 => ReadP.val_main_v50 (F := Ideal) x0 (ix2 r k)) = cols 17 4 (by omega) (fun k => x0 (ix2 r k)) := by
    funext k
    rw [ReadP.val_main_v50_apply]
    show x0 _ = x0 _
    congr 1
    funext a
    match a with
    | ⟨0, _⟩ => rfl
    | ⟨1, _⟩ => rfl
  have hb1 : ∀ (r : Fin 262144) (j : Fin 64), ReadP.val_main_v53 (F := Ideal) x10 (ix2 r j) = v1 x10 j := fun r j => by
    rw [ReadP.val_main_v53_apply, ReadP.val_main_v52_apply]
    show x10 _ = x10 (ix1 j)
    congr 1
    funext a
    match a with
    | ⟨0, _⟩ => rfl
  have hb2 : ∀ (r : Fin 262144) (j : Fin 128), ReadP.val_main_v58 (F := Ideal) x12 (ix2 r j) = v1 x12 j := fun r j => by
    rw [ReadP.val_main_v58_apply, ReadP.val_main_v57_apply]
    show x12 _ = x12 (ix1 j)
    congr 1
    funext a
    match a with
    | ⟨0, _⟩ => rfl
  have hrz : ∀ i, ReadP.val_main_call5_v0 (F := Ideal) i = 0 := fun i => by
    rw [ReadP.val_main_call5_v0_apply]
    exact Ideal.ofBits_zero_f32
  exact (mlp_core (M := 262144) dot_S262144x4_S4x64_S262144x64_1_0_0_1_n_n rfl rfl rfl rfl rfl rfl
    dot_S262144x64_S64x128_S262144x128_1_0_0_1_n_n rfl rfl rfl rfl rfl rfl
    (ReadP.val_main_v50 (F := Ideal) x0) x9 (ReadP.val_main_v53 (F := Ideal) x10) (ReadP.val_main_call5_v0 (F := Ideal)) x11
    (ReadP.val_main_v58 (F := Ideal) x12) (v1 x10) (v1 x12) hb1 hrz hb2 r j).trans
    (congrArg (fun f => mlp f (v2 x9) (v1 x10) (v2 x11) (v1 x12) j) hx)

/-- Branch 6 (columns 21 … 27) at row `r`, column `j`. -/
theorem branch6 (x0 : FVec Ideal S262144x28 .f32) (x13 : FVec Ideal S7x64 .f32) (x14 : FVec Ideal S64 .f32) (x15 : FVec Ideal S64x128 .f32) (x16 : FVec Ideal S128 .f32) (r : Fin 262144) (j : Fin 128) :
    ReadP.val_main_v69 (F := Ideal) x0 x13 x14 x15 x16 (ix2 r j)
      = mlp (cols 21 7 (by omega) (fun k => x0 (ix2 r k))) (v2 x13) (v1 x14) (v2 x15) (v1 x16) j := by
  have hx : (fun k : Fin 7 => ReadP.val_main_v60 (F := Ideal) x0 (ix2 r k)) = cols 21 7 (by omega) (fun k => x0 (ix2 r k)) := by
    funext k
    rw [ReadP.val_main_v60_apply]
    show x0 _ = x0 _
    congr 1
    funext a
    match a with
    | ⟨0, _⟩ => rfl
    | ⟨1, _⟩ => rfl
  have hb1 : ∀ (r : Fin 262144) (j : Fin 64), ReadP.val_main_v63 (F := Ideal) x14 (ix2 r j) = v1 x14 j := fun r j => by
    rw [ReadP.val_main_v63_apply, ReadP.val_main_v62_apply]
    show x14 _ = x14 (ix1 j)
    congr 1
    funext a
    match a with
    | ⟨0, _⟩ => rfl
  have hb2 : ∀ (r : Fin 262144) (j : Fin 128), ReadP.val_main_v68 (F := Ideal) x16 (ix2 r j) = v1 x16 j := fun r j => by
    rw [ReadP.val_main_v68_apply, ReadP.val_main_v67_apply]
    show x16 _ = x16 (ix1 j)
    congr 1
    funext a
    match a with
    | ⟨0, _⟩ => rfl
  have hrz : ∀ i, ReadP.val_main_call6_v0 (F := Ideal) i = 0 := fun i => by
    rw [ReadP.val_main_call6_v0_apply]
    exact Ideal.ofBits_zero_f32
  exact (mlp_core (M := 262144) dot_S262144x7_S7x64_S262144x64_1_0_0_1_n_n rfl rfl rfl rfl rfl rfl
    dot_S262144x64_S64x128_S262144x128_1_0_0_1_n_n rfl rfl rfl rfl rfl rfl
    (ReadP.val_main_v60 (F := Ideal) x0) x13 (ReadP.val_main_v63 (F := Ideal) x14) (ReadP.val_main_call6_v0 (F := Ideal)) x15
    (ReadP.val_main_v68 (F := Ideal) x16) (v1 x14) (v1 x16) hb1 hrz hb2 r j).trans
    (congrArg (fun f => mlp f (v2 x13) (v1 x14) (v2 x15) (v1 x16) j) hx)

/-- The node array of the reference is the specification's: node `a`, feature `j`. -/
theorem node_eq (x0 : FVec Ideal S262144x28 .f32) (x1 : FVec Ideal S3x64 .f32) (x2 : FVec Ideal S64 .f32) (x3 : FVec Ideal S64x128 .f32) (x4 : FVec Ideal S128 .f32) (x5 : FVec Ideal S2x64 .f32) (x6 : FVec Ideal S64 .f32) (x7 : FVec Ideal S64x128 .f32) (x8 : FVec Ideal S128 .f32) (x9 : FVec Ideal S4x64 .f32) (x10 : FVec Ideal S64 .f32) (x11 : FVec Ideal S64x128 .f32) (x12 : FVec Ideal S128 .f32) (x13 : FVec Ideal S7x64 .f32) (x14 : FVec Ideal S64 .f32) (x15 : FVec Ideal S64x128 .f32) (x16 : FVec Ideal S128 .f32) (a : Fin 7) (j : Fin 128) :
    ReadP.val_main_v79 (F := Ideal) x0 x1 x2 x3 x4 x5 x6 x7 x8 x9 x10 x11 x12 x13 x14 x15 x16 (ix2 a j)
      = node (fun k => x0 (ix2 (0 : Fin 262144) k)) (v2 x1) (v1 x2) (v2 x3) (v1 x4) (v2 x5) (v1 x6) (v2 x7) (v1 x8)
          (v2 x9) (v1 x10) (v2 x11) (v1 x12) (v2 x13) (v1 x14) (v2 x15) (v1 x16) a j := by
  have e1 : ReadP.idx_main_v78 (ReadP.idx_main_v79 (ix2 a j)) = ix3 (0 : Fin 262144) a j := by
    have ha := a.isLt
    have hj := j.isLt
    funext c
    refine Fin.ext ?_
    match c with
    | ⟨0, _⟩ => rfl
    | ⟨1, _⟩ => show (a.val * 128 + j.val) / 128 % 7 = a.val; omega
    | ⟨2, _⟩ => show (a.val * 128 + j.val) % 128 = j.val; omega
  rw [ReadP.val_main_v79_apply, ReadP.val_main_v78_apply, e1]
  unfold ReadP.val_main_v77
  refine (stack7_read (R := 262144) _ _ _ _ _ _ _ _ 0 a j).trans ?_
  match a with
  | ⟨0, _⟩ =>
    have ei : ReadP.idx_main_v70 (ix3 (0 : Fin 262144) (0 : Fin 1) j) = ix2 (0 : Fin 262144) j := by
      funext c
      match c with
      | ⟨0, _⟩ => rfl
      | ⟨1, _⟩ => rfl
    exact ((ReadP.val_main_v70_apply (F := Ideal) x0 x1 x2 x3 x4 _).trans
      (congrArg (ReadP.val_main_v9 (F := Ideal) x0 x1 x2 x3 x4) ei)).trans (branch0 x0 x1 x2 x3 x4 0 j)
  | ⟨1, _⟩ =>
    have ei : ReadP.idx_main_v71 (ix3 (0 : Fin 262144) (0 : Fin 1) j) = ix2 (0 : Fin 262144) j := by
      funext c
      match c with
      | ⟨0, _⟩ => rfl
      | ⟨1, _⟩ => rfl
    exact ((ReadP.val_main_v71_apply (F := Ideal) x0 x5 x6 x7 x8 _).trans
      (congrArg (ReadP.val_main_v19 (F := Ideal) x0 x5 x6 x7 x8) ei)).trans (branch1 x0 x5 x6 x7 x8 0 j)
  | ⟨2, _⟩ =>
    have ei : ReadP.idx_main_v72 (ix3 (0 : Fin 262144) (0 : Fin 1) j) = ix2 (0 : Fin 262144) j := by
      funext c
      match c with
      | ⟨0, _⟩ => rfl
      | ⟨1, _⟩ => rfl
    exact ((ReadP.val_main_v72_apply (F := Ideal) x0 x9 x10 x11 x12 _).trans
      (congrArg (ReadP.val_main_v29 (F := Ideal) x0 x9 x10 x11 x12) ei)).trans (branch2 x0 x9 x10 x11 x12 0 j)
  | ⟨3, _⟩ =>
    have ei : ReadP.idx_main_v73 (ix3 (0 : Fin 262144) (0 : Fin 1) j) = ix2 (0 : Fin 262144) j := by
      funext c
      match c with
      | ⟨0, _⟩ => rfl
      | ⟨1, _⟩ => rfl
    exact ((ReadP.val_main_v73_apply (F := Ideal) x0 x9 x10 x11 x12 _).trans
      (congrArg (ReadP.val_main_v39 (F := Ideal) x0 x9 x10 x11 x12) ei)).trans (branch3 x0 x9 x10 x11 x12 0 j)
  | ⟨4, _⟩ =>
    have ei : ReadP.idx_main_v74 (ix3 (0 : Fin 262144) (0 : Fin 1) j) = ix2 (0 : Fin 262144) j := by
      funext c
      match c with
      | ⟨0, _⟩ => rfl
      | ⟨1, _⟩ => rfl
    exact ((ReadP.val_main_v74_apply (F := Ideal) x0 x9 x10 x11 x12 _).trans
      (congrArg (ReadP.val_main_v49 (F := Ideal) x0 x9 x10 x11 x12) ei)).trans (branch4 x0 x9 x10 x11 x12 0 j)
  | ⟨5, _⟩ =>
    have ei : ReadP.idx_main_v75 (ix3 (0 : Fin 262144) (0 : Fin 1) j) = ix2 (0 : Fin 262144) j := by
      funext c
      match c with
      | ⟨0, _⟩ => rfl
      | ⟨1, _⟩ => rfl
    exact ((ReadP.val_main_v75_apply (F := Ideal) x0 x9 x10 x11 x12 _).trans
      (congrArg (ReadP.val_main_v59 (F := Ideal) x0 x9 x10 x11 x12) ei)).trans (branch5 x0 x9 x10 x11 x12 0 j)
  | ⟨6, _⟩ =>
    have ei : ReadP.idx_main_v76 (ix3 (0 : Fin 262144) (0 : Fin 1) j) = ix2 (0 : Fin 262144) j := by
      funext c
      match c with
      | ⟨0, _⟩ => rfl
      | ⟨1, _⟩ => rfl
    exact ((ReadP.val_main_v76_apply (F := Ideal) x0 x13 x14 x15 x16 _).trans
      (congrArg (ReadP.val_main_v69 (F := Ideal) x0 x13 x14 x15 x16) ei)).trans (branch6 x0 x13 x14 x15 x16 0 j)

end Cert.RefValue

end
-- ==== Proof.RefValue.lean ====
/-
  The reference's result as the network of its arguments.

  The two graph-convolution layers, the pooling and the classifier of the reference, each read at an index from the
  core lemmas, and the whole result as the specification's `net` of the arguments. The edge weights stay the
  reference's own array. The hypotheses say that the two rows of the edge array hold node numbers (`src`, `dst`): then
  the wrap-around of negative indices is the identity and every gathered or scattered row is in range.
-/
import proofs.«124651_j5927054868950_2_alg».proof.Proof.Spec
import proofs.«124651_j5927054868950_2_alg».proof.Proof.LibDot
import proofs.«124651_j5927054868950_2_alg».proof.Proof.PatchedRefRead
import proofs.«124651_j5927054868950_2_alg».proof.Proof.RefValue1
import proofs.«124651_j5927054868950_2_alg».proof.Proof.RefValue2

noncomputable section

open scoped BigOperators

namespace Cert.RefValue

open Idealize.ShloMosaic Idealize.ShloMosaic.ValueIdx Cert.ReferenceIdeal Cert.Spec

/-- The source word of edge `e`. -/
theorem src_word (x27 : IVec S2x14 32) (e : Fin 14) :
    ReadP.val_main_v81 (F := Ideal) x27 (ix1 e) = x27 (ix2 (0 : Fin 2) e) := by
  have he := e.isLt
  rw [ReadP.val_main_v81_apply, ReadP.val_main_v80_apply]
  congr 1
  funext a
  refine Fin.ext ?_
  match a with
  | ⟨0, _⟩ => rfl
  | ⟨1, _⟩ => show e.val % 14 = e.val; omega

/-- The destination word of edge `e`. -/
theorem dst_word (x27 : IVec S2x14 32) (e : Fin 14) :
    ReadP.val_main_v83 (F := Ideal) x27 (ix1 e) = x27 (ix2 (1 : Fin 2) e) := by
  have he := e.isLt
  rw [ReadP.val_main_v83_apply, ReadP.val_main_v82_apply]
  congr 1
  funext a
  refine Fin.ext ?_
  match a with
  | ⟨0, _⟩ => rfl
  | ⟨1, _⟩ => show e.val % 14 = e.val; omega

/-- The first graph-convolution layer of the reference at node `d`, feature `j`. -/
theorem layer1 (x0 : FVec Ideal S262144x28 .f32) (x1 : FVec Ideal S3x64 .f32) (x2 : FVec Ideal S64 .f32) (x3 : FVec Ideal S64x128 .f32) (x4 : FVec Ideal S128 .f32) (x5 : FVec Ideal S2x64 .f32) (x6 : FVec Ideal S64 .f32) (x7 : FVec Ideal S64x128 .f32) (x8 : FVec Ideal S128 .f32) (x9 : FVec Ideal S4x64 .f32) (x10 : FVec Ideal S64 .f32) (x11 : FVec Ideal S64x128 .f32) (x12 : FVec Ideal S128 .f32) (x13 : FVec Ideal S7x64 .f32) (x14 : FVec Ideal S64 .f32) (x15 : FVec Ideal S64x128 .f32) (x16 : FVec Ideal S128 .f32) (x17 : FVec Ideal S128x128 .f32) (x18 : FVec Ideal S128x128 .f32) (x19 : FVec Ideal S128 .f32) (x27 : IVec S2x14 32) (src dst : Fin 14 → Fin 7)
    (hsrc : ∀ e : Fin 14, (x27 (ix2 (0 : Fin 2) e)).toInt = ((src e).val : ℤ))
    (hdst : ∀ e : Fin 14, (x27 (ix2 (1 : Fin 2) e)).toInt = ((dst e).val : ℤ)) (d : Fin 7) (j : Fin 128) :
    ReadP.val_main_v127 (F := Ideal) x0 x1 x2 x3 x4 x5 x6 x7 x8 x9 x10 x11 x12 x13 x14 x15 x16 x17 x18 x19 x27 (ix2 d j)
      = arma src dst (fun e => ReadP.val_main_v107 (F := Ideal) x27 (ix1 e)) (v2 (ReadP.val_main_v79 (F := Ideal) x0 x1 x2 x3 x4 x5 x6 x7 x8 x9 x10 x11 x12 x13 x14 x15 x16)) (v2 x17) (v2 x18) (v1 x19) d j := by
  have hz : ∀ i, ReadP.val_main_v119 (F := Ideal) i = 0 := fun i => by
    rw [ReadP.val_main_v119_apply]
    exact Ideal.ofBits_zero_f32
  have hrz : ∀ i, ReadP.val_main_call8_v0 (F := Ideal) i = 0 := fun i => by
    rw [ReadP.val_main_call8_v0_apply]
    exact Ideal.ofBits_zero_f32
  have hbb : ∀ (d : Fin 7) (j : Fin 128), ReadP.val_main_v125 (F := Ideal) x19 (ix2 d j) = v1 x19 j := fun d j => by
    rw [ReadP.val_main_v125_apply, ReadP.val_main_v124_apply]
    show x19 _ = x19 (ix1 j)
    congr 1
    funext a
    match a with
    | ⟨0, _⟩ => rfl
  have hnw : ∀ (e : Fin 14) (j : Fin 128),
      ReadP.val_main_v117 (F := Ideal) x27 (ix2 e j) = ReadP.val_main_v107 (F := Ideal) x27 (ix1 e) := fun e j => by
    rw [ReadP.val_main_v117_apply, ReadP.val_main_v116_apply]
    congr 1
    funext a
    match a with
    | ⟨0, _⟩ => rfl
  have hgi : ∀ e : Fin 14, (ReadP.val_main_v114 (F := Ideal) x27 (ix2 e (0 : Fin 1))).toInt = ((src e).val : ℤ) := fun e => by
    have e0 : ReadP.idx_main_v114 (ix2 e (0 : Fin 1)) = ix1 e := by
      funext a
      match a with
      | ⟨0, _⟩ => rfl
    rw [ReadP.val_main_v114_apply, e0, ReadP.val_main_v113_apply, ReadP.val_main_v110_apply, ReadP.val_main_v112_apply,
      ReadP.val_main_v109_apply, ReadP.val_main_v111_apply, src_word]
    show (Scalar.select (IntOp.cmpi .slt (x27 (ix2 (0 : Fin 2) e)) 0#32) (IntOp.addi (x27 (ix2 (0 : Fin 2) e)) 7#32)
      (x27 (ix2 (0 : Fin 2) e))).toInt = _
    rw [wrap_nonneg _ (by rw [hsrc]; exact Int.natCast_nonneg _)]
    exact hsrc e
  have hsi : ∀ e : Fin 14, (ReadP.val_main_v120 (F := Ideal) x27 (ix2 e (0 : Fin 1))).toInt = ((dst e).val : ℤ) := fun e => by
    have e0 : ReadP.idx_main_v120 (ix2 e (0 : Fin 1)) = ix1 e := by
      funext a
      match a with
      | ⟨0, _⟩ => rfl
    rw [ReadP.val_main_v120_apply, e0, dst_word]
    exact hdst e
  exact arma_core dot_S7x128_S128x128_S7x128_1_0_0_1_n_n rfl rfl rfl rfl rfl rfl (ReadP.val_main_v79 (F := Ideal) x0 x1 x2 x3 x4 x5 x6 x7 x8 x9 x10 x11 x12 x13 x14 x15 x16) x17 x18
    (ReadP.val_main_v119 (F := Ideal)) (ReadP.val_main_v125 (F := Ideal) x19) (ReadP.val_main_call8_v0 (F := Ideal))
    (ReadP.val_main_v114 (F := Ideal) x27) (ReadP.val_main_v120 (F := Ideal) x27) (ReadP.val_main_v117 (F := Ideal) x27)
    src dst _ (v1 x19) hz hrz hbb hnw hgi hsi d j

/-- The second graph-convolution layer of the reference at node `d`, feature `j`. -/
theorem layer2 (x0 : FVec Ideal S262144x28 .f32) (x1 : FVec Ideal S3x64 .f32) (x2 : FVec Ideal S64 .f32) (x3 : FVec Ideal S64x128 .f32) (x4 : FVec Ideal S128 .f32) (x5 : FVec Ideal S2x64 .f32) (x6 : FVec Ideal S64 .f32) (x7 : FVec Ideal S64x128 .f32) (x8 : FVec Ideal S128 .f32) (x9 : FVec Ideal S4x64 .f32) (x10 : FVec Ideal S64 .f32) (x11 : FVec Ideal S64x128 .f32) (x12 : FVec Ideal S128 .f32) (x13 : FVec Ideal S7x64 .f32) (x14 : FVec Ideal S64 .f32) (x15 : FVec Ideal S64x128 .f32) (x16 : FVec Ideal S128 .f32) (x17 : FVec Ideal S128x128 .f32) (x18 : FVec Ideal S128x128 .f32) (x19 : FVec Ideal S128 .f32) (x20 : FVec Ideal S128x128 .f32) (x21 : FVec Ideal S128x128 .f32) (x22 : FVec Ideal S128 .f32) (x27 : IVec S2x14 32) (src dst : Fin 14 → Fin 7)
    (hsrc : ∀ e : Fin 14, (x27 (ix2 (0 : Fin 2) e)).toInt = ((src e).val : ℤ))
    (hdst : ∀ e : Fin 14, (x27 (ix2 (1 : Fin 2) e)).toInt = ((dst e).val : ℤ)) (d : Fin 7) (j : Fin 128) :
    ReadP.val_main_v147 (F := Ideal) x0 x1 x2 x3 x4 x5 x6 x7 x8 x9 x10 x11 x12 x13 x14 x15 x16 x17 x18 x19 x20 x21 x22 x27 (ix2 d j)
      = arma src dst (fun e => ReadP.val_main_v107 (F := Ideal) x27 (ix1 e)) (v2 (ReadP.val_main_v127 (F := Ideal) x0 x1 x2 x3 x4 x5 x6 x7 x8 x9 x10 x11 x12 x13 x14 x15 x16 x17 x18 x19 x27)) (v2 x20) (v2 x21) (v1 x22) d j := by
  have hz : ∀ i, ReadP.val_main_v139 (F := Ideal) i = 0 := fun i => by
    rw [ReadP.val_main_v139_apply]
    exact Ideal.ofBits_zero_f32
  have hrz : ∀ i, ReadP.val_main_call9_v0 (F := Ideal) i = 0 := fun i => by
    rw [ReadP.val_main_call9_v0_apply]
    exact Ideal.ofBits_zero_f32
  have hbb : ∀ (d : Fin 7) (j : Fin 128), ReadP.val_main_v145 (F := Ideal) x22 (ix2 d j) = v1 x22 j := fun d j => by
    rw [ReadP.val_main_v145_apply, ReadP.val_main_v144_apply]
    show x22 _ = x22 (ix1 j)
    congr 1
    funext a
    match a with
    | ⟨0, _⟩ => rfl
  have hnw : ∀ (e : Fin 14) (j : Fin 128),
      ReadP.val_main_v137 (F := Ideal) x27 (ix2 e j) = ReadP.val_main_v107 (F := Ideal) x27 (ix1 e) := fun e j => by
    rw [ReadP.val_main_v137_apply, ReadP.val_main_v136_apply]
    congr 1
    funext a
    match a with
    | ⟨0, _⟩ => rfl
  have hgi : ∀ e : Fin 14, (ReadP.val_main_v134 (F := Ideal) x27 (ix2 e (0 : Fin 1))).toInt = ((src e).val : ℤ) := fun e => by
    have e0 : ReadP.idx_main_v134 (ix2 e (0 : Fin 1)) = ix1 e := by
      funext a
      match a with
      | ⟨0, _⟩ => rfl
    rw [ReadP.val_main_v134_apply, e0, ReadP.val_main_v133_apply, ReadP.val_main_v130_apply, ReadP.val_main_v132_apply,
      ReadP.val_main_v129_apply, ReadP.val_main_v131_apply, src_word]
    show (Scalar.select (IntOp.cmpi .slt (x27 (ix2 (0 : Fin 2) e)) 0#32) (IntOp.addi (x27 (ix2 (0 : Fin 2) e)) 7#32)
      (x27 (ix2 (0 : Fin 2) e))).toInt = _
    rw [wrap_nonneg _ (by rw [hsrc]; exact Int.natCast_nonneg _)]
    exact hsrc e
  have hsi : ∀ e : Fin 14, (ReadP.val_main_v140 (F := Ideal) x27 (ix2 e (0 : Fin 1))).toInt = ((dst e).val : ℤ) := fun e => by
    have e0 : ReadP.idx_main_v140 (ix2 e (0 : Fin 1)) = ix1 e := by
      funext a
      match a with
      | ⟨0, _⟩ => rfl
    rw [ReadP.val_main_v140_apply, e0, dst_word]
    exact hdst e
  exact arma_core dot_S7x128_S128x128_S7x128_1_0_0_1_n_n rfl rfl rfl rfl rfl rfl (ReadP.val_main_v127 (F := Ideal) x0 x1 x2 x3 x4 x5 x6 x7 x8 x9 x10 x11 x12 x13 x14 x15 x16 x17 x18 x19 x27) x20 x21
    (ReadP.val_main_v139 (F := Ideal)) (ReadP.val_main_v145 (F := Ideal) x22) (ReadP.val_main_call9_v0 (F := Ideal))
    (ReadP.val_main_v134 (F := Ideal) x27) (ReadP.val_main_v140 (F := Ideal) x27) (ReadP.val_main_v137 (F := Ideal) x27)
    src dst _ (v1 x22) hz hrz hbb hnw hgi hsi d j

/-- The pooled features of the reference: the maximum over the nodes of the second layer's output. -/
theorem pool_eq (x0 : FVec Ideal S262144x28 .f32) (x1 : FVec Ideal S3x64 .f32) (x2 : FVec Ideal S64 .f32) (x3 : FVec Ideal S64x128 .f32) (x4 : FVec Ideal S128 .f32) (x5 : FVec Ideal S2x64 .f32) (x6 : FVec Ideal S64 .f32) (x7 : FVec Ideal S64x128 .f32) (x8 : FVec Ideal S128 .f32) (x9 : FVec Ideal S4x64 .f32) (x10 : FVec Ideal S64 .f32) (x11 : FVec Ideal S64x128 .f32) (x12 : FVec Ideal S128 .f32) (x13 : FVec Ideal S7x64 .f32) (x14 : FVec Ideal S64 .f32) (x15 : FVec Ideal S64x128 .f32) (x16 : FVec Ideal S128 .f32) (x17 : FVec Ideal S128x128 .f32) (x18 : FVec Ideal S128x128 .f32) (x19 : FVec Ideal S128 .f32) (x20 : FVec Ideal S128x128 .f32) (x21 : FVec Ideal S128x128 .f32) (x22 : FVec Ideal S128 .f32) (x27 : IVec S2x14 32) (j : Fin 128) :
    ReadP.val_main_v148 (F := Ideal) x0 x1 x2 x3 x4 x5 x6 x7 x8 x9 x10 x11 x12 x13 x14 x15 x16 x17 x18 x19 x20 x21 x22 x27 (ix1 j) = pool (v2 (ReadP.val_main_v147 (F := Ideal) x0 x1 x2 x3 x4 x5 x6 x7 x8 x9 x10 x11 x12 x13 x14 x15 x16 x17 x18 x19 x20 x21 x22 x27)) j :=
  pool_read (ReadP.val_main_v147 (F := Ideal) x0 x1 x2 x3 x4 x5 x6 x7 x8 x9 x10 x11 x12 x13 x14 x15 x16 x17 x18 x19 x20 x21 x22 x27) _ _ j

/-- The classifier of the reference at its one output: the perceptron of the pooled features. -/
theorem classifier (x0 : FVec Ideal S262144x28 .f32) (x1 : FVec Ideal S3x64 .f32) (x2 : FVec Ideal S64 .f32) (x3 : FVec Ideal S64x128 .f32) (x4 : FVec Ideal S128 .f32) (x5 : FVec Ideal S2x64 .f32) (x6 : FVec Ideal S64 .f32) (x7 : FVec Ideal S64x128 .f32) (x8 : FVec Ideal S128 .f32) (x9 : FVec Ideal S4x64 .f32) (x10 : FVec Ideal S64 .f32) (x11 : FVec Ideal S64x128 .f32) (x12 : FVec Ideal S128 .f32) (x13 : FVec Ideal S7x64 .f32) (x14 : FVec Ideal S64 .f32) (x15 : FVec Ideal S64x128 .f32) (x16 : FVec Ideal S128 .f32) (x17 : FVec Ideal S128x128 .f32) (x18 : FVec Ideal S128x128 .f32) (x19 : FVec Ideal S128 .f32) (x20 : FVec Ideal S128x128 .f32) (x21 : FVec Ideal S128x128 .f32) (x22 : FVec Ideal S128 .f32) (x23 : FVec Ideal S128x64 .f32) (x24 : FVec Ideal S64 .f32) (x25 : FVec Ideal S64x1 .f32) (x26 : FVec Ideal S1 .f32) (x27 : IVec S2x14 32) :
    ReadP.val_main_v156 (F := Ideal) x0 x1 x2 x3 x4 x5 x6 x7 x8 x9 x10 x11 x12 x13 x14 x15 x16 x17 x18 x19 x20 x21 x22 x23 x24 x25 x26 x27 (ix2 (0 : Fin 1) (0 : Fin 1))
      = mlp (fun k => (ReadP.val_main_v148 (F := Ideal) x0 x1 x2 x3 x4 x5 x6 x7 x8 x9 x10 x11 x12 x13 x14 x15 x16 x17 x18 x19 x20 x21 x22 x27) (ix1 k)) (v2 x23) (v1 x24) (v2 x25) (v1 x26) 0 := by
  have hx : (fun k : Fin 128 => (ReadP.val_main_v149 (F := Ideal) x0 x1 x2 x3 x4 x5 x6 x7 x8 x9 x10 x11 x12 x13 x14 x15 x16 x17 x18 x19 x20 x21 x22 x27) (ix2 (0 : Fin 1) k)) = fun k => (ReadP.val_main_v148 (F := Ideal) x0 x1 x2 x3 x4 x5 x6 x7 x8 x9 x10 x11 x12 x13 x14 x15 x16 x17 x18 x19 x20 x21 x22 x27) (ix1 k) := by
    funext k
    rw [ReadP.val_main_v149_apply]
    congr 1
    funext a
    match a with
    | ⟨0, _⟩ => rfl
  have hb1 : ∀ (r : Fin 1) (j : Fin 64), ReadP.val_main_v151 (F := Ideal) x24 (ix2 r j) = v1 x24 j := fun r j => by
    rw [ReadP.val_main_v151_apply]
    show x24 _ = x24 (ix1 j)
    congr 1
    funext a
    match a with
    | ⟨0, _⟩ => rfl
  have hb2 : ∀ (r : Fin 1) (j : Fin 1), ReadP.val_main_v155 (F := Ideal) x26 (ix2 r j) = v1 x26 j := fun r j => by
    have hj := j.isLt
    rw [ReadP.val_main_v155_apply]
    show x26 _ = x26 (ix1 j)
    congr 1
    funext a
    refine Fin.ext ?_
    match a with
    | ⟨0, _⟩ => show (0 : ℕ) = j.val; omega
  have hrz : ∀ i, ReadP.val_main_call10_v0 (F := Ideal) i = 0 := fun i => by
    rw [ReadP.val_main_call10_v0_apply]
    exact Ideal.ofBits_zero_f32
  exact (mlp_core (M := 1) dot_S1x128_S128x64_S1x64_1_0_0_1_n_n rfl rfl rfl rfl rfl rfl
    dot_S1x64_S64x1_S1x1_1_0_0_1_n_n rfl rfl rfl rfl rfl rfl
    (ReadP.val_main_v149 (F := Ideal) x0 x1 x2 x3 x4 x5 x6 x7 x8 x9 x10 x11 x12 x13 x14 x15 x16 x17 x18 x19 x20 x21 x22 x27) x23 (ReadP.val_main_v151 (F := Ideal) x24) (ReadP.val_main_call10_v0 (F := Ideal)) x25
    (ReadP.val_main_v155 (F := Ideal) x26) (v1 x24) (v1 x26) hb1 hrz hb2 0 0).trans
    (congrArg (fun f => mlp f (v2 x23) (v1 x24) (v2 x25) (v1 x26) 0) hx)

/-- **The reference's result is the network** of the first event's features, the weights and the edge data. -/
theorem ref_eq (x0 : FVec Ideal S262144x28 .f32) (x1 : FVec Ideal S3x64 .f32) (x2 : FVec Ideal S64 .f32) (x3 : FVec Ideal S64x128 .f32) (x4 : FVec Ideal S128 .f32) (x5 : FVec Ideal S2x64 .f32) (x6 : FVec Ideal S64 .f32) (x7 : FVec Ideal S64x128 .f32) (x8 : FVec Ideal S128 .f32) (x9 : FVec Ideal S4x64 .f32) (x10 : FVec Ideal S64 .f32) (x11 : FVec Ideal S64x128 .f32) (x12 : FVec Ideal S128 .f32) (x13 : FVec Ideal S7x64 .f32) (x14 : FVec Ideal S64 .f32) (x15 : FVec Ideal S64x128 .f32) (x16 : FVec Ideal S128 .f32) (x17 : FVec Ideal S128x128 .f32) (x18 : FVec Ideal S128x128 .f32) (x19 : FVec Ideal S128 .f32) (x20 : FVec Ideal S128x128 .f32) (x21 : FVec Ideal S128x128 .f32) (x22 : FVec Ideal S128 .f32) (x23 : FVec Ideal S128x64 .f32) (x24 : FVec Ideal S64 .f32) (x25 : FVec Ideal S64x1 .f32) (x26 : FVec Ideal S1 .f32) (x27 : IVec S2x14 32) (src dst : Fin 14 → Fin 7)
    (hsrc : ∀ e : Fin 14, (x27 (ix2 (0 : Fin 2) e)).toInt = ((src e).val : ℤ))
    (hdst : ∀ e : Fin 14, (x27 (ix2 (1 : Fin 2) e)).toInt = ((dst e).val : ℤ)) :
    ReadP.val_main_v156 (F := Ideal) x0 x1 x2 x3 x4 x5 x6 x7 x8 x9 x10 x11 x12 x13 x14 x15 x16 x17 x18 x19 x20 x21 x22 x23 x24 x25 x26 x27 (ix2 (0 : Fin 1) (0 : Fin 1))
      = net (fun k => x0 (ix2 (0 : Fin 262144) k)) (v2 x1) (v1 x2) (v2 x3) (v1 x4) (v2 x5) (v1 x6) (v2 x7) (v1 x8) (v2 x9) (v1 x10)
          (v2 x11) (v1 x12) (v2 x13) (v1 x14) (v2 x15) (v1 x16) (v2 x17) (v2 x18) (v1 x19) (v2 x20) (v2 x21) (v1 x22)
          (v2 x23) (v1 x24) (v2 x25) (v1 x26) src dst (fun e => ReadP.val_main_v107 (F := Ideal) x27 (ix1 e)) := by
  have hnode : v2 (ReadP.val_main_v79 (F := Ideal) x0 x1 x2 x3 x4 x5 x6 x7 x8 x9 x10 x11 x12 x13 x14 x15 x16) = node (fun k => x0 (ix2 (0 : Fin 262144) k)) (v2 x1) (v1 x2) (v2 x3) (v1 x4) (v2 x5) (v1 x6) (v2 x7)
      (v1 x8) (v2 x9) (v1 x10) (v2 x11) (v1 x12) (v2 x13) (v1 x14) (v2 x15) (v1 x16) :=
    funext fun a => funext fun j => node_eq x0 x1 x2 x3 x4 x5 x6 x7 x8 x9 x10 x11 x12 x13 x14 x15 x16 a j
  have hl1 : v2 (ReadP.val_main_v127 (F := Ideal) x0 x1 x2 x3 x4 x5 x6 x7 x8 x9 x10 x11 x12 x13 x14 x15 x16 x17 x18 x19 x27) = arma src dst (fun e => ReadP.val_main_v107 (F := Ideal) x27 (ix1 e)) (v2 (ReadP.val_main_v79 (F := Ideal) x0 x1 x2 x3 x4 x5 x6 x7 x8 x9 x10 x11 x12 x13 x14 x15 x16)) (v2 x17) (v2 x18) (v1 x19) :=
    funext fun d => funext fun j => layer1 x0 x1 x2 x3 x4 x5 x6 x7 x8 x9 x10 x11 x12 x13 x14 x15 x16 x17 x18 x19 x27 src dst hsrc hdst d j
  have hl2 : v2 (ReadP.val_main_v147 (F := Ideal) x0 x1 x2 x3 x4 x5 x6 x7 x8 x9 x10 x11 x12 x13 x14 x15 x16 x17 x18 x19 x20 x21 x22 x27) = arma src dst (fun e => ReadP.val_main_v107 (F := Ideal) x27 (ix1 e)) (v2 (ReadP.val_main_v127 (F := Ideal) x0 x1 x2 x3 x4 x5 x6 x7 x8 x9 x10 x11 x12 x13 x14 x15 x16 x17 x18 x19 x27)) (v2 x20) (v2 x21) (v1 x22) :=
    funext fun d => funext fun j => layer2 x0 x1 x2 x3 x4 x5 x6 x7 x8 x9 x10 x11 x12 x13 x14 x15 x16 x17 x18 x19 x20 x21 x22 x27 src dst hsrc hdst d j
  have hp : (fun k => (ReadP.val_main_v148 (F := Ideal) x0 x1 x2 x3 x4 x5 x6 x7 x8 x9 x10 x11 x12 x13 x14 x15 x16 x17 x18 x19 x20 x21 x22 x27) (ix1 k)) = pool (v2 (ReadP.val_main_v147 (F := Ideal) x0 x1 x2 x3 x4 x5 x6 x7 x8 x9 x10 x11 x12 x13 x14 x15 x16 x17 x18 x19 x20 x21 x22 x27)) :=
    funext fun k => pool_eq x0 x1 x2 x3 x4 x5 x6 x7 x8 x9 x10 x11 x12 x13 x14 x15 x16 x17 x18 x19 x20 x21 x22 x27 k
  rw [classifier, hp, hl2, hl1, hnode]
  rfl

end Cert.RefValue

end
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«124651_j5927054868950_2_alg».proof.Proof.LibReal
import proofs.«124651_j5927054868950_2_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.PreRead.lean ====
/-
  The precondition read back into plain facts. The precondition is the conjunction, by `and` on one-bit words, of one
  test "every entry has `|x| < +∞`" per floating-point argument and of the two tests "every entry has `e ≥ 0`" and
  "every entry has `e < 7`" on the integer argument; each test is the reduction by `and`, from 1, of the array of its
  entrywise comparisons. A conjunction of one-bit words is 1 only when each of them is 1, and such a reduction is 1
  only when each comparison is 1; so when the precondition is 1, every floating-point entry is a real number (its
  absolute value is below `+∞`) and every integer entry, read signed, lies in `[0, 7)` (hence reads the same unsigned).
-/
import Idealize.ShloMosaic.Lib.ReduceAll
import Idealize.ShloMosaic.Lib.ValueIdx
import proofs.«124651_j5927054868950_2_alg».proof.Pre_finite_inputs
import proofs.«124651_j5927054868950_2_alg».proof.Proof.LibReal
import proofs.«124651_j5927054868950_2_alg».proof.Proof.LibColumn
import proofs.«124651_j5927054868950_2_alg».proof.Proof.LibFinite

noncomputable section

namespace Cert.PreRead

open Idealize.ShloMosaic Cert.LibReal Cert.LibFinite Cert.Pre_finite_inputs

/-! ## The two integer conditions, one reduction by `and` each -/

/-- The test "every entry has `e ≥ 0`" being 1 makes every entry of `e`, read signed, nonnegative. -/
theorem nonneg_of_all_sge {s : Shape} {axes : List (Fin s.rank)} (x : IVec s 32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpi .sge x (broadcastInDim s ![] bc (constantI ⟨0, ![]⟩ 32 0#32)))
        (constantI ⟨0, ![]⟩ 1 1#1) h hu j = 1#1)
    (i : s.Idx) : 0 ≤ (x i).toInt := by
  have hi : IntOp.cmpi .sge (x i) (broadcastInDim s ![] bc (constantI ⟨0, ![]⟩ 32 0#32) i) = 1#1 :=
    Host.reduce_andi_all _ _ h hu j e i
  have hb : broadcastInDim s ![] bc (constantI ⟨0, ![]⟩ 32 0#32) i = 0#32 :=
    Cert.LibColumn.broadcastInDim_scalar_apply _ bc i
  rw [hb] at hi
  have hz : (0#32 : BitVec 32).toInt = 0 := by decide
  have := IntOp.cmpi_sge.1 hi
  rwa [hz] at this

/-- The test "every entry has `e < 7`" being 1 makes every entry of `e`, read signed, less than 7. -/
theorem lt_seven_of_all_slt {s : Shape} {axes : List (Fin s.rank)} (x : IVec s 32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpi .slt x (broadcastInDim s ![] bc (constantI ⟨0, ![]⟩ 32 7#32)))
        (constantI ⟨0, ![]⟩ 1 1#1) h hu j = 1#1)
    (i : s.Idx) : (x i).toInt < 7 := by
  have hi : IntOp.cmpi .slt (x i) (broadcastInDim s ![] bc (constantI ⟨0, ![]⟩ 32 7#32) i) = 1#1 :=
    Host.reduce_andi_all _ _ h hu j e i
  have hb : broadcastInDim s ![] bc (constantI ⟨0, ![]⟩ 32 7#32) i = 7#32 :=
    Cert.LibColumn.broadcastInDim_scalar_apply _ bc i
  rw [hb] at hi
  have hs : (7#32 : BitVec 32).toInt = 7 := by decide
  have := IntOp.cmpi_slt.1 hi
  rwa [hs] at this

/-- A 32-bit word that reads signed as a nonnegative integer reads the same unsigned. -/
theorem toInt_eq_toNat_of_nonneg {w : BitVec 32} (h0 : 0 ≤ w.toInt) : w.toInt = (w.toNat : Int) := by
  have hc := BitVec.toInt_eq_toNat_cond w
  have hl := w.isLt
  split at hc <;> omega

/-- A 32-bit word that reads signed in `[0, n)` reads unsigned below `n`. -/
theorem toNat_lt_of_toInt {w : BitVec 32} {n : Nat} (h0 : 0 ≤ w.toInt) (h1 : w.toInt < (n : Int)) : w.toNat < n := by
  have := toInt_eq_toNat_of_nonneg h0
  omega

/-! ## The conjunction taken apart -/

variable [Cert.Pre_finite_inputs.Facts]
variable {a0 : FVec Ideal S262144x28 .f32} {a1 : FVec Ideal S3x64 .f32} {a2 : FVec Ideal S64 .f32} {a3 : FVec Ideal S64x128 .f32} {a4 : FVec Ideal S128 .f32} {a5 : FVec Ideal S2x64 .f32} {a6 : FVec Ideal S64 .f32} {a7 : FVec Ideal S64x128 .f32} {a8 : FVec Ideal S128 .f32} {a9 : FVec Ideal S4x64 .f32} {a10 : FVec Ideal S64 .f32} {a11 : FVec Ideal S64x128 .f32} {a12 : FVec Ideal S128 .f32} {a13 : FVec Ideal S7x64 .f32} {a14 : FVec Ideal S64 .f32} {a15 : FVec Ideal S64x128 .f32} {a16 : FVec Ideal S128 .f32} {a17 : FVec Ideal S128x128 .f32} {a18 : FVec Ideal S128x128 .f32} {a19 : FVec Ideal S128 .f32} {a20 : FVec Ideal S128x128 .f32} {a21 : FVec Ideal S128x128 .f32} {a22 : FVec Ideal S128 .f32} {a23 : FVec Ideal S128x64 .f32} {a24 : FVec Ideal S64 .f32} {a25 : FVec Ideal S64x1 .f32} {a26 : FVec Ideal S1 .f32} {a27 : IVec S2x14 32}
variable (h : Cert.Pre_finite_inputs.fn (F := Ideal) a0 a1 a2 a3 a4 a5 a6 a7 a8 a9 a10 a11 a12 a13 a14 a15 a16 a17 a18 a19 a20 a21 a22 a23 a24 a25 a26 a27 = fun _ => 1#1)
include h

/-- Every conjunct of the precondition, read back: each floating-point argument has only real entries, and each entry
    of the integer argument, read signed, lies in `[0, 7)`. The conjunction nests to the left, so it is taken apart from
    its last conjunct to its first. -/
theorem conj :
    (∀ i, IsR (a0 i)) ∧
    (∀ i, IsR (a1 i)) ∧
    (∀ i, IsR (a2 i)) ∧
    (∀ i, IsR (a3 i)) ∧
    (∀ i, IsR (a4 i)) ∧
    (∀ i, IsR (a5 i)) ∧
    (∀ i, IsR (a6 i)) ∧
    (∀ i, IsR (a7 i)) ∧
    (∀ i, IsR (a8 i)) ∧
    (∀ i, IsR (a9 i)) ∧
    (∀ i, IsR (a10 i)) ∧
    (∀ i, IsR (a11 i)) ∧
    (∀ i, IsR (a12 i)) ∧
    (∀ i, IsR (a13 i)) ∧
    (∀ i, IsR (a14 i)) ∧
    (∀ i, IsR (a15 i)) ∧
    (∀ i, IsR (a16 i)) ∧
    (∀ i, IsR (a17 i)) ∧
    (∀ i, IsR (a18 i)) ∧
    (∀ i, IsR (a19 i)) ∧
    (∀ i, IsR (a20 i)) ∧
    (∀ i, IsR (a21 i)) ∧
    (∀ i, IsR (a22 i)) ∧
    (∀ i, IsR (a23 i)) ∧
    (∀ i, IsR (a24 i)) ∧
    (∀ i, IsR (a25 i)) ∧
    (∀ i, IsR (a26 i)) ∧
    (∀ i, 0 ≤ (a27 i).toInt ∧ (a27 i).toInt < 7) := by
  have h0 := congrFun h ValueIdx.ix0
  dsimp only [fn, fn_part1, fn_part2, fn_part3, fn_part4, fn_part5, fn_part6, fn_part7, fn_part8] at h0
  obtain ⟨h0, c_lt⟩ := IntOp.andi_eq_one.1 h0
  obtain ⟨h0, c_ge⟩ := IntOp.andi_eq_one.1 h0
  obtain ⟨h0, c26⟩ := IntOp.andi_eq_one.1 h0
  obtain ⟨h0, c25⟩ := IntOp.andi_eq_one.1 h0
  obtain ⟨h0, c24⟩ := IntOp.andi_eq_one.1 h0
  obtain ⟨h0, c23⟩ := IntOp.andi_eq_one.1 h0
  obtain ⟨h0, c22⟩ := IntOp.andi_eq_one.1 h0
  obtain ⟨h0, c21⟩ := IntOp.andi_eq_one.1 h0
  obtain ⟨h0, c20⟩ := IntOp.andi_eq_one.1 h0
  obtain ⟨h0, c19⟩ := IntOp.andi_eq_one.1 h0
  obtain ⟨h0, c18⟩ := IntOp.andi_eq_one.1 h0
  obtain ⟨h0, c17⟩ := IntOp.andi_eq_one.1 h0
  obtain ⟨h0, c16⟩ := IntOp.andi_eq_one.1 h0
  obtain ⟨h0, c15⟩ := IntOp.andi_eq_one.1 h0
  obtain ⟨h0, c14⟩ := IntOp.andi_eq_one.1 h0
  obtain ⟨h0, c13⟩ := IntOp.andi_eq_one.1 h0
  obtain ⟨h0, c12⟩ := IntOp.andi_eq_one.1 h0
  obtain ⟨h0, c11⟩ := IntOp.andi_eq_one.1 h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨isR_of_all_finite a0 _ _ _ _ c0,
    isR_of_all_finite a1 _ _ _ _ c1,
    isR_of_all_finite a2 _ _ _ _ c2,
    isR_of_all_finite a3 _ _ _ _ c3,
    isR_of_all_finite a4 _ _ _ _ c4,
    isR_of_all_finite a5 _ _ _ _ c5,
    isR_of_all_finite a6 _ _ _ _ c6,
    isR_of_all_finite a7 _ _ _ _ c7,
    isR_of_all_finite a8 _ _ _ _ c8,
    isR_of_all_finite a9 _ _ _ _ c9,
    isR_of_all_finite a10 _ _ _ _ c10,
    isR_of_all_finite a11 _ _ _ _ c11,
    isR_of_all_finite a12 _ _ _ _ c12,
    isR_of_all_finite a13 _ _ _ _ c13,
    isR_of_all_finite a14 _ _ _ _ c14,
    isR_of_all_finite a15 _ _ _ _ c15,
    isR_of_all_finite a16 _ _ _ _ c16,
    isR_of_all_finite a17 _ _ _ _ c17,
    isR_of_all_finite a18 _ _ _ _ c18,
    isR_of_all_finite a19 _ _ _ _ c19,
    isR_of_all_finite a20 _ _ _ _ c20,
    isR_of_all_finite a21 _ _ _ _ c21,
    isR_of_all_finite a22 _ _ _ _ c22,
    isR_of_all_finite a23 _ _ _ _ c23,
    isR_of_all_finite a24 _ _ _ _ c24,
    isR_of_all_finite a25 _ _ _ _ c25,
    isR_of_all_finite a26 _ _ _ _ c26,
    fun i => ⟨nonneg_of_all_sge a27 _ _ _ _ c_ge i, lt_seven_of_all_slt a27 _ _ _ _ c_lt i⟩⟩

/-- Every entry of argument 0 is a real number. -/
theorem real_0 : ∀ i, IsR (a0 i) := (conj h).1

/-- Every entry of argument 1 is a real number. -/
theorem real_1 : ∀ i, IsR (a1 i) := (conj h).2.1

/-- Every entry of argument 2 is a real number. -/
theorem real_2 : ∀ i, IsR (a2 i) := (conj h).2.2.1

/-- Every entry of argument 3 is a real number. -/
theorem real_3 : ∀ i, IsR (a3 i) := (conj h).2.2.2.1

/-- Every entry of argument 4 is a real number. -/
theorem real_4 : ∀ i, IsR (a4 i) := (conj h).2.2.2.2.1

/-- Every entry of argument 5 is a real number. -/
theorem real_5 : ∀ i, IsR (a5 i) := (conj h).2.2.2.2.2.1

/-- Every entry of argument 6 is a real number. -/
theorem real_6 : ∀ i, IsR (a6 i) := (conj h).2.2.2.2.2.2.1

/-- Every entry of argument 7 is a real number. -/
theorem real_7 : ∀ i, IsR (a7 i) := (conj h).2.2.2.2.2.2.2.1

/-- Every entry of argument 8 is a real number. -/
theorem real_8 : ∀ i, IsR (a8 i) := (conj h).2.2.2.2.2.2.2.2.1

/-- Every entry of argument 9 is a real number. -/
theorem real_9 : ∀ i, IsR (a9 i) := (conj h).2.2.2.2.2.2.2.2.2.1

/-- Every entry of argument 10 is a real number. -/
theorem real_10 : ∀ i, IsR (a10 i) := (conj h).2.2.2.2.2.2.2.2.2.2.1

/-- Every entry of argument 11 is a real number. -/
theorem real_11 : ∀ i, IsR (a11 i) := (conj h).2.2.2.2.2.2.2.2.2.2.2.1

/-- Every entry of argument 12 is a real number. -/
theorem real_12 : ∀ i, IsR (a12 i) := (conj h).2.2.2.2.2.2.2.2.2.2.2.2.1

/-- Every entry of argument 13 is a real number. -/
theorem real_13 : ∀ i, IsR (a13 i) := (conj h).2.2.2.2.2.2.2.2.2.2.2.2.2.1

/-- Every entry of argument 14 is a real number. -/
theorem real_14 : ∀ i, IsR (a14 i) := (conj h).2.2.2.2.2.2.2.2.2.2.2.2.2.2.1

/-- Every entry of argument 15 is a real number. -/
theorem real_15 : ∀ i, IsR (a15 i) := (conj h).2.2.2.2.2.2.2.2.2.2.2.2.2.2.2.1

/-- Every entry of argument 16 is a real number. -/
theorem real_16 : ∀ i, IsR (a16 i) := (conj h).2.2.2.2.2.2.2.2.2.2.2.2.2.2.2.2.1

/-- Every entry of argument 17 is a real number. -/
theorem real_17 : ∀ i, IsR (a17 i) := (conj h).2.2.2.2.2.2.2.2.2.2.2.2.2.2.2.2.2.1

/-- Every entry of argument 18 is a real number. -/
theorem real_18 : ∀ i, IsR (a18 i) := (conj h).2.2.2.2.2.2.2.2.2.2.2.2.2.2.2.2.2.2.1

/-- Every entry of argument 19 is a real number. -/
theorem real_19 : ∀ i, IsR (a19 i) := (conj h).2.2.2.2.2.2.2.2.2.2.2.2.2.2.2.2.2.2.2.1

/-- Every entry of argument 20 is a real number. -/
theorem real_20 : ∀ i, IsR (a20 i) := (conj h).2.2.2.2.2.2.2.2.2.2.2.2.2.2.2.2.2.2.2.2.1

/-- Every entry of argument 21 is a real number. -/
theorem real_21 : ∀ i, IsR (a21 i) := (conj h).2.2.2.2.2.2.2.2.2.2.2.2.2.2.2.2.2.2.2.2.2.1

/-- Every entry of argument 22 is a real number. -/
theorem real_22 : ∀ i, IsR (a22 i) := (conj h).2.2.2.2.2.2.2.2.2.2.2.2.2.2.2.2.2.2.2.2.2.2.1

/-- Every entry of argument 23 is a real number. -/
theorem real_23 : ∀ i, IsR (a23 i) := (conj h).2.2.2.2.2.2.2.2.2.2.2.2.2.2.2.2.2.2.2.2.2.2.2.1

/-- Every entry of argument 24 is a real number. -/
theorem real_24 : ∀ i, IsR (a24 i) := (conj h).2.2.2.2.2.2.2.2.2.2.2.2.2.2.2.2.2.2.2.2.2.2.2.2.1

/-- Every entry of argument 25 is a real number. -/
theorem real_25 : ∀ i, IsR (a25 i) := (conj h).2.2.2.2.2.2.2.2.2.2.2.2.2.2.2.2.2.2.2.2.2.2.2.2.2.1

/-- Every entry of argument 26 is a real number. -/
theorem real_26 : ∀ i, IsR (a26 i) := (conj h).2.2.2.2.2.2.2.2.2.2.2.2.2.2.2.2.2.2.2.2.2.2.2.2.2.2.1

/-- Every entry of the integer argument, read signed, lies in `[0, 7)`. -/
theorem edge_range : ∀ i, 0 ≤ (a27 i).toInt ∧ (a27 i).toInt < 7 := (conj h).2.2.2.2.2.2.2.2.2.2.2.2.2.2.2.2.2.2.2.2.2.2.2.2.2.2.2

/-- Every entry of the integer argument reads the same signed and unsigned. -/
theorem edge_toInt_eq_toNat : ∀ i, (a27 i).toInt = ((a27 i).toNat : Int) :=
  fun i => toInt_eq_toNat_of_nonneg (edge_range h i).1

/-- Every entry of the integer argument, read unsigned, is below 7. -/
theorem edge_toNat_lt : ∀ i, (a27 i).toNat < 7 :=
  fun i => toNat_lt_of_toInt (edge_range h i).1 (edge_range h i).2

end Cert.PreRead

end
-- ==== Proof.lean ====
/-
  The certificate's claims.

  The three frames are the programs' runs with the results dropped. The kernel's idealization rewrote nothing, so
  `preserves` is trivial. For the value claim the precondition is read back: every float argument holds real numbers and
  every word of the edge list names one of the seven nodes. Then the kernel's result array — the network in matrix form
  of the launched arrays — and the reference's result — the network edge by edge — are one function of the arguments:
  the adjacency matrix's rows applied to the messages regroup the sums over the edges, which is allowed because all the
  numbers involved are real.
-/
import proofs.«124651_j5927054868950_2_alg».proof.Defs
import proofs.«124651_j5927054868950_2_alg».proof.Proof.Gen.Kernel
import proofs.«124651_j5927054868950_2_alg».proof.Proof.Gen.KernelIdeal
import proofs.«124651_j5927054868950_2_alg».proof.Proof.Gen.ReferenceIdeal
import proofs.«124651_j5927054868950_2_alg».proof.Proof.Gen.Pre_finite_inputs
import proofs.«124651_j5927054868950_2_alg».proof.Proof.PatchedKernelFrame
import proofs.«124651_j5927054868950_2_alg».proof.Proof.KernelValue
import proofs.«124651_j5927054868950_2_alg».proof.Proof.RefValue
import proofs.«124651_j5927054868950_2_alg».proof.Proof.PreRead
import Idealize.ShloMosaic.Adequacy
import Idealize.ShloMosaic.Init

set_option maxRecDepth 16384

noncomputable section

namespace Cert.Proof

open Idealize.ShloMosaic Idealize.ShloMosaic.TcCoe Idealize.SL.Sem Cert.Spec

theorem frame_p : Cert.frame_Kernel := fun m ρ _ => Cert.Kernel.GenP.frame m ρ

theorem frame_pi : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

set_option maxHeartbeats 4000000 in
/-- Both programs end with the specification's network of the arguments. -/
theorem algebraic : Cert.algebraic_KernelIdeal_ReferenceIdeal := by
  intro m ρ m' ρ' hpre hagree
  -- the edge list's words name nodes
  let src : Dev Cert.KernelIdeal.nD → Fin 14 → Fin 7 := fun c e =>
    ⟨((m ((c.tc : Thread Cert.KernelIdeal.nD Cert.KernelIdeal.τ).loc Cert.KernelIdeal.main_arg27)) (ValueIdx.ix2 (0 : Fin 2) e)).toNat, Cert.PreRead.edge_toNat_lt (hpre c) _⟩
  let dst : Dev Cert.KernelIdeal.nD → Fin 14 → Fin 7 := fun c e =>
    ⟨((m ((c.tc : Thread Cert.KernelIdeal.nD Cert.KernelIdeal.τ).loc Cert.KernelIdeal.main_arg27)) (ValueIdx.ix2 (1 : Fin 2) e)).toNat, Cert.PreRead.edge_toNat_lt (hpre c) _⟩
  have hsrc : ∀ (c : Dev Cert.KernelIdeal.nD) (e : Fin 14), ((m ((c.tc : Thread Cert.KernelIdeal.nD Cert.KernelIdeal.τ).loc Cert.KernelIdeal.main_arg27)) (ValueIdx.ix2 (0 : Fin 2) e)).toInt = (((src c e).val : ℕ) : ℤ) :=
    fun c e => Cert.PreRead.edge_toInt_eq_toNat (hpre c) _
  have hdst : ∀ (c : Dev Cert.KernelIdeal.nD) (e : Fin 14), ((m ((c.tc : Thread Cert.KernelIdeal.nD Cert.KernelIdeal.τ).loc Cert.KernelIdeal.main_arg27)) (ValueIdx.ix2 (1 : Fin 2) e)).toInt = (((dst c e).val : ℕ) : ℤ) :=
    fun c e => Cert.PreRead.edge_toInt_eq_toNat (hpre c) _
  refine ⟨fun c => (fun _ => Cert.Spec.net (fun k => (m ((c.tc : Thread Cert.KernelIdeal.nD Cert.KernelIdeal.τ).loc Cert.KernelIdeal.main_arg0)) (ValueIdx.ix2 (0 : Fin 262144) k)) (v2 (m ((c.tc : Thread Cert.KernelIdeal.nD Cert.KernelIdeal.τ).loc Cert.KernelIdeal.main_arg1))) (v1 (m ((c.tc : Thread Cert.KernelIdeal.nD Cert.KernelIdeal.τ).loc Cert.KernelIdeal.main_arg2))) (v2 (m ((c.tc : Thread Cert.KernelIdeal.nD Cert.KernelIdeal.τ).loc Cert.KernelIdeal.main_arg3))) (v1 (m ((c.tc : Thread Cert.KernelIdeal.nD Cert.KernelIdeal.τ).loc Cert.KernelIdeal.main_arg4))) (v2 (m ((c.tc : Thread Cert.KernelIdeal.nD Cert.KernelIdeal.τ).loc Cert.KernelIdeal.main_arg5))) (v1 (m ((c.tc : Thread Cert.KernelIdeal.nD Cert.KernelIdeal.τ).loc Cert.KernelIdeal.main_arg6))) (v2 (m ((c.tc : Thread Cert.KernelIdeal.nD Cert.KernelIdeal.τ).loc Cert.KernelIdeal.main_arg7))) (v1 (m ((c.tc : Thread Cert.KernelIdeal.nD Cert.KernelIdeal.τ).loc Cert.KernelIdeal.main_arg8))) (v2 (m ((c.tc : Thread Cert.KernelIdeal.nD Cert.KernelIdeal.τ).loc Cert.KernelIdeal.main_arg9))) (v1 (m ((c.tc : Thread Cert.KernelIdeal.nD Cert.KernelIdeal.τ).loc Cert.KernelIdeal.main_arg10))) (v2 (m ((c.tc : Thread Cert.KernelIdeal.nD Cert.KernelIdeal.τ).loc Cert.KernelIdeal.main_arg11))) (v1 (m ((c.tc : Thread Cert.KernelIdeal.nD Cert.KernelIdeal.τ).loc Cert.KernelIdeal.main_arg12))) (v2 (m ((c.tc : Thread Cert.KernelIdeal.nD Cert.KernelIdeal.τ).loc Cert.KernelIdeal.main_arg13))) (v1 (m ((c.tc : Thread Cert.KernelIdeal.nD Cert.KernelIdeal.τ).loc Cert.KernelIdeal.main_arg14))) (v2 (m ((c.tc : Thread Cert.KernelIdeal.nD Cert.KernelIdeal.τ).loc Cert.KernelIdeal.main_arg15))) (v1 (m ((c.tc : Thread Cert.KernelIdeal.nD Cert.KernelIdeal.τ).loc Cert.KernelIdeal.main_arg16))) (v2 (m ((c.tc : Thread Cert.KernelIdeal.nD Cert.KernelIdeal.τ).loc Cert.KernelIdeal.main_arg17))) (v2 (m ((c.tc : Thread Cert.KernelIdeal.nD Cert.KernelIdeal.τ).loc Cert.KernelIdeal.main_arg18))) (v1 (m ((c.tc : Thread Cert.KernelIdeal.nD Cert.KernelIdeal.τ).loc Cert.KernelIdeal.main_arg19))) (v2 (m ((c.tc : Thread Cert.KernelIdeal.nD Cert.KernelIdeal.τ).loc Cert.KernelIdeal.main_arg20))) (v2 (m ((c.tc : Thread Cert.KernelIdeal.nD Cert.KernelIdeal.τ).loc Cert.KernelIdeal.main_arg21))) (v1 (m ((c.tc : Thread Cert.KernelIdeal.nD Cert.KernelIdeal.τ).loc Cert.KernelIdeal.main_arg22))) (v2 (m ((c.tc : Thread Cert.KernelIdeal.nD Cert.KernelIdeal.τ).loc Cert.KernelIdeal.main_arg23))) (v1 (m ((c.tc : Thread Cert.KernelIdeal.nD Cert.KernelIdeal.τ).loc Cert.KernelIdeal.main_arg24))) (v2 (m ((c.tc : Thread Cert.KernelIdeal.nD Cert.KernelIdeal.τ).loc Cert.KernelIdeal.main_arg25))) (v1 (m ((c.tc : Thread Cert.KernelIdeal.nD Cert.KernelIdeal.τ).loc Cert.KernelIdeal.main_arg26))) (src c) (dst c)
        (fun e => Cert.ReferenceIdeal.ReadP.val_main_v107 (F := Ideal) (m ((c.tc : Thread Cert.KernelIdeal.nD Cert.KernelIdeal.τ).loc Cert.KernelIdeal.main_arg27)) (ValueIdx.ix1 e)) : Cert.KernelIdeal.S1x1.Idx → EReal), ?_, ?_⟩
  · refine (θ_run Cert.KernelIdeal.defs _ _).mono (fun r h c => ⟨(h c).1.trans ?_, (h c).2⟩)
      (Cert.KernelIdeal.ValueP.run_blocks m ρ)
    rw [Cert.KernelIdeal.ValueK.final m c, Cert.EdgeWeights.V_x0 m c, Cert.EdgeWeights.V_adj m c]
    funext _
    exact Cert.KernelIdeal.ValueK.netK_eq_net _ _ _ _ _ _ _ _ _ _ _ _ _ _ _ _ _ _ _ _ _ _ _ _ _ _ _ _
      (Cert.PreRead.real_0 (hpre c)) (Cert.PreRead.real_1 (hpre c)) (Cert.PreRead.real_2 (hpre c)) (Cert.PreRead.real_3 (hpre c)) (Cert.PreRead.real_4 (hpre c)) (Cert.PreRead.real_5 (hpre c)) (Cert.PreRead.real_6 (hpre c)) (Cert.PreRead.real_7 (hpre c)) (Cert.PreRead.real_8 (hpre c)) (Cert.PreRead.real_9 (hpre c)) (Cert.PreRead.real_10 (hpre c)) (Cert.PreRead.real_11 (hpre c)) (Cert.PreRead.real_12 (hpre c)) (Cert.PreRead.real_13 (hpre c)) (Cert.PreRead.real_14 (hpre c)) (Cert.PreRead.real_15 (hpre c)) (Cert.PreRead.real_16 (hpre c)) (Cert.PreRead.real_17 (hpre c)) (Cert.PreRead.real_18 (hpre c)) (Cert.PreRead.real_19 (hpre c)) (Cert.PreRead.real_20 (hpre c)) (Cert.PreRead.real_21 (hpre c)) (Cert.PreRead.real_22 (hpre c)) (Cert.PreRead.real_23 (hpre c)) (Cert.PreRead.real_24 (hpre c)) (Cert.PreRead.real_25 (hpre c)) (Cert.PreRead.real_26 (hpre c))
      (src c) (dst c) (hsrc c) (hdst c)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14, e15, e16, e17, e18, e19, e20, e21, e22, e23, e24, e25, e26, e27⟩ := hagree c
    rw [Cert.ReferenceIdeal.ReadP.val_main_v156_eq, e0, e1, e2, e3, e4, e5, e6, e7, e8, e9, e10, e11, e12, e13, e14, e15, e16, e17, e18, e19, e20, e21, e22, e23, e24, e25, e26, e27]
    funext i
    obtain rfl : i = ValueIdx.ix2 (0 : Fin 1) (0 : Fin 1) := funext fun a => by
      match a with
      | ⟨0, h0⟩ => exact Fin.ext (Nat.lt_one_iff.mp (i ⟨0, h0⟩).isLt)
      | ⟨1, h1⟩ => exact Fin.ext (Nat.lt_one_iff.mp (i ⟨1, h1⟩).isLt)
    exact Cert.RefValue.ref_eq _ _ _ _ _ _ _ _ _ _ _ _ _ _ _ _ _ _ _ _ _ _ _ _ _ _ _ _ (src c) (dst c) (hsrc c) (hdst c)

theorem claim : Cert.Claim := ⟨Cert.Kernel.Gen.facts, Cert.KernelIdeal.Gen.facts, Cert.ReferenceIdeal.Gen.facts,
  Cert.Pre_finite_inputs.Gen.facts, frame_p, frame_pi, frame_ri, preserves, algebraic⟩

end Cert.Proof

end
